-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S256x256 .f32) (main_arg9 : FVec F S256 .f32) (main_arg10 : FVec F S256x64 .f32) (main_arg11 : FVec F S64 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x64 .f32 := Host.absf main_arg10
  let main_cst_16 : FVec F S_ .f32 := constant S_ .f32 0x7F800000#32
  let main_v45 : FVec F S256x64 .f32 := broadcastInDim S256x64 ![] bcast_S_S256x64 main_cst_16
  let main_v46 : IVec S256x64 1 := cmpf .olt main_v44 main_v45
  let main_c_17 : IVec S_ 1 := constantI S_ 1 1#1
  let main_v47 : IVec S_ 1 := (fun x v => Host.reduce IntOp.andi x v reducesTo_S256x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S256 .f32) (main_arg6 : FVec F S256x256 .f32) (main_arg7 : FVec F S256 .f32) (main_arg8 : FVec F S256x256 .f32) (main_arg9 : FVec F S256 .f32) (main_arg10 : FVec F S256x64 .f32) (main_arg11 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x600000 32) (main_arg2 : FVec F S128x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S650000x256 : Shape := ⟨2, ![650000, 256]⟩
abbrev S1x256 : Shape := ⟨2, ![1, 256]⟩
abbrev S50000x64 : Shape := ⟨2, ![50000, 64]⟩
abbrev S2000x64 : Shape := ⟨2, ![2000, 64]⟩
abbrev S650000x64 : Shape := ⟨2, ![650000, 64]⟩
abbrev S1x64 : Shape := ⟨2, ![1, 64]⟩

abbrev nBuf : Space → Nat
  | .hbm => 110
  | .vmem => 46
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x64, .f32⟩
  | .hbm, ⟨11, _⟩ => ⟨S64, .f32⟩
  | .hbm, ⟨12, _⟩ => ⟨S50000, .i32⟩
  | .hbm, ⟨13, _⟩ => ⟨S1x600000, .i32⟩
  | .hbm, ⟨14, _⟩ => ⟨S600000, .i32⟩
  | .hbm, ⟨15, _⟩ => ⟨S650000, .i32⟩
  | .hbm, ⟨16, _⟩ => ⟨S1x600000, .i32⟩
  | .hbm, ⟨17, _⟩ => ⟨S600000, .i32⟩
  | .hbm, ⟨18, _⟩ => ⟨S650000, .i32⟩
  | .hbm, ⟨19, _⟩ => ⟨S_, .f32⟩
  | .hbm, ⟨20, _⟩ => ⟨S650000, .f32⟩
  | .hbm, ⟨21, _⟩ => ⟨S_, .f32⟩
  | .hbm, ⟨22, _⟩ => ⟨S50000, .f32⟩
  | .hbm, ⟨23, _⟩ => ⟨S650000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x256, .f32⟩
  | .hbm, ⟨35, _⟩ => ⟨S_, .i32⟩
  | .hbm, ⟨36, _⟩ => ⟨S650000, .i32⟩
  | .hbm, ⟨37, _⟩ => ⟨S650000, .i1⟩
  | .hbm, ⟨38, _⟩ => ⟨S_, .i32⟩
  | .hbm, ⟨39, _⟩ => ⟨S650000, .i32⟩
  | .hbm, ⟨40, _⟩ => ⟨S650000, .i32⟩
  | .hbm, ⟨41, _⟩ => ⟨S650000, .i32⟩
  | .hbm, ⟨42, _⟩ => ⟨S650000x1, .i32⟩
  | .hbm, ⟨43, _⟩ => ⟨S650000x256, .f32⟩
  | .hbm, ⟨44, _⟩ => ⟨S_, .f32⟩
  | .hbm, ⟨45, _⟩ => ⟨S50000x256, .f32⟩
  | .hbm, ⟨46, _⟩ => ⟨S650000x1, .i32⟩
  | .hbm, ⟨47, _⟩ => ⟨S50000x256, .f32⟩
  | .hbm, ⟨48, _⟩ => ⟨S1x256, .f32⟩
  | .hbm, ⟨49, _⟩ => ⟨S50000x256, .f32⟩
  | .hbm, ⟨50, _⟩ => ⟨S_, .i32⟩
  | .hbm, ⟨51, _⟩ => ⟨S650000, .i32⟩
  | .hbm, ⟨52, _⟩ => ⟨S650000, .i1⟩
  | .hbm, ⟨53, _⟩ => ⟨S_, .i32⟩
  | .hbm, ⟨54, _⟩ => ⟨S650000, .i32⟩
  | .hbm, ⟨55, _⟩ => ⟨S650000, .i32⟩
  | .hbm, ⟨56, _⟩ => ⟨S650000, .i32⟩
  | .hbm, ⟨57, _⟩ => ⟨S650000x1, .i32⟩
  | .hbm, ⟨58, _⟩ => ⟨S650000x256, .f32⟩
  | .hbm, ⟨59, _⟩ => ⟨S_, .f32⟩
  | .hbm, ⟨60, _⟩ => ⟨S50000x256, .f32⟩
  | .hbm, ⟨61, _⟩ => ⟨S650000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S_, .i32⟩
  | .hbm, ⟨66, _⟩ => ⟨S650000, .i32⟩
  | .hbm, ⟨67, _⟩ => ⟨S650000, .i1⟩
  | .hbm, ⟨68, _⟩ => ⟨S_, .i32⟩
  | .hbm, ⟨69, _⟩ => ⟨S650000, .i32⟩
  | .hbm, ⟨70, _⟩ => ⟨S650000, .i32⟩
  | .hbm, ⟨71, _⟩ => ⟨S650000, .i32⟩
  | .hbm, ⟨72, _⟩ => ⟨S650000x1, .i32⟩
  | .hbm, ⟨73, _⟩ => ⟨S650000x256, .f32⟩
  | .hbm, ⟨74, _⟩ => ⟨S_, .f32⟩
  | .hbm, ⟨75, _⟩ => ⟨S50000x256, .f32⟩
  | .hbm, ⟨76, _⟩ => ⟨S650000x1, .i32⟩
  | .hbm, ⟨77, _⟩ => ⟨S50000x256, .f32⟩
  | .hbm, ⟨78, _⟩ => ⟨S1x256, .f32⟩
  | .hbm, ⟨79, _⟩ => ⟨S50000x256, .f32⟩
  | .hbm, ⟨80, _⟩ => ⟨S_, .i32⟩
  | .hbm, ⟨81, _⟩ => ⟨S650000, .i32⟩
  | .hbm, ⟨82, _⟩ => ⟨S650000, .i1⟩
  | .hbm, ⟨83, _⟩ => ⟨S_, .i32⟩
  | .hbm, ⟨84, _⟩ => ⟨S650000, .i32⟩
  | .hbm, ⟨85, _⟩ => ⟨S650000, .i32⟩
  | .hbm, ⟨86, _⟩ => ⟨S650000, .i32⟩
  | .hbm, ⟨87, _⟩ => ⟨S650000x1, .i32⟩
  | .hbm, ⟨88, _⟩ => ⟨S650000x256, .f32⟩
  | .hbm, ⟨89, _⟩ => ⟨S_, .f32⟩
  | .hbm, ⟨90, _⟩ => ⟨S50000x256, .f32⟩
  | .hbm, ⟨91, _⟩ => ⟨S650000x1, .i32⟩
  | .hbm, ⟨92, _⟩ => ⟨S50000x256, .f32⟩
  | .hbm, ⟨93, _⟩ => ⟨S1x256, .f32⟩
  | .hbm, ⟨94, _⟩ => ⟨S50000x64, .f32⟩
  | .hbm, ⟨95, _⟩ => ⟨S_, .i32⟩
  | .hbm, ⟨96, _⟩ => ⟨S650000, .i32⟩
  | .hbm, ⟨97, _⟩ => ⟨S650000, .i1⟩
  | .hbm, ⟨98, _⟩ => ⟨S_, .i32⟩
  | .hbm, ⟨99, _⟩ => ⟨S650000, .i32⟩
  | .hbm, ⟨100, _⟩ => ⟨S650000, .i32⟩
  | .hbm, ⟨101, _⟩ => ⟨S650000, .i32⟩
  | .hbm, ⟨102, _⟩ => ⟨S650000x1, .i32⟩
  | .hbm, ⟨103, _⟩ => ⟨S650000x64, .f32⟩
  | .hbm, ⟨104, _⟩ => ⟨S_, .f32⟩
  | .hbm, ⟨105, _⟩ => ⟨S50000x64, .f32⟩
  | .hbm, ⟨106, _⟩ => ⟨S650000x1, .i32⟩
  | .hbm, ⟨107, _⟩ => ⟨S50000x64, .f32⟩
  | .hbm, ⟨108, _⟩ => ⟨S1x64, .f32⟩
  | .hbm, ⟨109, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x1, .f32⟩
  | .local _ .vmem, ⟨4, _⟩ => ⟨S2000x1, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S1x256, .f32⟩
  | .local _ .vmem, ⟨10, _⟩ => ⟨S2000x1, .f32⟩
  | .local _ .vmem, ⟨11, _⟩ => ⟨S2000x1, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S1x256, .f32⟩
  | .local _ .vmem, ⟨18, _⟩ => ⟨S2000x1, .f32⟩
  | .local _ .vmem, ⟨19, _⟩ => ⟨S2000x1, .f32⟩
  | .local _ .vmem, ⟨20, _⟩ => ⟨S256x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S1x256, .f32⟩
  | .local _ .vmem, ⟨26, _⟩ => ⟨S2000x1, .f32⟩
  | .local _ .vmem, ⟨27, _⟩ => ⟨S2000x1, .f32⟩
  | .local _ .vmem, ⟨28, _⟩ => ⟨S256x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S1x256, .f32⟩
  | .local _ .vmem, ⟨34, _⟩ => ⟨S2000x1, .f32⟩
  | .local _ .vmem, ⟨35, _⟩ => ⟨S2000x1, .f32⟩
  | .local _ .vmem, ⟨36, _⟩ => ⟨S256x64, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S1x64, .f32⟩
  | .local _ .vmem, ⟨42, _⟩ => ⟨S2000x1, .f32⟩
  | .local _ .vmem, ⟨43, _⟩ => ⟨S2000x1, .f32⟩
  | .local _ .vmem, ⟨44, _⟩ => ⟨S2000x64, .f32⟩
  | .local _ .vmem, ⟨45, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_c_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_14 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_16 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg4_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg3_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem4_1 : DmaSem sig := 30
abbrev cc4_sem0_0 : DmaSem sig := 31
abbrev cc4_sem0_1 : DmaSem sig := 32
abbrev cc4_sem1_0 : DmaSem sig := 33
abbrev cc4_sem2_0 : DmaSem sig := 34
abbrev cc4_sem2_1 : DmaSem sig := 35
abbrev cc4_sem3_0 : DmaSem sig := 36
abbrev cc4_sem4_0 : DmaSem sig := 37
abbrev cc4_sem4_1 : DmaSem sig := 38
abbrev cc5_sem0_0 : DmaSem sig := 39
abbrev cc5_sem0_1 : DmaSem sig := 40
abbrev cc5_sem1_0 : DmaSem sig := 41
abbrev cc5_sem2_0 : DmaSem sig := 42
abbrev cc5_sem2_1 : DmaSem sig := 43
abbrev cc5_sem3_0 : DmaSem sig := 44
abbrev cc5_sem3_1 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S256x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S256x64_S256x64_0_0 : ∀ a, (![0, 0] : Fin 2 → Nat) a + S256x64.size a ≤ S256x64.size a
  h_S256x64 : 0 < S256x64.numel
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  shapeCasts_S2000x64_S2000x64 : S2000x64.ShapeCasts S2000x64
  scatter_S50000_S650000x1_S650000_n_0_0_1_wf : ScatterDims.WF S50000 S650000x1 S650000 [] [0] [0] 1
  dot_S2000x128_S128x256_S2000x256_1_0_0_1_n_n_wf : DotDims.WF S2000x128 S128x256 S2000x256 [1] [0] [0] [1] [] []
  gather_S50000x256_S650000x1_S650000x256_1_0_n_n_0_1_1256_wf : GatherDims.WF S50000x256 S650000x1 S650000x256 [1] [0] [] [0] [] 1 ![1, 256]
  scatter_S50000x256_S650000x1_S650000x256_1_0_0_1_wf : ScatterDims.WF S50000x256 S650000x1 S650000x256 [1] [0] [0] 1
  dot_S2000x256_S256x256_S2000x256_1_0_0_1_n_n_wf : DotDims.WF S2000x256 S256x256 S2000x256 [1] [0] [0] [1] [] []
  dot_S2000x256_S256x64_S2000x64_1_0_0_1_n_n_wf : DotDims.WF S2000x256 S256x64 S2000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .f32 = 32 ∨ (Rect.block (s := S50000x256) S2000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S50000x256.size a
  hwx3_4 : ∀ i : grid3.Coords, EltTy.bits .f32 = 32 ∨ (Rect.block (s := S50000x256) S2000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x64.size a ≤ S256x64.size a
  hwx4_3 : ∀ i : grid4.Coords, EltTy.bits .f32 = 32 ∨ (Rect.block (s := S256x64) S256x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x64.size a ≤ S50000x64.size a
  hwx4_4 : ∀ i : grid4.Coords, EltTy.bits .f32 = 32 ∨ (Rect.block (s := S50000x64) S2000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S50000x64.size a
  hwx5_3 : ∀ i : grid5.Coords, EltTy.bits .f32 = 32 ∨ (Rect.block (s := S50000x64) S2000x64.size (cc5_transform_3 i) (hinb5_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S650000x1_S650000x256_1_0_n_n_0_1_1256 : GatherDims S50000x256 S650000x1 S650000x256 where
  offsetDims := [1]
  collapsedSliceDims := [0]
  operandBatchingDims := []
  startIndicesBatchingDims := []
  startIndexMap := [0]
  indexVectorDim := 1
  sliceSizes := ![1, 256]
  wf := gather_S50000x256_S650000x1_S650000x256_1_0_n_n_0_1_1256_wf
def scatter_S50000x256_S650000x1_S650000x256_1_0_0_1 : ScatterDims S50000x256 S650000x1 S650000x256 where
  updateWindowDims := [1]
  insertedWindowDims := [0]
  scatterDimsToOperandDims := [0]
  indexVectorDim := 1
  wf := scatter_S50000x256_S650000x1_S650000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v50) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v62) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v15) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S256x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v64) S2000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v74) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v15) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v76) S2000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x256 : Shape := ⟨2, ![50000, 256]⟩
abbrev S650000x256 : Shape := ⟨2, ![650000, 256]⟩
abbrev S1x256 : Shape := ⟨2, ![1, 256]⟩
abbrev S50000x64 : Shape := ⟨2, ![50000, 64]⟩
abbrev S650000x64 : Shape := ⟨2, ![650000, 64]⟩
abbrev S1x64 : Shape := ⟨2, ![1, 64]⟩

abbrev nBuf : Space → Nat
  | .hbm => 164
  | .vmem => 0
  | .smem => 0
  | _ => 0

abbrev hbmTy0_0 (i : Nat) : BufTy := match i % 128 with
  | 0 => ⟨S50000x128, .f32⟩
  | 1 => ⟨S2x600000, .i32⟩
  | 2 => ⟨S128x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x64, .f32⟩
  | 11 => ⟨S64, .f32⟩
  | 12 => ⟨S50000, .i32⟩
  | 13 => ⟨S1x600000, .i32⟩
  | 14 => ⟨S600000, .i32⟩
  | 15 => ⟨S650000, .i32⟩
  | 16 => ⟨S1x600000, .i32⟩
  | 17 => ⟨S600000, .i32⟩
  | 18 => ⟨S650000, .i32⟩
  | 19 => ⟨S_, .f32⟩
  | 20 => ⟨S650000, .f32⟩
  | 21 => ⟨S_, .f32⟩
  | 22 => ⟨S50000, .f32⟩
  | 23 => ⟨S650000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S650000, .i32⟩
  | 35 => ⟨S650000, .i1⟩
  | 36 => ⟨S_, .i32⟩
  | 37 => ⟨S650000, .i32⟩
  | 38 => ⟨S650000, .i32⟩
  | 39 => ⟨S650000, .i32⟩
  | 40 => ⟨S650000x1, .i32⟩
  | 41 => ⟨S650000, .f32⟩
  | 42 => ⟨S_, .i32⟩
  | 43 => ⟨S650000, .i32⟩
  | 44 => ⟨S650000, .i1⟩
  | 45 => ⟨S_, .i32⟩
  | 46 => ⟨S650000, .i32⟩
  | 47 => ⟨S650000, .i32⟩
  | 48 => ⟨S650000, .i32⟩
  | 49 => ⟨S650000x1, .i32⟩
  | 50 => ⟨S650000, .f32⟩
  | 51 => ⟨S650000, .f32⟩
  | 52 => ⟨S50000x256, .f32⟩
  | 53 => ⟨S_, .i32⟩
  | 54 => ⟨S650000, .i32⟩
  | 55 => ⟨S650000, .i1⟩
  | 56 => ⟨S_, .i32⟩
  | 57 => ⟨S650000, .i32⟩
  | 58 => ⟨S650000, .i32⟩
  | 59 => ⟨S650000, .i32⟩
  | 60 => ⟨S650000x1, .i32⟩
  | 61 => ⟨S650000x256, .f32⟩
  | 62 => ⟨S650000x1, .f32⟩
  | 63 => ⟨S650000x256, .f32⟩
  | 64 => ⟨S650000x256, .f32⟩
  | 65 => ⟨S_, .f32⟩
  | 66 => ⟨S50000x256, .f32⟩
  | 67 => ⟨S650000x1, .i32⟩
  | 68 => ⟨S50000x256, .f32⟩
  | 69 => ⟨S1x256, .f32⟩
  | 70 => ⟨S50000x256, .f32⟩
  | 71 => ⟨S50000x256, .f32⟩
  | 72 => ⟨S_, .f32⟩
  | 73 => ⟨S50000x256, .f32⟩
  | 74 => ⟨S50000x256, .f32⟩
  | 75 => ⟨S50000x256, .f32⟩
  | 76 => ⟨S_, .i32⟩
  | 77 => ⟨S650000, .i32⟩
  | 78 => ⟨S650000, .i1⟩
  | 79 => ⟨S_, .i32⟩
  | 80 => ⟨S650000, .i32⟩
  | 81 => ⟨S650000, .i32⟩
  | 82 => ⟨S650000, .i32⟩
  | 83 => ⟨S650000x1, .i32⟩
  | 84 => ⟨S650000x256, .f32⟩
  | 85 => ⟨S650000x1, .f32⟩
  | 86 => ⟨S650000x256, .f32⟩
  | 87 => ⟨S650000x256, .f32⟩
  | 88 => ⟨S_, .f32⟩
  | 89 => ⟨S50000x256, .f32⟩
  | 90 => ⟨S650000x1, .i32⟩
  | 91 => ⟨S50000x256, .f32⟩
  | 92 => ⟨S1x256, .f32⟩
  | 93 => ⟨S50000x256, .f32⟩
  | 94 => ⟨S50000x256, .f32⟩
  | 95 => ⟨S_, .f32⟩
  | 96 => ⟨S50000x256, .f32⟩
  | 97 => ⟨S50000x256, .f32⟩
  | 98 => ⟨S50000x256, .f32⟩
  | 99 => ⟨S_, .i32⟩
  | 100 => ⟨S650000, .i32⟩
  | 101 => ⟨S650000, .i1⟩
  | 102 => ⟨S_, .i32⟩
  | 103 => ⟨S650000, .i32⟩
  | 104 => ⟨S650000, .i32⟩
  | 105 => ⟨S650000, .i32⟩
  | 106 => ⟨S650000x1, .i32⟩
  | 107 => ⟨S650000x256, .f32⟩
  | 108 => ⟨S650000x1, .f32⟩
  | 109 => ⟨S650000x256, .f32⟩
  | 110 => ⟨S650000x256, .f32⟩
  | 111 => ⟨S_, .f32⟩
  | 112 => ⟨S50000x256, .f32⟩
  | 113 => ⟨S650000x1, .i32⟩
  | 114 => ⟨S50000x256, .f32⟩
  | 115 => ⟨S1x256, .f32⟩
  | 116 => ⟨S50000x256, .f32⟩
  | 117 => ⟨S50000x256, .f32⟩
  | 118 => ⟨S_, .f32⟩
  | 119 => ⟨S50000x256, .f32⟩
  | 120 => ⟨S50000x256, .f32⟩
  | 121 => ⟨S50000x256, .f32⟩
  | 122 => ⟨S_, .i32⟩
  | 123 => ⟨S650000, .i32⟩
  | 124 => ⟨S650000, .i1⟩
  | 125 => ⟨S_, .i32⟩
  | 126 => ⟨S650000, .i32⟩
  | 127 => ⟨S650000, .i32⟩
  | _ => ⟨S50000x128, .f32⟩

abbrev hbmTy0_1 (i : Nat) : BufTy := match i % 128 with
  | 0 => ⟨S650000, .i32⟩
  | 1 => ⟨S650000x1, .i32⟩
  | 2 => ⟨S650000x256, .f32⟩
  | 3 => ⟨S650000x1, .f32⟩
  | 4 => ⟨S650000x256, .f32⟩
  | 5 => ⟨S650000x256, .f32⟩
  | 6 => ⟨S_, .f32⟩
  | 7 => ⟨S50000x256, .f32⟩
  | 8 => ⟨S650000x1, .i32⟩
  | 9 => ⟨S50000x256, .f32⟩
  | 10 => ⟨S1x256, .f32⟩
  | 11 => ⟨S50000x256, .f32⟩
  | 12 => ⟨S50000x256, .f32⟩
  | 13 => ⟨S_, .f32⟩
  | 14 => ⟨S50000x256, .f32⟩
  | 15 => ⟨S50000x256, .f32⟩
  | 16 => ⟨S50000x64, .f32⟩
  | 17 => ⟨S_, .i32⟩
  | 18 => ⟨S650000, .i32⟩
  | 19 => ⟨S650000, .i1⟩
  | 20 => ⟨S_, .i32⟩
  | 21 => ⟨S650000, .i32⟩
  | 22 => ⟨S650000, .i32⟩
  | 23 => ⟨S650000, .i32⟩
  | 24 => ⟨S650000x1, .i32⟩
  | 25 => ⟨S650000x64, .f32⟩
  | 26 => ⟨S650000x1, .f32⟩
  | 27 => ⟨S650000x64, .f32⟩
  | 28 => ⟨S650000x64, .f32⟩
  | 29 => ⟨S_, .f32⟩
  | 30 => ⟨S50000x64, .f32⟩
  | 31 => ⟨S650000x1, .i32⟩
  | 32 => ⟨S50000x64, .f32⟩
  | 33 => ⟨S1x64, .f32⟩
  | 34 => ⟨S50000x64, .f32⟩
  | 35 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_call2_cst : Ref sig .tc := ⟨.hbm, 95, rfl⟩
abbrev main_call2_v0 : Ref sig .tc := ⟨.hbm, 96, rfl⟩
abbrev main_v65 : Ref sig .tc := ⟨.hbm, 97, rfl⟩
abbrev main_v66 : Ref sig .tc := ⟨.hbm, 98, rfl⟩
abbrev main_c_12 : Ref sig .tc := ⟨.hbm, 99, rfl⟩
abbrev main_v67 : Ref sig .tc := ⟨.hbm, 100, rfl⟩
abbrev main_v68 : Ref sig .tc := ⟨.hbm, 101, rfl⟩
abbrev main_c_13 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_14 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_call3_cst : Ref sig .tc := ⟨.hbm, 118, rfl⟩
abbrev main_call3_v0 : Ref sig .tc := ⟨.hbm, 119, rfl⟩
abbrev main_v83 : Ref sig .tc := ⟨.hbm, 120, rfl⟩
abbrev main_v84 : Ref sig .tc := ⟨.hbm, 121, rfl⟩
abbrev main_c_15 : Ref sig .tc := ⟨.hbm, 122, rfl⟩
abbrev main_v85 : Ref sig .tc := ⟨.hbm, 123, rfl⟩
abbrev main_v86 : Ref sig .tc := ⟨.hbm, 124, rfl⟩
abbrev main_c_16 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_17 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_call4_cst : Ref sig .tc := ⟨.hbm, 141, rfl⟩
abbrev main_call4_v0 : Ref sig .tc := ⟨.hbm, 142, rfl⟩
abbrev main_v101 : Ref sig .tc := ⟨.hbm, 143, rfl⟩
abbrev main_v102 : Ref sig .tc := ⟨.hbm, 144, rfl⟩
abbrev main_c_18 : Ref sig .tc := ⟨.hbm, 145, rfl⟩
abbrev main_v103 : Ref sig .tc := ⟨.hbm, 146, rfl⟩
abbrev main_v104 : Ref sig .tc := ⟨.hbm, 147, rfl⟩
abbrev main_c_19 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_20 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x256_0_1 : S650000x1.BroadcastsInDim S650000x256 (![0, 1] : Fin 2 → Fin S650000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x256_S50000x256_1_0_0_1_n_n_wf : DotDims.WF S50000x128 S128x256 S50000x256 [1] [0] [0] [1] [] []
  gather_S50000x256_S650000x1_S650000x256_1_0_n_n_0_1_1256_wf : GatherDims.WF S50000x256 S650000x1 S650000x256 [1] [0] [] [0] [] 1 ![1, 256]
  scatter_S50000x256_S650000x1_S650000x256_1_0_0_1_wf : ScatterDims.WF S50000x256 S650000x1 S650000x256 [1] [0] [0] 1
  dot_S50000x256_S256x256_S50000x256_1_0_0_1_n_n_wf : DotDims.WF S50000x256 S256x256 S50000x256 [1] [0] [0] [1] [] []
  dot_S50000x256_S256x64_S50000x64_1_0_0_1_n_n_wf : DotDims.WF S50000x256 S256x64 S50000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S650000x1_S650000x256_1_0_n_n_0_1_1256 : GatherDims S50000x256 S650000x1 S650000x256 where
  offsetDims := [1]
  collapsedSliceDims := [0]
  operandBatchingDims := []
  startIndicesBatchingDims := []
  startIndexMap := [0]
  indexVectorDim := 1
  sliceSizes := ![1, 256]
  wf := gather_S50000x256_S650000x1_S650000x256_1_0_n_n_0_1_1256_wf
def scatter_S50000x256_S650000x1_S650000x256_1_0_0_1 : ScatterDims S50000x256 S650000x1 S650000x256 where
  updateWindowDims := [1]
  insertedWindowDims := [0]
  scatterDimsToOperandDims := [0]
  indexVectorDim := 1
  wf := scatter_S50000x256_S650000x1_S650000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf

class Facts : Prop extends Facts₀ where

variable [Facts]
-- ==== Proof.KRun.lean ====
/-
  The idealized kernel's run with its result named: every weakly fair execution of @main terminates, nothing
  faulting, the twelve argument arrays unchanged, and the result array holds what the LAST boundary of the fold
  through @main's fourteen segments (host stretches and pipelined regions alternating) holds at the result's buffer.
  The fold itself is read segment by segment elsewhere.
-/
import proofs.«120852_j32744830665494_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The launch over the fourteen segments, the last thread state read against the final state: the result's buffer
    is among the unscoped buffers the last boundary names, and each argument walks back to the launch memory. -/
theorem run_result : θ_run defs (onTc (τ := τ) (main (F := F))) ⟨m, fun _ => 0, ρ⟩ (fun r => ∀ c : Dev nD,
      r.2.mem ((c.tc : Thread nD τ).loc main_v76) = W14 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v76 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c)⟩)

end Cert.KernelIdeal.Result

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibTypedRef.lean ====
/-
  A value written into the buffer of a typed reference and read back through the same reference is the value.

  A typed reference names a buffer together with the type of the tensor value it holds and an equation saying that the
  buffer's own type is that type.  Contents pass between the value's type and the buffer's type by transport along that
  equation, in either direction.  The two transports are inverse to each other: to the buffer and back gives the value,
  and from the buffer and back gives the buffer's contents.  Both are proved for an arbitrary reference by making the
  equation the reflexive one, so neither statement asks what any particular reference's type is.

  Use: a stretch of host operations printed through typed references (the operations of an outlined function) leaves,
  once each operation's result has been rewritten to its function's value, every intermediate value wrapped in such a
  pair of transports.  Rewriting with the first lemma removes the pairs one by one, whichever proofs the two references
  carry, without the type of any reference being computed.
-/
import Idealize.ShloMosaic.Lib.StableHlo

namespace Cert.TypedRef

open Idealize.ShloMosaic Idealize.ShloMosaic.StableHlo

variable {sig : RefSig} {Val : EltTy → Type} {T : BufTy}

/-- Contents at the value's type, moved to the type of the reference's buffer and back, are unchanged. -/
theorem ofBuf_toBuf (x : TRef sig T) (w : T.Contents Val) : x.ofBuf (x.toBuf w) = w := by
  obtain ⟨r, h, _, _⟩ := x
  subst h
  rfl

/-- Contents of the reference's buffer, moved to the value's type and back, are unchanged. -/
theorem toBuf_ofBuf (x : TRef sig T) (w : x.ref.ty.Contents Val) : x.toBuf (x.ofBuf w) = w := by
  obtain ⟨r, h, _, _⟩ := x
  subst h
  rfl

end Cert.TypedRef
-- ==== Proof.LibHostKept.lean ====
/-
  A buffer that no operation of a stretch of host lines writes keeps its contents.

  For a LITERAL list `ops` of host operations (the builders `nullary`, `unary`, `binary`, `ternary`, `quaternary`,
  `reshape`, and the outlined functions' typed forms of them) and a reference `b` that none of them writes,
  `after ops v b = v b` for any contents `v`.  The tactic `host_kept ops` closes such a goal: it walks the list once,
  reads each operation's written buffer, and decides the reference different from it.  Useful wherever a value is
  carried across a stretch that neither reads nor writes it — a program of several device regions among host lines,
  or a long host program read stretch by stretch.
-/
import Idealize.ShloMosaic.Lib.StableHlo.Run

namespace Cert.Kept

/-- Closes `after ops v b = v b` for a literal list `ops` (given by name) none of whose operations writes `b`. -/
macro "host_kept" l:ident : tactic => `(tactic| (
  refine Idealize.ShloMosaic.StableHlo.after_of_forall_not_mem _ _ (List.forall_iff_forall_mem.mp ?_)
  simp only [$l:ident, List.Forall, Idealize.ShloMosaic.StableHlo.nullary_writes, Idealize.ShloMosaic.StableHlo.unary_writes,
    Idealize.ShloMosaic.StableHlo.binary_writes, Idealize.ShloMosaic.StableHlo.ternary_writes,
    Idealize.ShloMosaic.StableHlo.quaternary_writes, Idealize.ShloMosaic.StableHlo.reshape_writes, Finset.mem_singleton]
  repeat' apply And.intro
  all_goals exact Idealize.ShloMosaic.StableHlo.devRef_ne_of_ne (by decide)))

end Cert.Kept
-- ==== Proof.LibRowGatherScatter.lean ====
/-
  Rows taken by index and rows added by index, read at one element.

  For a table `x : [N, C]` and a column of integers `idx : [E, 1]`:

  * taking rows — the gather whose result `[E, C]` has in row `e` the row of `x` that `idx (e, 0)` names — reads at
    `(e, c)` the entry `x (r, c)`, where `r` is `idx (e, 0)` as a signed integer brought into `[0, N − 1]`;
  * adding rows — the scatter that adds row `e` of `u : [E, C]` onto the row of `x` that `idx (e, 0)` names, a row
    named outside `[0, N)` being dropped — has at `(n, c)`, over the extended reals, the entry `x (n, c)` plus the sum
    of `u (e, c)` over exactly those `e` whose integer `idx (e, 0)` is `n`.

  The columns never mix: entry `(·, c)` of either result depends on column `c` only.
-/
import Idealize.ShloMosaic.Lib.ValueIdx
import Idealize.ShloMosaic.PureOps.Ideal.Laws

noncomputable section

open scoped BigOperators

namespace Cert.RowGatherScatter

open Idealize.ShloMosaic Idealize.ShloMosaic.ValueIdx

/-! ## Taking rows -/

section Gather
variable {α : Type}

/-- The dimension numbers of "take the rows `idx` of an `[N, C]` table": the row axis collapsed and indexed, the
    column axis carried whole. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that entry `e` of the index column names: its integer read signed and brought into `[0, N − 1]`. -/
def rowOf {N E w : Nat} (hN : 0 < N) (idx : IVec ⟨2, ![E, 1]⟩ w) (e : Fin E) : Fin N :=
  ⟨min (idx (ix2 e 0)).toInt.toNat (N - 1), by omega⟩

/-- THE ROWS TAKEN, READ AT `(e, c)`: the table at the named row and the same column. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (rowOf hN idx e) c) := by
  unfold Host.gather
  refine congrArg x ?_
  funext a
  refine Fin.ext ?_
  match a with
  | ⟨0, _⟩ =>
    show (rowGatherDims N E C wf).start (ix2 e c) idx 0 + (rowGatherDims N E C wf).batchCoord (ix2 e c) 0
        + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
        + (rowGatherDims N E C wf).offCoord (ix2 e c) 1 = _
    rw [GatherDims.batchCoord_eq_zero _ _ _ List.not_mem_nil]
    unfold GatherDims.start
    rw [dif_neg (show (1 : Fin 2) ∉ (rowGatherDims N E C wf).startIndexMap from (by decide : (1 : Fin 2) ∉ ([0] : List (Fin 2))))]
    simp only [Nat.add_zero, Nat.zero_add]
    rfl

end Gather

/-! ## Adding rows -/

section Scatter

/-- The dimension numbers of "add the rows of `u : [E, C]` onto the rows `idx` of an `[N, C]` table": the row axis
    inserted and indexed, the column axis the update's window. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- Update `(e, c)` starts, on the row axis, at the integer `idx (e, 0)` read signed. -/
theorem start_row (idx : IVec ⟨2, ![E, 1]⟩ w) (e : Fin E) (c : Fin C) :
    (rowScatterDims N E C wf).start (ix2 e c) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis at zero; -/
theorem start_col (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from (by decide : (1 : Fin 2) ∉ ([0] : List (Fin 2))))]

/-- its window coordinate is nothing on the row axis -/
theorem window_row (e : Fin E) (c : Fin C) : (rowScatterDims N E C wf).window (ix2 e c) 0 = 0 := by
  unfold ScatterDims.window
  rw [dif_neg (show (0 : Fin 2) ∉ (rowScatterDims N E C wf).sKept from
    (by decide : (0 : Fin 2) ∉ (List.finRange 2).filter (· ∉ ([0] : List (Fin 2)))))]

/-- and its own column on the column axis. -/
theorem window_col (e : Fin E) (c : Fin C) : (rowScatterDims N E C wf).window (ix2 e c) 1 = c.val := by
  unfold ScatterDims.window
  rw [dif_pos (show (1 : Fin 2) ∈ (rowScatterDims N E C wf).sKept from
    (by decide : (1 : Fin 2) ∈ (List.finRange 2).filter (· ∉ ([0] : List (Fin 2)))))]
  rfl

/-- WHERE UPDATE `(e, c)` LANDS: on `(n, c')` exactly when its integer is `n` and the columns agree. -/
theorem resultIdx?_rows (idx : IVec ⟨2, ![E, 1]⟩ w) (e : Fin E) (c : Fin C) (n : Fin N) (c' : Fin C) :
    (rowScatterDims N E C wf).resultIdx? (ix2 e c) idx = some (ix2 n c') ↔ (idx (ix2 e 0)).toInt = (n.val : Int) ∧ c = c' := by
  unfold ScatterDims.resultIdx?
  constructor
  · intro h
    split at h
    · rename_i hin
      have h' := Option.some.inj h
      have h0 := congrArg (fun f => (f 0).val) h'
      have h1 := congrArg (fun f => (f 1).val) h'
      simp only [start_row, start_col, window_row, window_col] at h0 h1
      have hb := hin 0
      rw [start_row, window_row] at hb
      refine ⟨?_, Fin.ext ?_⟩
      · have : ((idx (ix2 e 0)).toInt + ((0 : Nat) : Int)).toNat = n.val := h0
        omega
      · have : (((0 : Int)) + ((c.val : Nat) : Int)).toNat = c'.val := h1
        omega
    · exact absurd h (by simp)
  · rintro ⟨hr, rfl⟩
    have h0 : 0 ≤ (rowScatterDims N E C wf).start (ix2 e c) idx 0 + (rowScatterDims N E C wf).window (ix2 e c) 0
        ∧ (rowScatterDims N E C wf).start (ix2 e c) idx 0 + (rowScatterDims N E C wf).window (ix2 e c) 0
          < (⟨2, ![N, C]⟩ : Shape).size 0 := by
      rw [start_row, window_row, hr]
      have := n.isLt
      refine ⟨by omega, ?_⟩
      show ((n.val : Int) + ((0 : Nat) : Int)) < ((N : Nat) : Int)
      omega
    have h1 : 0 ≤ (rowScatterDims N E C wf).start (ix2 e c) idx 1 + (rowScatterDims N E C wf).window (ix2 e c) 1
        ∧ (rowScatterDims N E C wf).start (ix2 e c) idx 1 + (rowScatterDims N E C wf).window (ix2 e c) 1
          < (⟨2, ![N, C]⟩ : Shape).size 1 := by
      rw [start_col, window_col]
      have := c.isLt
      refine ⟨by omega, ?_⟩
      show ((0 : Int) + ((c.val : Nat) : Int)) < ((C : Nat) : Int)
      omega
    have hin : ∀ a : Fin 2, 0 ≤ (rowScatterDims N E C wf).start (ix2 e c) idx a + (rowScatterDims N E C wf).window (ix2 e c) a
        ∧ (rowScatterDims N E C wf).start (ix2 e c) idx a + (rowScatterDims N E C wf).window (ix2 e c) a
          < (⟨2, ![N, C]⟩ : Shape).size a := fun a => match a with
      | ⟨0, _⟩ => h0
      | ⟨1, _⟩ => h1
    rw [dif_pos hin]
    refine congrArg some ?_
    funext a
    refine Fin.ext ?_
    match a with
    | ⟨0, _⟩ =>
      show ((rowScatterDims N E C wf).start (ix2 e c) idx 0 + (rowScatterDims N E C wf).window (ix2 e c) 0).toNat = n.val
      rw [start_row, window_row, hr]; omega
    | ⟨1, _⟩ =>
      show ((rowScatterDims N E C wf).start (ix2 e c) idx 1 + (rowScatterDims N E C wf).window (ix2 e c) 1).toNat = c.val
      rw [start_col, window_col]; omega

/-- The updates that land in row `n`: the entries of the index column whose integer is `n`. -/
def hits (idx : IVec ⟨2, ![E, 1]⟩ w) (n : Fin N) : Finset (Fin E) :=
  Finset.univ.filter fun e => (idx (ix2 e 0)).toInt = (n.val : Int)

/-- THE ROWS ADDED, READ AT `(n, c)` over the extended reals: the table's entry plus the sum, over the updates that
    land in row `n`, of their entries in column `c`. -/
theorem scatterAdd_rows_apply (x : FVec Ideal ⟨2, ![N, C]⟩ .f32) (idx : IVec ⟨2, ![E, 1]⟩ w)
    (u : FVec Ideal ⟨2, ![E, C]⟩ .f32) (n : Fin N) (c : Fin C) :
    Host.scatterAdd (rowScatterDims N E C wf) x idx u (ix2 n c) = x (ix2 n c) + ∑ e ∈ hits idx n, u (ix2 e c) := by
  show Ideal.hostScatterAdd (rowScatterDims N E C wf) x idx u (ix2 n c) = _
  unfold Ideal.hostScatterAdd
  refine congrArg (fun s => x (ix2 n c) + s) ?_
  rw [Finset.sum_filter, sum_idx2]
  unfold hits
  rw [Finset.sum_filter]
  refine Finset.sum_congr rfl fun e _ => ?_
  by_cases he : (idx (ix2 e 0)).toInt = (n.val : Int)
  · rw [if_pos he]
    rw [Finset.sum_eq_single c]
    · rw [if_pos ((resultIdx?_rows wf idx e c n c).mpr ⟨he, rfl⟩)]
    · intro c' _ hc'
      rw [if_neg (fun h => hc' ((resultIdx?_rows wf idx e c' n c).mp h).2)]
    · intro h; exact absurd (Finset.mem_univ c) h
  · rw [if_neg he]
    refine Finset.sum_eq_zero fun c' _ => ?_
    rw [if_neg (fun h => he ((resultIdx?_rows wf idx e c' n c).mp h).1)]

end Scatter

end Cert.RowGatherScatter

end
-- ==== Proof.LibVectorGatherScatter.lean ====
/-
  Entries of a vector taken by index and added by index, read at one element.

  For a vector `x : [N]` and a column of integers `idx : [E, 1]`:

  * taking entries — the gather whose result `[E]` has at `e` the entry of `x` that `idx (e, 0)` names — reads at `e`
    the entry `x r`, where `r` is `idx (e, 0)` as a signed integer brought into `[0, N − 1]`;
  * adding entries — the scatter that adds entry `e` of `u : [E]` onto the entry of `x` that `idx (e, 0)` names, an
    entry named outside `[0, N)` being dropped — has at `n`, over the extended reals, the entry `x n` plus the sum of
    `u e` over exactly those `e` whose integer `idx (e, 0)` is `n`.

  These are the one-axis siblings of the row gather and the row scatter-add of a table: the operand's only axis is
  the indexed one, so nothing is carried along and entry `e` of the updates lands on one entry of the operand.
-/
import Idealize.ShloMosaic.Lib.ValueIdx
import Idealize.ShloMosaic.PureOps.Ideal.Laws

noncomputable section

open scoped BigOperators

namespace Cert.VectorGatherScatter

open Idealize.ShloMosaic Idealize.ShloMosaic.ValueIdx

/-! ## A rank-1 index set is its one coordinate range -/

/-- A rank-1 index set is the range of its coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Taking entries -/

section Gather
variable {α : Type}

/-- The dimension numbers of "take the entries `idx` of an `[N]` vector": the one axis collapsed and indexed, no
    axis carried. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRIES TAKEN, READ AT `e`: the vector at the named entry, the integer `idx (e, 0)` read signed and brought
    into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  refine congrArg x ?_
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## Adding entries -/

section Scatter

/-- The dimension numbers of "add the entries of `u : [E]` onto the entries `idx` of an `[N]` vector": the one axis
    inserted and indexed, the updates without a window. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- Update `e` starts at the integer `idx (e, 0)` read signed; -/
theorem start_vec (idx : IVec ⟨2, ![E, 1]⟩ w) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- it has no window: its window coordinate on the one axis is nothing. -/
theorem window_vec (e : Fin E) : (vecScatterDims N E wf).window (ix1 e) 0 = 0 := by
  unfold ScatterDims.window
  rw [dif_neg (show (0 : Fin 1) ∉ (vecScatterDims N E wf).sKept from
    (by decide : (0 : Fin 1) ∉ (List.finRange 1).filter (· ∉ ([0] : List (Fin 1)))))]

/-- WHERE UPDATE `e` LANDS: on `n` exactly when its integer is `n`. -/
theorem resultIdx?_vec (idx : IVec ⟨2, ![E, 1]⟩ w) (e : Fin E) (n : Fin N) :
    (vecScatterDims N E wf).resultIdx? (ix1 e) idx = some (ix1 n) ↔ (idx (ix2 e 0)).toInt = (n.val : Int) := by
  unfold ScatterDims.resultIdx?
  constructor
  · intro h
    split at h
    · rename_i hin
      have h' := Option.some.inj h
      have h0 := congrArg (fun f => (f 0).val) h'
      simp only [start_vec, window_vec] at h0
      have hb := hin 0
      rw [start_vec, window_vec] at hb
      have : ((idx (ix2 e 0)).toInt + ((0 : Nat) : Int)).toNat = n.val := h0
      omega
    · exact absurd h (by simp)
  · intro hr
    have h0 : 0 ≤ (vecScatterDims N E wf).start (ix1 e) idx 0 + (vecScatterDims N E wf).window (ix1 e) 0
        ∧ (vecScatterDims N E wf).start (ix1 e) idx 0 + (vecScatterDims N E wf).window (ix1 e) 0
          < (⟨1, ![N]⟩ : Shape).size 0 := by
      rw [start_vec, window_vec, hr]
      have := n.isLt
      refine ⟨by omega, ?_⟩
      show ((n.val : Int) + ((0 : Nat) : Int)) < ((N : Nat) : Int)
      omega
    have hin : ∀ a : Fin 1, 0 ≤ (vecScatterDims N E wf).start (ix1 e) idx a + (vecScatterDims N E wf).window (ix1 e) a
        ∧ (vecScatterDims N E wf).start (ix1 e) idx a + (vecScatterDims N E wf).window (ix1 e) a
          < (⟨1, ![N]⟩ : Shape).size a := fun a => match a with
      | ⟨0, _⟩ => h0
    rw [dif_pos hin]
    refine congrArg some ?_
    funext a
    refine Fin.ext ?_
    match a with
    | ⟨0, _⟩ =>
      show ((vecScatterDims N E wf).start (ix1 e) idx 0 + (vecScatterDims N E wf).window (ix1 e) 0).toNat = n.val
      rw [start_vec, window_vec, hr]; omega

/-- The updates that land on entry `n`: the entries of the index column whose integer is `n`. -/
def hits (idx : IVec ⟨2, ![E, 1]⟩ w) (n : Fin N) : Finset (Fin E) :=
  Finset.univ.filter fun e => (idx (ix2 e 0)).toInt = (n.val : Int)

/-- An update is among the hits of `n` exactly when its integer is `n`. -/
theorem mem_hits (idx : IVec ⟨2, ![E, 1]⟩ w) (n : Fin N) (e : Fin E) :
    e ∈ hits idx n ↔ (idx (ix2 e 0)).toInt = (n.val : Int) := by
  unfold hits
  rw [Finset.mem_filter]
  exact ⟨fun h => h.2, fun h => ⟨Finset.mem_univ e, h⟩⟩

/-- THE ENTRIES ADDED, READ AT `n` over the extended reals: the vector's entry plus the sum of the updates that land
    on `n`. -/
theorem scatterAdd_vec_apply (x : FVec Ideal ⟨1, ![N]⟩ .f32) (idx : IVec ⟨2, ![E, 1]⟩ w)
    (u : FVec Ideal ⟨1, ![E]⟩ .f32) (n : Fin N) :
    Host.scatterAdd (vecScatterDims N E wf) x idx u (ix1 n) = x (ix1 n) + ∑ e ∈ hits idx n, u (ix1 e) := by
  show Ideal.hostScatterAdd (vecScatterDims N E wf) x idx u (ix1 n) = _
  unfold Ideal.hostScatterAdd
  refine congrArg (fun s => x (ix1 n) + s) ?_
  rw [Finset.sum_filter, sum_idx1]
  unfold hits
  rw [Finset.sum_filter]
  refine Finset.sum_congr rfl fun e _ => ?_
  by_cases he : (idx (ix2 e 0)).toInt = (n.val : Int)
  · rw [if_pos he, if_pos ((resultIdx?_vec wf idx e n).mpr he)]
  · rw [if_neg he, if_neg (fun h => he ((resultIdx?_vec wf idx e n).mp h))]

end Scatter

end Cert.VectorGatherScatter

end
-- ==== Proof.LibHostBroadcast.lean ====
/-
  The host's broadcasts of a bias, of a column and of a scalar, read at an index.

  A vector of length `n` placed as a one-row matrix and repeated down `a` rows has at `(p, q)` its entry `q`.  A vector of
  length `a` placed as a one-column matrix and repeated across `b` columns has at `(p, q)` its entry `p`.  A scalar
  repeated over any shape has everywhere its one value.
-/
import Idealize.ShloMosaic.Lib.Pipeline.Value
import Idealize.ShloMosaic.Lib.ValueIdx

noncomputable section

namespace Cert.HostBroadcast

open Idealize.ShloMosaic Idealize.ShloMosaic.ValueIdx

variable {α : Type}

/-- A vector as a `[1, n]` row repeated over `[a, n]`: at `(p, q)` its entry `q`. -/
theorem row_apply {a n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 v) (ix2 p q) = v (ix1 q) := by
  rw [broadcastInDim_apply ![0, 1] h2 _ (ix2 p q) (ix2 (0 : Fin 1) q) (fun ax => by
    match ax with
    | ⟨0, _⟩ => show (0 : ℕ) = if (1 : ℕ) = 1 then 0 else p.val; rw [if_pos rfl]
    | ⟨1, _⟩ =>
      show q.val = if n = 1 then 0 else q.val
      split
      · have := q.isLt; omega
      · rfl)]
  exact broadcastInDim_apply ![1] h1 v (ix2 (0 : Fin 1) q) (ix1 q) (fun ax => by
    match ax with
    | ⟨0, _⟩ =>
      show q.val = if n = 1 then 0 else q.val
      split
      · have := q.isLt; omega
      · rfl)

/-- A vector as an `[a, 1]` column repeated over `[a, b]`: at `(p, q)` its entry `p`. -/
theorem col_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])]
  exact broadcastInDim_apply ![0] h1 v (ix2 p (0 : Fin 1)) (ix1 p) (fun ax => by
    match ax with
    | ⟨0, _⟩ =>
      show p.val = if a = 1 then 0 else p.val
      split
      · have := p.isLt; omega
      · rfl)

/-- The same column form one step at a time: an `[a]` vector as an `[a, 1]` column, at `(p, 0)`. -/
theorem col_one_apply {a : ℕ} (v : (⟨1, ![a]⟩ : Shape).Idx → α)
    (h1 : (⟨1, ![a]⟩ : Shape).BroadcastsInDim ⟨2, ![a, 1]⟩ ![0]) (p : Fin a) :
    broadcastInDim ⟨2, ![a, 1]⟩ ![0] h1 v (ix2 p (0 : Fin 1)) = v (ix1 p) :=
  broadcastInDim_apply ![0] h1 v (ix2 p (0 : Fin 1)) (ix1 p) (fun ax => by
    match ax with
    | ⟨0, _⟩ =>
      show p.val = if a = 1 then 0 else p.val
      split
      · have := p.isLt; omega
      · rfl)

/-- An `[a, 1]` column repeated over `[a, b]`, at `(p, q)`: the column's entry `(p, 0)`. -/
theorem col_spread_apply {a b : ℕ} (v : (⟨2, ![a, 1]⟩ : Shape).Idx → α)
    (h2 : (⟨2, ![a, 1]⟩ : Shape).BroadcastsInDim ⟨2, ![a, b]⟩ ![0, 1]) (p : Fin a) (q : Fin b) :
    broadcastInDim ⟨2, ![a, b]⟩ ![0, 1] h2 v (ix2 p q) = v (ix2 p (0 : Fin 1)) :=
  broadcastInDim_apply ![0, 1] h2 v (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])

/-- A scalar repeated over any shape: everywhere its one value. -/
theorem scalar_apply {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 (fun ax => ax.elim0)

end Cert.HostBroadcast

end
-- ==== Proof.LibMeanAggregate.lean ====
/-
  Mean aggregation commutes with a linear map — the one law that joins the two programs.

  Fix a node. Let `H` be the edges arriving at it, `f e k` the feature `k` of edge `e`'s source row, `w e` the
  edge's weight, `wn k` one column of the neighbour weight matrix, and `d = max D 1` the node's clipped in-degree.
  One program first sums the weighted source rows, scales the sum by `1 / d` and then applies the matrix:

      ∑ k, ((0 + ∑ e ∈ H, f e k · w e) · (1 / d)) · wn k

  the other applies the matrix to every source row first, weights, sums and divides:

      (0 + ∑ e ∈ H, (∑ k, f e k · wn k) · w e) / d.

  Over the reals these agree by exchanging the two finite sums and distributing the products. Over the extended
  reals the same holds as soon as the `f`, `w`, `wn` are real: the divisor `d ≥ 1` is never zero, so dividing by it
  is multiplying by `d⁻¹`, and `d⁻¹` is a real number in `[0, 1]` whatever `D` is (`⊤⁻¹ = 0`); nothing infinite
  enters the sums.
-/
import Idealize.ShloMosaic.PureOps.Ideal

noncomputable section

open scoped BigOperators

namespace Cert.MeanAggregate

open Idealize.ShloMosaic

/-- The inclusion of the reals in the extended reals commutes with finite sums. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- THE LAW OVER THE REALS: scaling the aggregated rows by `c` and then contracting with `wn` is contracting every
    row with `wn` first, then weighting, summing and scaling. -/
theorem aggregate_real {E K : Type} [Fintype K] (H : Finset E) (f : E → K → ℝ) (w : E → ℝ) (wn : K → ℝ) (c : ℝ) :
    ∑ k, ((∑ e ∈ H, f e k * w e) * c) * wn k = (∑ e ∈ H, (∑ k, f e k * wn k) * w e) * c := by
  calc ∑ k, ((∑ e ∈ H, f e k * w e) * c) * wn k
      = ∑ k, ∑ e ∈ H, f e k * w e * c * wn k := by
        refine Finset.sum_congr rfl fun k _ => ?_
        rw [Finset.sum_mul, Finset.sum_mul]
    _ = ∑ e ∈ H, ∑ k, f e k * w e * c * wn k := Finset.sum_comm
    _ = ∑ e ∈ H, (∑ k, f e k * wn k) * w e * c := by
        refine Finset.sum_congr rfl fun e _ => ?_
        rw [Finset.sum_mul, Finset.sum_mul]
        exact Finset.sum_congr rfl fun k _ => by ring
    _ = (∑ e ∈ H, (∑ k, f e k * wn k) * w e) * c := by rw [Finset.sum_mul]

/-- The unit word of single precision denotes the number one. -/
theorem ofBits_one : Ideal.ofBits .f32 0x3F800000#32 = 1 := by
  simp [Ideal.ofBits, Ideal.ieee, -EReal.coe_mul]; norm_num

/-- A degree clipped below at one is never zero, and its inverse is a real number. -/
theorem inv_max_one (D : EReal) : max D 1 ≠ 0 ∧ ∃ c : ℝ, (max D 1)⁻¹ = (c : EReal) := by
  have h1 : (1 : EReal) ≤ max D 1 := le_max_right _ _
  generalize max D 1 = d at h1 ⊢
  refine ⟨fun h0 => ?_, ?_⟩
  · rw [h0] at h1
    exact absurd h1 (by norm_num)
  · induction d using EReal.rec with
    | bot => exact absurd (le_bot_iff.mp h1) (by exact_mod_cast EReal.coe_ne_bot (1 : ℝ))
    | coe r => exact ⟨r⁻¹, (EReal.coe_inv r).symm⟩
    | top => exact ⟨0, by simp⟩

/-- THE LAW OVER THE EXTENDED REALS, in the two programs' own spelling: real features, weights and matrix entries, any
    extended-real degree `D`. -/
theorem aggregate_ereal {E K : Type} [Fintype K] (H : Finset E) (f : E → K → ℝ) (w : E → ℝ) (wn : K → ℝ) (D : EReal) :
    ∑ k, (((0 : EReal) + ∑ e ∈ H, (f e k : EReal) * (w e : EReal)) * Ideal.div 1 (max D 1)) * (wn k : EReal)
      = Ideal.div (0 + ∑ e ∈ H, (∑ k, (f e k : EReal) * (wn k : EReal)) * (w e : EReal)) (max D 1) := by
  obtain ⟨h0, c, hc⟩ := inv_max_one D
  unfold Ideal.div
  rw [if_neg h0, if_neg h0, hc, one_mul, zero_add]
  have hl : ∀ k, (((0 : EReal) + ∑ e ∈ H, (f e k : EReal) * (w e : EReal)) * (c : EReal)) * (wn k : EReal)
      = (((∑ e ∈ H, f e k * w e) * c * wn k : ℝ) : EReal) := fun k => by
    rw [zero_add, EReal.coe_mul, EReal.coe_mul, coe_sum]
    simp only [EReal.coe_mul]
  have hr : ∀ e, (∑ k, (f e k : EReal) * (wn k : EReal)) * (w e : EReal) = (((∑ k, f e k * wn k) * w e : ℝ) : EReal) := fun e => by
    rw [EReal.coe_mul, coe_sum]
    simp only [EReal.coe_mul]
  simp only [hl, hr]
  rw [← coe_sum, ← coe_sum, ← EReal.coe_mul]
  exact congrArg _ (aggregate_real H f w wn c)

end Cert.MeanAggregate

end
-- ==== Proof.LibJoinIota.lean ====
/-
  Two vectors joined end to end, the vector of positions, and the words that name a position — read at one element.

  * Joining: for `a : [A]` and `b : [B]` the vector `[C]`, `C = A + B`, that is `a` followed by `b` reads at `j` the
    entry `a j` when `j < A` and the entry `b (j − A)` when `A ≤ j`.
  * Positions: the vector `[N]` whose entry `n` is the 32-bit word of `n`; while `N ≤ 2³¹` that word, read as a signed
    integer, is `n` itself.
  * Words that name a position: a 32-bit word whose signed integer is a natural number `k < K` (with `K < 2³¹`) is
    not negative, so the rule "add `K` to a negative index" leaves it as it is, and bringing its integer into
    `[0, K − 1]` gives `k`. Stated for every such `K` and at `K = 100000`.
  * The comparison, the sum and the choice of integer vectors read at an index are those of the entries.
-/
import Idealize.ShloMosaic.Lib.ValueIdx
import Idealize.ShloMosaic.Lib.Pipeline.Value
import Idealize.ShloMosaic.Lib.WordArith
import Idealize.ShloMosaic.Lib.Affine

noncomputable section

namespace Cert.JoinIota

open Idealize.ShloMosaic Idealize.ShloMosaic.ValueIdx

/-! ## Two vectors joined end to end -/

section Join
variable {α : Type} {A B C : Nat}

/-- The joined vector is as long as the two together. -/
theorem join_extent (h : Shape.Concatenates [(⟨1, ![A]⟩ : Shape), ⟨1, ![B]⟩] ⟨1, ![C]⟩ 0) : C = A + B := by
  have e : A + (B + 0) = C := h.2.2
  omega

/-- THE JOINED VECTOR READ IN ITS FIRST PART: at `j < A` it is the first vector at `j`. -/
theorem join_left_apply (a : (⟨1, ![A]⟩ : Shape).Idx → α) (b : (⟨1, ![B]⟩ : Shape).Idx → α)
    (h : Shape.Concatenates [(⟨1, ![A]⟩ : Shape), ⟨1, ![B]⟩] ⟨1, ![C]⟩ 0) (j : Fin C) (hj : j.val < A) :
    concatenate ⟨1, ![C]⟩ 0 [⟨⟨1, ![A]⟩, a⟩, ⟨⟨1, ![B]⟩, b⟩] h (ix1 j) = a (ix1 ⟨j.val, hj⟩) :=
  concatenate_pair_apply_left 0 a b h (ix1 j) rfl (ix1 ⟨j.val, hj⟩) (fun c => match c with | ⟨0, _⟩ => rfl)

/-- THE JOINED VECTOR READ IN ITS SECOND PART: at `A ≤ j` it is the second vector at `j − A`. -/
theorem join_right_apply (a : (⟨1, ![A]⟩ : Shape).Idx → α) (b : (⟨1, ![B]⟩ : Shape).Idx → α)
    (h : Shape.Concatenates [(⟨1, ![A]⟩ : Shape), ⟨1, ![B]⟩] ⟨1, ![C]⟩ 0) (j : Fin C) (hj : A ≤ j.val) :
    concatenate ⟨1, ![C]⟩ 0 [⟨⟨1, ![A]⟩, a⟩, ⟨⟨1, ![B]⟩, b⟩] h (ix1 j)
      = b (ix1 ⟨j.val - A, by have := join_extent h; have := j.isLt; omega⟩) :=
  concatenate_pair_apply_right 0 a b h (ix1 j) rfl rfl (ix1 ⟨j.val - A, by have := join_extent h; have := j.isLt; omega⟩)
    (fun c hc => match c, hc with | ⟨0, _⟩, hc => absurd rfl hc)
    (by show j.val - A + A = j.val; omega)

end Join

/-! ## The vector of positions -/

section Iota
variable {N : Nat}

/-- THE VECTOR OF POSITIONS READ AT `n`: the 32-bit word of `n`. -/
theorem iota_vec_apply (n : Fin N) : iotaInDim ⟨1, ![N]⟩ 32 0 (ix1 n) = BitVec.ofNat 32 n.val := rfl

/-- While there are at most `2³¹` positions, the word of position `n` read signed is `n`. -/
theorem iota_toInt (hN : N ≤ 2 ^ 31) (n : Fin N) : (BitVec.ofNat 32 n.val).toInt = (n.val : Int) :=
  WordArith.toInt_ofNat_small n.val (by have := n.isLt; omega)

end Iota

/-! ## Comparison, sum and choice of integer vectors at an index -/

section Pointwise
variable {s : Shape} {w : Nat}

/-- A comparison of integer vectors at an index compares the entries. -/
theorem cmpi_apply (p : CmpIPredicate) (x y : IVec s w) (i : s.Idx) : cmpi p x y i = IntOp.cmpi p (x i) (y i) := rfl
/-- A sum of integer vectors at an index adds the entries (as words, wrapping). -/
theorem addi_apply (x y : IVec s w) (i : s.Idx) : addi x y i = x i + y i := rfl
/-- An integer constant reads its word everywhere. -/
theorem constantI_apply (b : BitVec w) (i : s.Idx) : constantI s w b i = b := rfl

end Pointwise

/-! ## Words that name a position -/

section Words

/-- A word whose signed integer is a natural number is not below zero: the comparison "below zero" answers no. -/
theorem slt_zero_of_hit (v : BitVec 32) (k : Nat) (h : v.toInt = (k : Int)) : IntOp.cmpi .slt v 0#32 = 0#1 := by
  refine eq_zero_of_ne_one fun h1 => ?_
  have := IntOp.cmpi_slt.mp h1
  rw [h] at this
  have h0 : (0#32 : BitVec 32).toInt = 0 := by decide
  rw [h0] at this
  omega

/-- "Add `K` to a negative index" leaves a word that names a position as it is, whatever word `K` is. -/
theorem norm_of_hit' (v c : BitVec 32) (k : Nat) (h : v.toInt = (k : Int)) :
    Scalar.select (IntOp.cmpi .slt v 0#32) (v + c) v = v := by
  rw [slt_zero_of_hit v k h, select_zero]

/-- … in particular at `K = 100000`. -/
theorem norm_of_hit (v : BitVec 32) (k : Nat) (_hk : k < 100000) (h : v.toInt = (k : Int)) :
    Scalar.select (IntOp.cmpi .slt v 0#32) (v + 100000#32) v = v :=
  norm_of_hit' v 100000#32 k h

/-- Bringing the integer of a word that names position `k < K` into `[0, K − 1]` gives `k`. -/
theorem clamp_of_hit' (K : Nat) (v : BitVec 32) (k : Nat) (hk : k < K) (h : v.toInt = (k : Int)) :
    min v.toInt.toNat (K - 1) = k := by
  rw [h]
  omega

/-- … in particular at `K = 100000`. -/
theorem clamp_of_hit (v : BitVec 32) (k : Nat) (hk : k < 100000) (h : v.toInt = (k : Int)) :
    min v.toInt.toNat (100000 - 1) = k :=
  clamp_of_hit' 100000 v k hk h

end Words

end Cert.JoinIota

end
-- ==== Proof.Graph.lean ====
/-
  The graph a list of directed edges defines, read off two vectors of 32-bit words: `sv e` names edge `e`'s source
  node and `dv e` its target node, among 50000 nodes and 650000 edges.

  * An edge ENDS in node `n` when its target word, read signed, is `n` (`hitOf`): a target outside `[0, 50000)`
    ends nowhere.
  * The row a word names when a row is TAKEN from a node table (`rowOf`): a negative word counts from the end
    (`wrap`), and the result is brought into `[0, 49999]` (`clampRow`). For an edge ending in `n` the row its
    target word names is `n` itself.
  * A node's weight (`dOf`) is `deg^(-1/2)` of its in-degree `deg` — the number of edges ending in it, counted
    as a sum of ones from zero — when `deg > 0`, and `0` otherwise: always a nonnegative REAL.
  * An edge's weight (`nrmOf`) is the product of the weights of the rows its source and target words name.
-/
import Idealize.ShloMosaic.Lib.ValueIdx
import Idealize.ShloMosaic.PureOps.Ideal.Laws
import proofs.«120852_j32744830665494_2_alg».proof.Proof.LibMeanAggregate
import proofs.«120852_j32744830665494_2_alg».proof.Proof.LibJoinIota

noncomputable section

open scoped BigOperators

namespace Cert.Graph

open Idealize.ShloMosaic Idealize.ShloMosaic.ValueIdx

/-- A negative index counts from the end of the 50000 rows. -/
def wrap (w : BitVec 32) : BitVec 32 := Scalar.select (IntOp.cmpi .slt w 0#32) (w + 50000#32) w

/-- A word read signed and brought into `[0, 49999]`. -/
def clampRow (w : BitVec 32) : Fin 50000 := ⟨min w.toInt.toNat (50000 - 1), by omega⟩

/-- The row a word names when a row is taken. -/
def rowOf (w : BitVec 32) : Fin 50000 := clampRow (wrap w)

/-- The weight of a node whose incoming edges are `S`. -/
def weightOf (S : Finset (Fin 650000)) : EReal :=
  Scalar.select
    (Ideal.cmp .ogt (Ideal.ofBits .f32 0x00000000#32 + ∑ _e ∈ S, Ideal.ofBits .f32 0x3F800000#32) (Ideal.ofBits .f32 0x00000000#32))
    (Ideal.rsqrt (Ideal.ofBits .f32 0x00000000#32 + ∑ _e ∈ S, Ideal.ofBits .f32 0x3F800000#32))
    (Ideal.ofBits .f32 0x00000000#32)

section
variable (sv dv : IVec ⟨1, ![650000]⟩ 32)

/-- Edge `e`'s source row. -/
def srcOf (e : Fin 650000) : Fin 50000 := rowOf (sv (ix1 e))

/-- The edges ending in node `n`. -/
def hitOf (n : Fin 50000) : Finset (Fin 650000) := Finset.univ.filter fun e => (dv (ix1 e)).toInt = (n.val : Int)

/-- Node `n`'s weight. -/
def dOf (n : Fin 50000) : EReal := weightOf (hitOf dv n)

/-- Edge `e`'s weight. -/
def nrmOf (e : Fin 650000) : EReal := dOf dv (rowOf (sv (ix1 e))) * dOf dv (rowOf (dv (ix1 e)))

theorem mem_hitOf (n : Fin 50000) (e : Fin 650000) : e ∈ hitOf dv n ↔ (dv (ix1 e)).toInt = (n.val : Int) := by
  unfold hitOf; simp

/-- For an edge ending in `n` the row its target word names is `n`. -/
theorem rowOf_of_hit (n : Fin 50000) (e : Fin 650000) (h : e ∈ hitOf dv n) : rowOf (dv (ix1 e)) = n := by
  have hv := (mem_hitOf dv n e).mp h
  unfold rowOf wrap clampRow
  refine Fin.ext ?_
  rw [Cert.JoinIota.norm_of_hit' _ _ n.val hv]
  exact Cert.JoinIota.clamp_of_hit' 50000 _ n.val n.isLt hv

theorem nrmOf_of_hit (n : Fin 50000) (e : Fin 650000) (h : e ∈ hitOf dv n) :
    nrmOf sv dv e = dOf dv (srcOf sv e) * dOf dv n := by
  unfold nrmOf srcOf
  rw [rowOf_of_hit dv n e h]

end

/-- A NODE'S WEIGHT IS A NONNEGATIVE REAL: the in-degree is a natural number; where it is positive the weight is
    the inverse of its square root, elsewhere zero. -/
theorem weightOf_real (S : Finset (Fin 650000)) : ∃ r : ℝ, 0 ≤ r ∧ weightOf S = (r : EReal) := by
  have hsum : (∑ _e ∈ S, Ideal.ofBits .f32 0x3F800000#32) = (((S.card : ℕ) : ℝ) : EReal) := by
    rw [Cert.MeanAggregate.ofBits_one, ← EReal.coe_one, ← Cert.MeanAggregate.coe_sum]
    simp
  unfold weightOf
  rw [Ideal.ofBits_zero_f32, hsum, zero_add]
  by_cases hc : (0 : ℝ) < ((S.card : ℕ) : ℝ)
  · have h1 : Ideal.cmp .ogt ((((S.card : ℕ) : ℝ)) : EReal) 0 = 1#1 := by
      have hlt : (0 : EReal) < ((((S.card : ℕ) : ℝ)) : EReal) := EReal.coe_pos.mpr hc
      show BitVec.ofBool (decide ((0 : EReal) < ((((S.card : ℕ) : ℝ)) : EReal))) = 1#1
      rw [decide_eq_true hlt]
      rfl
    rw [h1]
    refine ⟨(Real.sqrt ((S.card : ℕ) : ℝ))⁻¹, inv_nonneg.mpr (Real.sqrt_nonneg _), ?_⟩
    show (if ((S.card : ℕ) : ℝ) < 0 then (⊥ : EReal) else if ((S.card : ℕ) : ℝ) = 0 then ⊤
      else (((Real.sqrt ((S.card : ℕ) : ℝ))⁻¹ : ℝ) : EReal)) = _
    rw [if_neg (not_lt.mpr hc.le), if_neg (ne_of_gt hc)]
  · have h0 : Ideal.cmp .ogt ((((S.card : ℕ) : ℝ)) : EReal) 0 = 0#1 := by
      have hlt : ¬ (0 : EReal) < ((((S.card : ℕ) : ℝ)) : EReal) := fun h => hc (EReal.coe_pos.mp h)
      show BitVec.ofBool (decide ((0 : EReal) < ((((S.card : ℕ) : ℝ)) : EReal))) = 0#1
      rw [decide_eq_false hlt]
      rfl
    rw [h0]
    exact ⟨0, le_refl _, rfl⟩

theorem dOf_real (dv : IVec ⟨1, ![650000]⟩ 32) (n : Fin 50000) : ∃ r : ℝ, 0 ≤ r ∧ dOf dv n = (r : EReal) :=
  weightOf_real _

end Cert.Graph

end
-- ==== Proof.LibScaledSum.lean ====
/-
  Two laws of the extended reals that need no finiteness.

  * Scaling a sum. Multiplying by a real number `c ≥ 0` preserves `⊥`, `⊤` and the order of the extended reals and
    sends reals to reals, so it distributes over EVERY finite sum of extended reals — also over a sum that contains
    both infinities (where `⊤ + ⊥ = ⊥` on both sides). Hence, for a divisor `d = max D 1` (never zero, its inverse a
    real in `[0, 1]` whatever `D` is), weighting every term by `1 / d` before the sum is dividing the sum by `d`:

        0 + ∑ e ∈ s, f e · (1 / d)  =  (0 + ∑ e ∈ s, f e) / d        for arbitrary extended reals `f e`.

  * The exponential linear unit in two spellings. `h` above zero and `exp (min h 0) − 1` otherwise is the same
    extended real as `h` above zero and `1 · (exp h' − 1)` otherwise, where `h'` is `0` when `h` is above zero and
    `h` otherwise: off the positive branch `h ≤ 0`, so `min h 0 = h = h'`.
-/
import Idealize.ShloMosaic.PureOps.Ideal
import Idealize.ShloMosaic.PureOps.Ideal.Laws
import Idealize.ShloMosaic.Lib.ValueIdx
import proofs.«120852_j32744830665494_2_alg».proof.Proof.LibMeanAggregate

noncomputable section

open scoped BigOperators

namespace Cert.ScaledSum

open Idealize.ShloMosaic

/-- Multiplication by a nonnegative real distributes over any finite sum of extended reals. -/
theorem sum_mul_coe {ι : Type} (s : Finset ι) (f : ι → EReal) (c : ℝ) (hc : 0 ≤ c) :
    ∑ e ∈ s, f e * (c : EReal) = (∑ e ∈ s, f e) * (c : EReal) := by
  classical
  refine Finset.induction_on s (by simp) ?_
  intro a s ha ih
  rw [Finset.sum_insert ha, Finset.sum_insert ha, ih,
    EReal.right_distrib_of_nonneg_of_ne_top (EReal.coe_nonneg.mpr hc) (EReal.coe_ne_top c)]

/-- A quantity clipped below at one is never zero, and its inverse is a NONNEGATIVE real: the inverse of an extended
    real that is at least one is at least zero. -/
theorem inv_max_one (D : EReal) : max D 1 ≠ 0 ∧ ∃ c : ℝ, 0 ≤ c ∧ (max D 1)⁻¹ = (c : EReal) := by
  obtain ⟨h0, c, hc⟩ := MeanAggregate.inv_max_one D
  refine ⟨h0, c, ?_, hc⟩
  have hpos : (0 : EReal) ≤ max D 1 := le_trans (by norm_num) (le_max_right D 1)
  have hinv : (0 : EReal) ≤ (max D 1)⁻¹ := EReal.inv_nonneg_of_nonneg hpos
  rw [hc] at hinv
  exact_mod_cast hinv

/-- WEIGHTING BEFORE THE SUM IS DIVIDING AFTER IT: for arbitrary extended reals `f e` and any `D`. -/
theorem mean_scaled {ι : Type} (s : Finset ι) (f : ι → EReal) (D : EReal) :
    (0 : EReal) + ∑ e ∈ s, f e * Ideal.div 1 (max D 1) = Ideal.div (0 + ∑ e ∈ s, f e) (max D 1) := by
  obtain ⟨h0, c, hc, hinv⟩ := inv_max_one D
  unfold Ideal.div
  rw [if_neg h0, if_neg h0, hinv, one_mul, zero_add, zero_add]
  exact sum_mul_coe s f c hc

/-- The unit word of single precision denotes the number one. -/
theorem ofBits_one : Ideal.ofBits .f32 0x3F800000#32 = 1 := MeanAggregate.ofBits_one

/-- THE EXPONENTIAL LINEAR UNIT IN ITS TWO SPELLINGS, at any extended real. -/
theorem elu_two_spellings (h : EReal) :
    Scalar.select (Ideal.cmp .ogt h (Ideal.ofBits .f32 0x00000000#32)) h
        (Ideal.ofBits .f32 0x3F800000#32
          * (Ideal.exp (Scalar.select (Ideal.cmp .ogt h (Ideal.ofBits .f32 0x00000000#32)) (Ideal.ofBits .f32 0x00000000#32) h) - 1))
      = Scalar.select (Ideal.cmp .ogt h (Ideal.ofBits .f32 0x00000000#32)) h
        (Ideal.exp (min h (Ideal.ofBits .f32 0x00000000#32)) - Ideal.ofBits .f32 0x3F800000#32) := by
  rw [ofBits_one, Ideal.ofBits_zero_f32]
  by_cases hp : (0 : EReal) < h
  · have hc : Ideal.cmp .ogt h 0 = 1#1 := by simp [Ideal.cmp, hp]
    rw [hc, ValueIdx.select_one, ValueIdx.select_one]
  · have hc : Ideal.cmp .ogt h 0 = 0#1 := by simp [Ideal.cmp, hp]
    have hle : h ≤ 0 := not_lt.mp hp
    rw [hc, ValueIdx.select_zero, ValueIdx.select_zero, ValueIdx.select_zero, one_mul, min_eq_left hle]

end Cert.ScaledSum

end
-- ==== Proof.GcnSpec.lean ====
/-
  The mathematics of a five-layer graph convolution, over the extended reals.

  A graph is given by, for every edge `e`, its source node `src e`, and for every node `n` the finite set `hit n` of
  the edges that end in `n`; every node `n` carries a weight `d n` (its degree to the power −1/2), and every edge a
  weight `nrm e`. One layer maps a node table `X` to the table `H = X · W` and adds, into row `n`, the rows
  `H (src e)` of the edges ending in `n`.

  Two ways of weighting are compared. The FIRST weights a row by `d` once before it is sent along the edges and
  once more after the rows have been added up:      `(∑_{e ∈ hit n} H (src e) · d (src e)) · d n`.
  The SECOND weights every edge's row by the edge weight:  `∑_{e ∈ hit n} H (src e) · nrm e`.
  When `nrm e = d (src e) · d n` for every edge `e` ending in `n`, and every `d n` is a nonnegative REAL, the
  two are equal at every extended-real table: multiplication by a nonnegative real distributes over every finite sum
  of extended reals (whatever infinities it holds), and multiplication is associative.
-/
import Idealize.ShloMosaic.PureOps.Ideal
import proofs.«120852_j32744830665494_2_alg».proof.Proof.LibScaledSum

noncomputable section

open scoped BigOperators

namespace Cert.Gcn

variable {N E : Type} (src : E → N) (hit : N → Finset E) (d : N → EReal) (nrm : E → EReal)

/-- A node table times a weight matrix: row `p`, column `q`. -/
def lin {K C : Type} [Fintype K] (X : N → K → EReal) (W : K → C → EReal) : N → C → EReal :=
  fun p q => ∑ j, X p j * W j q

/-- Rows weighted by the node weight. -/
def scaleRows {C : Type} (H : N → C → EReal) : N → C → EReal := fun p q => H p q * d p

/-- Row `n`: the sum of the rows `G (src e)` over the edges ending in `n` (from zero). -/
def gatherAdd {C : Type} (G : N → C → EReal) : N → C → EReal := fun n c => 0 + ∑ e ∈ hit n, G (src e) c

/-- Row `n`: the sum of the rows `H (src e)`, each weighted by its edge's weight (from zero). -/
def edgeAdd {C : Type} (H : N → C → EReal) : N → C → EReal := fun n c => 0 + ∑ e ∈ hit n, H (src e) c * nrm e

/-- The FIRST way, between two layers: weight the sum by `d`, add the bias, clip at zero. -/
def actFirst {K : Type} (A : N → K → EReal) (b : K → EReal) : N → K → EReal := fun p j => max (A p j * d p + b j) 0

/-- The FIRST way, after the last layer: weight the sum by `d`, add the bias. -/
def outFirst {C : Type} (A : N → C → EReal) (b : C → EReal) : N → C → EReal := fun p q => A p q * d p + b q

/-- The SECOND way: add the bias … -/
def addBias {C : Type} (S : N → C → EReal) (b : C → EReal) : N → C → EReal := fun p q => S p q + b q

/-- … and clip at zero. -/
def clip {C : Type} (R : N → C → EReal) : N → C → EReal := fun p q => max (R p q) 0

/-- One layer's sum, the FIRST way: `X · W`, rows weighted, sent along the edges and added. -/
def sumFirst {K C : Type} [Fintype K] (X : N → K → EReal) (W : K → C → EReal) : N → C → EReal :=
  gatherAdd src hit (scaleRows d (lin X W))

/-- One layer, the SECOND way: `X · W`, sent along the edges with the edge weights and added, plus the bias. -/
def layerSecond {K C : Type} [Fintype K] (X : N → K → EReal) (W : K → C → EReal) (b : C → EReal) : N → C → EReal :=
  addBias (edgeAdd src hit nrm (lin X W)) b

section Nets
variable {K0 K1 K2 K3 K4 K5 : Type} [Fintype K0] [Fintype K1] [Fintype K2] [Fintype K3] [Fintype K4]
  (x : N → K0 → EReal)
  (W1 : K0 → K1 → EReal) (b1 : K1 → EReal) (W2 : K1 → K2 → EReal) (b2 : K2 → EReal)
  (W3 : K2 → K3 → EReal) (b3 : K3 → EReal) (W4 : K3 → K4 → EReal) (b4 : K4 → EReal)
  (W5 : K4 → K5 → EReal) (b5 : K5 → EReal)

/-- Five layers the FIRST way. -/
def netFirst : N → K5 → EReal :=
  outFirst d
    (sumFirst src hit d (actFirst d
      (sumFirst src hit d (actFirst d
        (sumFirst src hit d (actFirst d
          (sumFirst src hit d (actFirst d
            (sumFirst src hit d x W1) b1) W2) b2) W3) b3) W4) b4) W5) b5

/-- Five layers the SECOND way. -/
def netSecond : N → K5 → EReal :=
  layerSecond src hit nrm (clip
    (layerSecond src hit nrm (clip
      (layerSecond src hit nrm (clip
        (layerSecond src hit nrm (clip
          (layerSecond src hit nrm x W1 b1)) W2 b2)) W3 b3)) W4 b4)) W5 b5

end Nets

/-! ## The law -/

/-- THE LAW at one entry: the sum of rows weighted before and after equals the sum weighted edge by edge. -/
theorem sum_weighted {C : Type} (H : N → C → EReal)
    (hd : ∀ n, ∃ r : ℝ, 0 ≤ r ∧ d n = (r : EReal))
    (hn : ∀ n, ∀ e ∈ hit n, nrm e = d (src e) * d n) (n : N) (c : C) :
    gatherAdd src hit (scaleRows d H) n c * d n = edgeAdd src hit nrm H n c := by
  obtain ⟨r, hr, hdn⟩ := hd n
  show (0 + ∑ e ∈ hit n, H (src e) c * d (src e)) * d n = 0 + ∑ e ∈ hit n, H (src e) c * nrm e
  rw [zero_add, zero_add, hdn, ← Cert.ScaledSum.sum_mul_coe _ _ r hr]
  refine Finset.sum_congr rfl fun e he => ?_
  rw [hn n e he, hdn, mul_assoc]

/-- One layer: the SECOND way's layer is the FIRST way's sum, weighted and biased. -/
theorem layer_eq {K C : Type} [Fintype K] (X : N → K → EReal) (W : K → C → EReal) (b : C → EReal)
    (hd : ∀ n, ∃ r : ℝ, 0 ≤ r ∧ d n = (r : EReal))
    (hn : ∀ n, ∀ e ∈ hit n, nrm e = d (src e) * d n) :
    layerSecond src hit nrm X W b = outFirst d (sumFirst src hit d X W) b := by
  funext n c
  show edgeAdd src hit nrm (lin X W) n c + b c = gatherAdd src hit (scaleRows d (lin X W)) n c * d n + b c
  rw [sum_weighted src hit d nrm (lin X W) hd hn n c]

/-- … and clipped, it is the FIRST way's activation. -/
theorem clip_layer_eq {K C : Type} [Fintype K] (X : N → K → EReal) (W : K → C → EReal) (b : C → EReal)
    (hd : ∀ n, ∃ r : ℝ, 0 ≤ r ∧ d n = (r : EReal))
    (hn : ∀ n, ∀ e ∈ hit n, nrm e = d (src e) * d n) :
    clip (layerSecond src hit nrm X W b) = actFirst d (sumFirst src hit d X W) b := by
  rw [layer_eq src hit d nrm X W b hd hn]
  rfl

/-- FIVE LAYERS: the two ways compute one table. -/
theorem net_eq {K0 K1 K2 K3 K4 K5 : Type} [Fintype K0] [Fintype K1] [Fintype K2] [Fintype K3] [Fintype K4]
    (x : N → K0 → EReal)
    (W1 : K0 → K1 → EReal) (b1 : K1 → EReal) (W2 : K1 → K2 → EReal) (b2 : K2 → EReal)
    (W3 : K2 → K3 → EReal) (b3 : K3 → EReal) (W4 : K3 → K4 → EReal) (b4 : K4 → EReal)
    (W5 : K4 → K5 → EReal) (b5 : K5 → EReal)
    (hd : ∀ n, ∃ r : ℝ, 0 ≤ r ∧ d n = (r : EReal))
    (hn : ∀ n, ∀ e ∈ hit n, nrm e = d (src e) * d n) :
    netSecond src hit nrm x W1 b1 W2 b2 W3 b3 W4 b4 W5 b5 = netFirst src hit d x W1 b1 W2 b2 W3 b3 W4 b4 W5 b5 := by
  unfold netSecond netFirst
  rw [clip_layer_eq src hit d nrm x W1 b1 hd hn, clip_layer_eq src hit d nrm _ W2 b2 hd hn,
    clip_layer_eq src hit d nrm _ W3 b3 hd hn, clip_layer_eq src hit d nrm _ W4 b4 hd hn,
    layer_eq src hit d nrm _ W5 b5 hd hn]

end Cert.Gcn

end
-- ==== Proof.Passing.lean ====
/-
  Message passing on node tables, as the host computes it, read at one entry.

  The host takes rows of a node table by a column of source words (negative words first counted from the end) and adds
  them, by a column of raw target words, into a table of zeros. Read at `(n, c)` this is the sum, over the edges ending
  in `n`, of the table's entries `(src e, c)` — `Cert.Gcn.gatherAdd` over the graph of `Cert.Graph` — and, when every
  taken row is first multiplied by its edge's weight, `Cert.Gcn.edgeAdd`. The in-degree, counted the same way from a
  vector of ones, gives every node's weight `Cert.Graph.dOf`; taking entries of the weight vector by the source and
  the target columns and multiplying gives the edge weight `Cert.Graph.nrmOf`.
-/
import Idealize.ShloMosaic.Lib.ValueIdx
import Idealize.ShloMosaic.PureOps.Ideal.Laws
import proofs.«120852_j32744830665494_2_alg».proof.Proof.LibRowGatherScatter
import proofs.«120852_j32744830665494_2_alg».proof.Proof.LibVectorGatherScatter
import proofs.«120852_j32744830665494_2_alg».proof.Proof.LibHostBroadcast
import proofs.«120852_j32744830665494_2_alg».proof.Proof.Graph
import proofs.«120852_j32744830665494_2_alg».proof.Proof.GcnSpec

noncomputable section

open scoped BigOperators

namespace Cert.Passing

open Idealize.ShloMosaic Idealize.ShloMosaic.ValueIdx

abbrev S0 : Shape := ⟨0, ![]⟩
abbrev SN : Shape := ⟨1, ![50000]⟩
abbrev SE : Shape := ⟨1, ![650000]⟩
abbrev SE1 : Shape := ⟨2, ![650000, 1]⟩

section Columns
variable (hcol : SE.BroadcastsInDim SE1 ![0]) (hs : S0.BroadcastsInDim SE (![] : Fin 0 → Fin 1))

/-- A vector of words as a column. -/
def rawCol (v : IVec SE 32) : IVec SE1 32 := broadcastInDim SE1 ![0] hcol v

/-- A vector of words, negative ones counted from the end of the 50000 rows. -/
def wrapVec (v : IVec SE 32) : IVec SE 32 :=
  select (cmpi .slt v (broadcastInDim SE ![] hs (constantI S0 32 0#32))) (addi v (broadcastInDim SE ![] hs (constantI S0 32 50000#32))) v

theorem rawCol_apply (v : IVec SE 32) (e : Fin 650000) : rawCol hcol v (ix2 e 0) = v (ix1 e) :=
  Cert.HostBroadcast.col_one_apply v hcol e

theorem wrapVec_apply (v : IVec SE 32) (e : Fin 650000) : wrapVec hs v (ix1 e) = Cert.Graph.wrap (v (ix1 e)) := by
  show Scalar.select (IntOp.cmpi .slt (v (ix1 e)) (broadcastInDim SE ![] hs (constantI S0 32 0#32) (ix1 e)))
      (v (ix1 e) + broadcastInDim SE ![] hs (constantI S0 32 50000#32) (ix1 e)) (v (ix1 e)) = _
  rw [Cert.HostBroadcast.scalar_apply, Cert.HostBroadcast.scalar_apply]
  rfl

/-- The row the wrapped column names is the graph's. -/
theorem rowOf_wrapCol (v : IVec SE 32) (e : Fin 650000) :
    Cert.RowGatherScatter.rowOf (N := 50000) (by decide) (rawCol hcol (wrapVec hs v)) e = Cert.Graph.rowOf (v (ix1 e)) := by
  unfold Cert.RowGatherScatter.rowOf Cert.Graph.rowOf Cert.Graph.clampRow
  refine Fin.ext ?_
  show min ((rawCol hcol (wrapVec hs v)) (ix2 e 0)).toInt.toNat (50000 - 1) = min (Cert.Graph.wrap (v (ix1 e))).toInt.toNat (50000 - 1)
  rw [rawCol_apply, wrapVec_apply]

/-- The edges a raw column sends to row `n` are the graph's. -/
theorem hits_rawCol (v : IVec SE 32) (n : Fin 50000) :
    Cert.RowGatherScatter.hits (rawCol hcol v) n = Cert.Graph.hitOf v n := by
  unfold Cert.RowGatherScatter.hits Cert.Graph.hitOf
  refine Finset.filter_congr fun e _ => ?_
  rw [rawCol_apply]

theorem vhits_rawCol (v : IVec SE 32) (n : Fin 50000) :
    Cert.VectorGatherScatter.hits (rawCol hcol v) n = Cert.Graph.hitOf v n := by
  unfold Cert.VectorGatherScatter.hits Cert.Graph.hitOf
  refine Finset.filter_congr fun e _ => ?_
  rw [rawCol_apply]

end Columns

/-! ## Rows taken and added -/

section Rows
variable (hcol : SE.BroadcastsInDim SE1 ![0]) (hs : S0.BroadcastsInDim SE (![] : Fin 0 → Fin 1))
variable {C : Nat}
  (gw : GatherDims.WF ⟨2, ![50000, C]⟩ SE1 ⟨2, ![650000, C]⟩ [1] [0] [] [0] [] 1 ![1, C])
  (sw : ScatterDims.WF ⟨2, ![50000, C]⟩ SE1 ⟨2, ![650000, C]⟩ [1] [0] [0] 1)
  (hz : S0.BroadcastsInDim ⟨2, ![50000, C]⟩ (![] : Fin 0 → Fin 2))

/-- ROWS TAKEN BY THE SOURCES AND ADDED BY THE TARGETS, from zero, at `(n, c)`. -/
theorem gatherAdd_apply (h : FVec Ideal ⟨2, ![50000, C]⟩ .f32) (sv dv : IVec SE 32) (n : Fin 50000) (c : Fin C) :
    Host.scatterAdd (Cert.RowGatherScatter.rowScatterDims 50000 650000 C sw)
        (broadcastInDim ⟨2, ![50000, C]⟩ ![] hz (constant (F := Ideal) S0 .f32 0x00000000#32))
        (rawCol hcol dv)
        (Host.gather (Cert.RowGatherScatter.rowGatherDims 50000 650000 C gw) h (rawCol hcol (wrapVec hs sv))) (ix2 n c)
      = Cert.Gcn.gatherAdd (Cert.Graph.srcOf sv) (Cert.Graph.hitOf dv) (fun a j => h (ix2 a j)) n c := by
  rw [Cert.RowGatherScatter.scatterAdd_rows_apply, Cert.HostBroadcast.scalar_apply, hits_rawCol]
  unfold Cert.Gcn.gatherAdd
  refine congrArg₂ (· + ·) ?_ (Finset.sum_congr rfl fun e _ => ?_)
  · show Ideal.ofBits .f32 0x00000000#32 = 0
    exact Ideal.ofBits_zero_f32
  · rw [Cert.RowGatherScatter.gather_rows_apply (by decide), rowOf_wrapCol]
    rfl

/-- THE SAME WITH EVERY TAKEN ROW WEIGHTED by an edge vector `nv` (spread as a column over the columns). -/
theorem edgeAdd_apply (hcolf : SE.BroadcastsInDim SE1 ![0]) (hsp : SE1.BroadcastsInDim ⟨2, ![650000, C]⟩ ![0, 1])
    (h : FVec Ideal ⟨2, ![50000, C]⟩ .f32) (sv dv : IVec SE 32) (nv : FVec Ideal SE .f32) (n : Fin 50000) (c : Fin C) :
    Host.scatterAdd (Cert.RowGatherScatter.rowScatterDims 50000 650000 C sw)
        (broadcastInDim ⟨2, ![50000, C]⟩ ![] hz (constant (F := Ideal) S0 .f32 0x00000000#32))
        (rawCol hcol dv)
        (mulf (Host.gather (Cert.RowGatherScatter.rowGatherDims 50000 650000 C gw) h (rawCol hcol (wrapVec hs sv)))
          (broadcastInDim ⟨2, ![650000, C]⟩ ![0, 1] hsp (broadcastInDim SE1 ![0] hcolf nv))) (ix2 n c)
      = Cert.Gcn.edgeAdd (Cert.Graph.srcOf sv) (Cert.Graph.hitOf dv) (fun e => nv (ix1 e)) (fun a j => h (ix2 a j)) n c := by
  rw [Cert.RowGatherScatter.scatterAdd_rows_apply, Cert.HostBroadcast.scalar_apply, hits_rawCol]
  unfold Cert.Gcn.edgeAdd
  refine congrArg₂ (· + ·) ?_ (Finset.sum_congr rfl fun e _ => ?_)
  · show Ideal.ofBits .f32 0x00000000#32 = 0
    exact Ideal.ofBits_zero_f32
  · show Host.gather _ h _ (ix2 e c) * broadcastInDim _ _ hsp (broadcastInDim SE1 ![0] hcolf nv) (ix2 e c) = _
    rw [Cert.RowGatherScatter.gather_rows_apply (by decide), rowOf_wrapCol, Cert.HostBroadcast.col_apply]
    rfl

end Rows

/-! ## The weights -/

section Weights
variable (hcol : SE.BroadcastsInDim SE1 ![0]) (hs : S0.BroadcastsInDim SE (![] : Fin 0 → Fin 1))
  (hsf : S0.BroadcastsInDim SE (![] : Fin 0 → Fin 1)) (hn : S0.BroadcastsInDim SN (![] : Fin 0 → Fin 1))
  (vw : ScatterDims.WF SN SE1 SE [] [0] [0] 1)
  (vg : GatherDims.WF SN SE1 SE [] [0] [] [0] [] 1 ![1])

/-- The in-degree vector: ones added by the raw targets into zeros. -/
def degVec (dv : IVec SE 32) : FVec Ideal SN .f32 :=
  Host.scatterAdd (Cert.VectorGatherScatter.vecScatterDims 50000 650000 vw)
    (broadcastInDim SN ![] hn (constant (F := Ideal) S0 .f32 0x00000000#32))
    (rawCol hcol dv)
    (broadcastInDim SE ![] hsf (constant (F := Ideal) S0 .f32 0x3F800000#32))

/-- The weight vector: `deg^(-1/2)` where `deg > 0`, else zero. -/
def weightVec (dv : IVec SE 32) (zv : FVec Ideal SN .f32) : FVec Ideal SN .f32 :=
  select (cmpf .ogt (degVec hcol hsf hn vw dv) (broadcastInDim SN ![] hn (constant (F := Ideal) S0 .f32 0x00000000#32)))
    (Host.rsqrt (degVec hcol hsf hn vw dv)) zv

theorem degVec_apply (dv : IVec SE 32) (n : Fin 50000) :
    degVec hcol hsf hn vw dv (ix1 n)
      = Ideal.ofBits .f32 0x00000000#32 + ∑ _e ∈ Cert.Graph.hitOf dv n, Ideal.ofBits .f32 0x3F800000#32 := by
  unfold degVec
  rw [Cert.VectorGatherScatter.scatterAdd_vec_apply, Cert.HostBroadcast.scalar_apply, vhits_rawCol]
  refine congrArg₂ (· + ·) rfl (Finset.sum_congr rfl fun e _ => ?_)
  rw [Cert.HostBroadcast.scalar_apply]
  rfl

/-- EVERY NODE'S WEIGHT is the graph's. -/
theorem weightVec_apply (dv : IVec SE 32) (zv : FVec Ideal SN .f32)
    (hzv : ∀ n : Fin 50000, zv (ix1 n) = Ideal.ofBits .f32 0x00000000#32) (n : Fin 50000) :
    weightVec hcol hsf hn vw dv zv (ix1 n) = Cert.Graph.dOf dv n := by
  show Scalar.select (FloatOps.cmpf .ogt (degVec hcol hsf hn vw dv (ix1 n)) (broadcastInDim SN ![] hn (constant (F := Ideal) S0 .f32 0x00000000#32) (ix1 n)))
      (FloatOps.hostUnary .rsqrt (degVec hcol hsf hn vw dv (ix1 n))) (zv (ix1 n)) = _
  rw [degVec_apply, Cert.HostBroadcast.scalar_apply, hzv]
  have hc : (constant (F := Ideal) S0 .f32 0x00000000#32) ix0 = Ideal.ofBits .f32 0x00000000#32 := rfl
  rw [hc, Ideal.cmpf_def, Ideal.hostUnary_rsqrt_def]
  unfold Cert.Graph.dOf Cert.Graph.weightOf
  rfl

/-- AN EDGE'S WEIGHT: the weight vector's entries taken by the wrapped source and target columns, multiplied. -/
theorem edgeWeight_apply (wv : FVec Ideal SN .f32) (sv dv : IVec SE 32)
    (hwv : ∀ n : Fin 50000, wv (ix1 n) = Cert.Graph.dOf dv n) (e : Fin 650000) :
    mulf (Host.gather (Cert.VectorGatherScatter.vecGatherDims 50000 650000 vg) wv (rawCol hcol (wrapVec hs sv)))
         (Host.gather (Cert.VectorGatherScatter.vecGatherDims 50000 650000 vg) wv (rawCol hcol (wrapVec hs dv))) (ix1 e)
      = Cert.Graph.nrmOf sv dv e := by
  show Host.gather _ wv _ (ix1 e) * Host.gather _ wv _ (ix1 e) = _
  rw [Cert.VectorGatherScatter.gather_vec_apply (by decide), Cert.VectorGatherScatter.gather_vec_apply (by decide)]
  unfold Cert.Graph.nrmOf
  have h1 := rowOf_wrapCol hcol hs sv e
  have h2 := rowOf_wrapCol hcol hs dv e
  unfold Cert.RowGatherScatter.rowOf at h1 h2
  rw [h1, h2, hwv, hwv]

end Weights

end Cert.Passing

end
-- ==== Proof.KHost.lean ====
/-
  The host stretches between the idealized kernel's regions, read at an entry, for ANY buffer contents `v` a stretch
  starts from.

  Each of the five stretches after a region takes the rows of the region's result table by the edges' source words
  (negative words first counted from the end) and adds them by the raw target words into zeros — at `(n, c)` the
  sum over the edges ending in `n` of the table's entries `(src e, c)`, `Cert.Gcn.gatherAdd` — and re-lays the next
  bias vector as a row. The stretch before the first region counts every node's in-degree as a sum of ones, takes
  its power −1/2 where it is positive and zero elsewhere, and re-lays the result as a column: at `(n, 0)` the
  node's weight `Cert.Graph.dOf`.
-/
import proofs.«120852_j32744830665494_2_alg».proof.Proof.Gen.KernelIdeal.Launch
import Idealize.ShloMosaic.Lib.StableHlo.Run
import proofs.«120852_j32744830665494_2_alg».proof.Proof.LibBroadcast
import proofs.«120852_j32744830665494_2_alg».proof.Proof.LibTypedRef
import proofs.«120852_j32744830665494_2_alg».proof.Proof.LibHostKept
import proofs.«120852_j32744830665494_2_alg».proof.Proof.Passing

set_option maxRecDepth 16384

noncomputable section

namespace Cert.KernelIdeal.HostValue

open Cert.KernelIdeal Cert.KernelIdeal.Gen Idealize.ShloMosaic Idealize.ShloMosaic.TcCoe Idealize.ShloMosaic.ValueIdx
open Idealize.ShloMosaic.StableHlo
open Cert.Kept

variable (v : Valuation τ sig (Elt Ideal))

/-! ## After a region: rows taken by the sources and added by the targets -/

set_option maxHeartbeats 4000000 in
/-- Stretch 1: the aggregated table as the host operations' term of what the stretch starts from. -/
theorem agg1_term : StableHlo.after hostOps1 v (Proc.devRef .tc main_v26)
    = Host.scatterAdd scatter_S50000x256_S650000x1_S650000x256_1_0_0_1
        (broadcastInDim S50000x256 ![] bcast_S_S50000x256 (constant (F := Ideal) S_ .f32 0x00000000#32))
        (broadcastInDim S650000x1 ![0] bcast_S650000_S650000x1_0 (v (Proc.devRef .tc main_v6)))
        (Host.gather gather_S50000x256_S650000x1_S650000x256_1_0_n_n_0_1_1256 (v (Proc.devRef .tc main_v16))
          (broadcastInDim S650000x1 ![0] bcast_S650000_S650000x1_0 (select (cmpi .slt (v (Proc.devRef .tc main_v3)) (broadcastInDim S650000 ![] bcast_S_S650000 (constantI S_ 32 0#32))) (addi (v (Proc.devRef .tc main_v3)) (broadcastInDim S650000 ![] bcast_S_S650000 (constantI S_ 32 50000#32))) (v (Proc.devRef .tc main_v3))))) := by
  simp only [hostOps1]
  after_results_simp <;> rfl

/-- … read at `(n, q)`: the sum over the edges ending in `n` of the region's table at `(src e, q)`. -/
theorem agg1_apply (n : Fin 50000) (q : Fin 256) :
    (StableHlo.after hostOps1 v (Proc.devRef .tc main_v26) : S50000x256.Idx → EReal) (ix2 n q)
      = Cert.Gcn.gatherAdd (Cert.Graph.srcOf (v (Proc.devRef .tc main_v3))) (Cert.Graph.hitOf (v (Proc.devRef .tc main_v6)))
          (fun a j => ((v (Proc.devRef .tc main_v16)) : S50000x256.Idx → EReal) (ix2 a j)) n q := by
  rw [agg1_term]
  exact Cert.Passing.gatherAdd_apply bcast_S650000_S650000x1_0 bcast_S_S650000
    gather_S50000x256_S650000x1_S650000x256_1_0_n_n_0_1_1256_wf scatter_S50000x256_S650000x1_S650000x256_1_0_0_1_wf bcast_S_S50000x256
    (v (Proc.devRef .tc main_v16)) (v (Proc.devRef .tc main_v3)) (v (Proc.devRef .tc main_v6)) n q

/-- … and the bias vector re-laid as a row. -/
theorem bias1_apply (q : Fin 256) :
    (StableHlo.after hostOps1 v (Proc.devRef .tc main_v27) : S1x256.Idx → EReal) (ix2 0 q)
      = ((v (Proc.devRef .tc main_arg3)) : S256.Idx → EReal) (ix1 q) := by
  have e : StableHlo.after hostOps1 v (Proc.devRef .tc main_v27)
      = shapeCast S1x256 (v (Proc.devRef .tc main_arg3)) shapeCasts_S256_S1x256 := by
    simp only [hostOps1]
    after_results
    rfl
  rw [e]
  exact Cert.Layout.shapeCast_row_apply _ _ q

set_option maxHeartbeats 4000000 in
/-- Stretch 2: the aggregated table as the host operations' term of what the stretch starts from. -/
theorem agg2_term : StableHlo.after hostOps2 v (Proc.devRef .tc main_v38)
    = Host.scatterAdd scatter_S50000x256_S650000x1_S650000x256_1_0_0_1
        (broadcastInDim S50000x256 ![] bcast_S_S50000x256 (constant (F := Ideal) S_ .f32 0x00000000#32))
        (broadcastInDim S650000x1 ![0] bcast_S650000_S650000x1_0 (v (Proc.devRef .tc main_v6)))
        (Host.gather gather_S50000x256_S650000x1_S650000x256_1_0_n_n_0_1_1256 (v (Proc.devRef .tc main_v28))
          (broadcastInDim S650000x1 ![0] bcast_S650000_S650000x1_0 (select (cmpi .slt (v (Proc.devRef .tc main_v3)) (broadcastInDim S650000 ![] bcast_S_S650000 (constantI S_ 32 0#32))) (addi (v (Proc.devRef .tc main_v3)) (broadcastInDim S650000 ![] bcast_S_S650000 (constantI S_ 32 50000#32))) (v (Proc.devRef .tc main_v3))))) := by
  simp only [hostOps2]
  after_results_simp <;> rfl

/-- … read at `(n, q)`: the sum over the edges ending in `n` of the region's table at `(src e, q)`. -/
theorem agg2_apply (n : Fin 50000) (q : Fin 256) :
    (StableHlo.after hostOps2 v (Proc.devRef .tc main_v38) : S50000x256.Idx → EReal) (ix2 n q)
      = Cert.Gcn.gatherAdd (Cert.Graph.srcOf (v (Proc.devRef .tc main_v3))) (Cert.Graph.hitOf (v (Proc.devRef .tc main_v6)))
          (fun a j => ((v (Proc.devRef .tc main_v28)) : S50000x256.Idx → EReal) (ix2 a j)) n q := by
  rw [agg2_term]
  exact Cert.Passing.gatherAdd_apply bcast_S650000_S650000x1_0 bcast_S_S650000
    gather_S50000x256_S650000x1_S650000x256_1_0_n_n_0_1_1256_wf scatter_S50000x256_S650000x1_S650000x256_1_0_0_1_wf bcast_S_S50000x256
    (v (Proc.devRef .tc main_v28)) (v (Proc.devRef .tc main_v3)) (v (Proc.devRef .tc main_v6)) n q

/-- … and the bias vector re-laid as a row. -/
theorem bias2_apply (q : Fin 256) :
    (StableHlo.after hostOps2 v (Proc.devRef .tc main_v39) : S1x256.Idx → EReal) (ix2 0 q)
      = ((v (Proc.devRef .tc main_arg5)) : S256.Idx → EReal) (ix1 q) := by
  have e : StableHlo.after hostOps2 v (Proc.devRef .tc main_v39)
      = shapeCast S1x256 (v (Proc.devRef .tc main_arg5)) shapeCasts_S256_S1x256 := by
    simp only [hostOps2]
    after_results
    rfl
  rw [e]
  exact Cert.Layout.shapeCast_row_apply _ _ q

set_option maxHeartbeats 4000000 in
/-- Stretch 3: the aggregated table as the host operations' term of what the stretch starts from. -/
theorem agg3_term : StableHlo.after hostOps3 v (Proc.devRef .tc main_v50)
    = Host.scatterAdd scatter_S50000x256_S650000x1_S650000x256_1_0_0_1
        (broadcastInDim S50000x256 ![] bcast_S_S50000x256 (constant (F := Ideal) S_ .f32 0x00000000#32))
        (broadcastInDim S650000x1 ![0] bcast_S650000_S650000x1_0 (v (Proc.devRef .tc main_v6)))
        (Host.gather gather_S50000x256_S650000x1_S650000x256_1_0_n_n_0_1_1256 (v (Proc.devRef .tc main_v40))
          (broadcastInDim S650000x1 ![0] bcast_S650000_S650000x1_0 (select (cmpi .slt (v (Proc.devRef .tc main_v3)) (broadcastInDim S650000 ![] bcast_S_S650000 (constantI S_ 32 0#32))) (addi (v (Proc.devRef .tc main_v3)) (broadcastInDim S650000 ![] bcast_S_S650000 (constantI S_ 32 50000#32))) (v (Proc.devRef .tc main_v3))))) := by
  simp only [hostOps3]
  after_results_simp <;> rfl

/-- … read at `(n, q)`: the sum over the edges ending in `n` of the region's table at `(src e, q)`. -/
theorem agg3_apply (n : Fin 50000) (q : Fin 256) :
    (StableHlo.after hostOps3 v (Proc.devRef .tc main_v50) : S50000x256.Idx → EReal) (ix2 n q)
      = Cert.Gcn.gatherAdd (Cert.Graph.srcOf (v (Proc.devRef .tc main_v3))) (Cert.Graph.hitOf (v (Proc.devRef .tc main_v6)))
          (fun a j => ((v (Proc.devRef .tc main_v40)) : S50000x256.Idx → EReal) (ix2 a j)) n q := by
  rw [agg3_term]
  exact Cert.Passing.gatherAdd_apply bcast_S650000_S650000x1_0 bcast_S_S650000
    gather_S50000x256_S650000x1_S650000x256_1_0_n_n_0_1_1256_wf scatter_S50000x256_S650000x1_S650000x256_1_0_0_1_wf bcast_S_S50000x256
    (v (Proc.devRef .tc main_v40)) (v (Proc.devRef .tc main_v3)) (v (Proc.devRef .tc main_v6)) n q

/-- … and the bias vector re-laid as a row. -/
theorem bias3_apply (q : Fin 256) :
    (StableHlo.after hostOps3 v (Proc.devRef .tc main_v51) : S1x256.Idx → EReal) (ix2 0 q)
      = ((v (Proc.devRef .tc main_arg7)) : S256.Idx → EReal) (ix1 q) := by
  have e : StableHlo.after hostOps3 v (Proc.devRef .tc main_v51)
      = shapeCast S1x256 (v (Proc.devRef .tc main_arg7)) shapeCasts_S256_S1x256 := by
    simp only [hostOps3]
    after_results
    rfl
  rw [e]
  exact Cert.Layout.shapeCast_row_apply _ _ q

set_option maxHeartbeats 4000000 in
/-- Stretch 4: the aggregated table as the host operations' term of what the stretch starts from. -/
theorem agg4_term : StableHlo.after hostOps4 v (Proc.devRef .tc main_v62)
    = Host.scatterAdd scatter_S50000x256_S650000x1_S650000x256_1_0_0_1
        (broadcastInDim S50000x256 ![] bcast_S_S50000x256 (constant (F := Ideal) S_ .f32 0x00000000#32))
        (broadcastInDim S650000x1 ![0] bcast_S650000_S650000x1_0 (v (Proc.devRef .tc main_v6)))
        (Host.gather gather_S50000x256_S650000x1_S650000x256_1_0_n_n_0_1_1256 (v (Proc.devRef .tc main_v52))
          (broadcastInDim S650000x1 ![0] bcast_S650000_S650000x1_0 (select (cmpi .slt (v (Proc.devRef .tc main_v3)) (broadcastInDim S650000 ![] bcast_S_S650000 (constantI S_ 32 0#32))) (addi (v (Proc.devRef .tc main_v3)) (broadcastInDim S650000 ![] bcast_S_S650000 (constantI S_ 32 50000#32))) (v (Proc.devRef .tc main_v3))))) := by
  simp only [hostOps4]
  after_results_simp <;> rfl

/-- … read at `(n, q)`: the sum over the edges ending in `n` of the region's table at `(src e, q)`. -/
theorem agg4_apply (n : Fin 50000) (q : Fin 256) :
    (StableHlo.after hostOps4 v (Proc.devRef .tc main_v62) : S50000x256.Idx → EReal) (ix2 n q)
      = Cert.Gcn.gatherAdd (Cert.Graph.srcOf (v (Proc.devRef .tc main_v3))) (Cert.Graph.hitOf (v (Proc.devRef .tc main_v6)))
          (fun a j => ((v (Proc.devRef .tc main_v52)) : S50000x256.Idx → EReal) (ix2 a j)) n q := by
  rw [agg4_term]
  exact Cert.Passing.gatherAdd_apply bcast_S650000_S650000x1_0 bcast_S_S650000
    gather_S50000x256_S650000x1_S650000x256_1_0_n_n_0_1_1256_wf scatter_S50000x256_S650000x1_S650000x256_1_0_0_1_wf bcast_S_S50000x256
    (v (Proc.devRef .tc main_v52)) (v (Proc.devRef .tc main_v3)) (v (Proc.devRef .tc main_v6)) n q

/-- … and the bias vector re-laid as a row. -/
theorem bias4_apply (q : Fin 256) :
    (StableHlo.after hostOps4 v (Proc.devRef .tc main_v63) : S1x256.Idx → EReal) (ix2 0 q)
      = ((v (Proc.devRef .tc main_arg9)) : S256.Idx → EReal) (ix1 q) := by
  have e : StableHlo.after hostOps4 v (Proc.devRef .tc main_v63)
      = shapeCast S1x256 (v (Proc.devRef .tc main_arg9)) shapeCasts_S256_S1x256 := by
    simp only [hostOps4]
    after_results
    rfl
  rw [e]
  exact Cert.Layout.shapeCast_row_apply _ _ q

set_option maxHeartbeats 4000000 in
/-- Stretch 5: the aggregated table as the host operations' term of what the stretch starts from. -/
theorem agg5_term : StableHlo.after hostOps5 v (Proc.devRef .tc main_v74)
    = Host.scatterAdd scatter_S50000x64_S650000x1_S650000x64_1_0_0_1
        (broadcastInDim S50000x64 ![] bcast_S_S50000x64 (constant (F := Ideal) S_ .f32 0x00000000#32))
        (broadcastInDim S650000x1 ![0] bcast_S650000_S650000x1_0 (v (Proc.devRef .tc main_v6)))
        (Host.gather gather_S50000x64_S650000x1_S650000x64_1_0_n_n_0_1_164 (v (Proc.devRef .tc main_v64))
          (broadcastInDim S650000x1 ![0] bcast_S650000_S650000x1_0 (select (cmpi .slt (v (Proc.devRef .tc main_v3)) (broadcastInDim S650000 ![] bcast_S_S650000 (constantI S_ 32 0#32))) (addi (v (Proc.devRef .tc main_v3)) (broadcastInDim S650000 ![] bcast_S_S650000 (constantI S_ 32 50000#32))) (v (Proc.devRef .tc main_v3))))) := by
  simp only [hostOps5]
  after_results_simp <;> rfl

/-- … read at `(n, q)`: the sum over the edges ending in `n` of the region's table at `(src e, q)`. -/
theorem agg5_apply (n : Fin 50000) (q : Fin 64) :
    (StableHlo.after hostOps5 v (Proc.devRef .tc main_v74) : S50000x64.Idx → EReal) (ix2 n q)
      = Cert.Gcn.gatherAdd (Cert.Graph.srcOf (v (Proc.devRef .tc main_v3))) (Cert.Graph.hitOf (v (Proc.devRef .tc main_v6)))
          (fun a j => ((v (Proc.devRef .tc main_v64)) : S50000x64.Idx → EReal) (ix2 a j)) n q := by
  rw [agg5_term]
  exact Cert.Passing.gatherAdd_apply bcast_S650000_S650000x1_0 bcast_S_S650000
    gather_S50000x64_S650000x1_S650000x64_1_0_n_n_0_1_164_wf scatter_S50000x64_S650000x1_S650000x64_1_0_0_1_wf bcast_S_S50000x64
    (v (Proc.devRef .tc main_v64)) (v (Proc.devRef .tc main_v3)) (v (Proc.devRef .tc main_v6)) n q

/-- … and the bias vector re-laid as a row. -/
theorem bias5_apply (q : Fin 64) :
    (StableHlo.after hostOps5 v (Proc.devRef .tc main_v75) : S1x64.Idx → EReal) (ix2 0 q)
      = ((v (Proc.devRef .tc main_arg11)) : S64.Idx → EReal) (ix1 q) := by
  have e : StableHlo.after hostOps5 v (Proc.devRef .tc main_v75)
      = shapeCast S1x64 (v (Proc.devRef .tc main_arg11)) shapeCasts_S64_S1x64 := by
    simp only [hostOps5]
    after_results
    rfl
  rw [e]
  exact Cert.Layout.shapeCast_row_apply _ _ q

/-! ## Before the first region: the node weights -/

section Parts
variable {F : FTy → Type} [FloatOps F]

/-- The first stretch's operations that make the source and target words (the edge array's two rows, each followed
    by one self-loop per node). -/
abbrev wordOps : List (HloOp τ sig (Elt F)) :=
  [ StableHlo.nullary main_v0 (iotaInDim S50000 32 0),
    StableHlo.unary main_arg1 main_v1 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v1 main_v2 rfl shapeCasts_S1x600000_S600000,
    StableHlo.binary main_v2 main_v0 main_v3 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    StableHlo.unary main_arg1 main_v4 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v4 main_v5 rfl shapeCasts_S1x600000_S600000,
    StableHlo.binary main_v5 main_v0 main_v6 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)) ]

/-- The first stretch's remaining operations: the in-degree counted from the target words, its comparison with zero
    and its inverse square root. -/
abbrev degreeOps : List (HloOp τ sig (Elt F)) :=
  [ StableHlo.nullary main_cst (constant S_ .f32 0x3F800000#32),
    StableHlo.unary main_cst main_v7 (broadcastInDim S650000 ![] bcast_S_S650000 : (⟨S_, .f32⟩ : BufTy).Contents (Elt F) → (⟨S650000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S650000x1 ![0] bcast_S650000_S650000x1_0 : (⟨S650000, .i32⟩ : BufTy).Contents (Elt F) → (⟨S650000x1, .i32⟩ : BufTy).Contents (Elt F)),
    StableHlo.ternary main_v8 main_v9 main_v7 main_v10 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32) ]

end Parts

/-- The first stretch is the two parts in a row. -/
theorem first_split : StableHlo.after hostOps0 v = StableHlo.after degreeOps (StableHlo.after wordOps v) := rfl

/-- The degree operations leave the target words alone. -/
theorem words_kept : StableHlo.after degreeOps (StableHlo.after wordOps v) (Proc.devRef .tc main_v6)
    = StableHlo.after wordOps v (Proc.devRef .tc main_v6) := by
  host_kept degreeOps

set_option maxHeartbeats 4000000 in
/-- The node weights as the stretches' term of the target words `u` holds in `main_v6`. -/
theorem weights_term (u : Valuation τ sig (Elt Ideal)) :
    StableHlo.after hostOps0_2 (StableHlo.after hostOps0_1 (StableHlo.after degreeOps u)) (Proc.devRef .tc main_v15)
      = shapeCast S50000x1
          (Cert.Passing.weightVec bcast_S650000_S650000x1_0 bcast_S_S650000 bcast_S_S50000 scatter_S50000_S650000x1_S650000_n_0_0_1_wf
            (u (Proc.devRef .tc main_v6))
            (broadcastInDim S50000 ![] bcast_S_S50000 (constant (F := Ideal) S_ .f32 0x00000000#32)))
          shapeCasts_S50000_S50000x1 := by
  simp only [hostOps0_2, hostOps0_1, degreeOps]
  after_results
  -- a typed reference to a literal buffer moves a value to the buffer's type and back without changing it
  have e14 : ∀ w : (⟨S50000, .f32⟩ : BufTy).Contents (Elt Ideal),
      (TRef.of main_v14 : TRef sig ⟨S50000, .f32⟩).toBuf (Val := Elt Ideal) w = w := fun _ => rfl
  have e12 : ∀ w : main_v12.ty.Contents (Elt Ideal),
      (TRef.of main_v12 : TRef sig ⟨S50000, .i1⟩).ofBuf (Val := Elt Ideal) w = w := fun _ => rfl
  have e13 : ∀ w : main_v13.ty.Contents (Elt Ideal),
      (TRef.of main_v13 : TRef sig ⟨S50000, .f32⟩).ofBuf (Val := Elt Ideal) w = w := fun _ => rfl
  have ec2 : ∀ w : main_cst_2.ty.Contents (Elt Ideal),
      (TRef.of main_cst_2 : TRef sig ⟨S_, .f32⟩).ofBuf (Val := Elt Ideal) w = w := fun _ => rfl
  simp only [Cert.TypedRef.ofBuf_toBuf, e14, e12, e13, ec2, id]
  show shapeCast S50000x1 _ shapeCasts_S50000_S50000x1 = _
  unfold Cert.Passing.weightVec Cert.Passing.degVec Cert.Passing.rawCol
  rfl

/-- THE NODE WEIGHTS at `(n, 0)`. -/
theorem weights_apply (n : Fin 50000) :
    (StableHlo.after hostOps0_2 (StableHlo.after hostOps0_1 (StableHlo.after hostOps0 v)) (Proc.devRef .tc main_v15) : S50000x1.Idx → EReal) (ix2 n 0)
      = Cert.Graph.dOf (StableHlo.after hostOps0 v (Proc.devRef .tc main_v6)) n := by
  rw [first_split, weights_term, words_kept]
  refine (Cert.Layout.shapeCast_col_apply _ _ n).trans ?_
  exact Cert.Passing.weightVec_apply bcast_S650000_S650000x1_0 bcast_S_S650000 bcast_S_S50000 scatter_S50000_S650000x1_S650000_n_0_0_1_wf _ _
    (fun k => Cert.HostBroadcast.scalar_apply _ _ _ _) n

end Cert.KernelIdeal.HostValue

end
-- ==== Proof.KKept.lean ====
/-
  What the idealized kernel's host stretches and regions leave untouched.

  @main is fourteen segments; `W k` is what the TensorCore's buffers hold after the `k`-th. A buffer that a host
  stretch does not write keeps its contents across the stretch, and a buffer that is not one of a region's window
  arrays keeps its contents across the region. So the edges' source and target words (written by the first
  stretch), the node weights (written by the third) and the argument arrays hold, at every later boundary where
  they are read, what they held when written — the arguments what the launch memory holds.
-/
import proofs.«120852_j32744830665494_2_alg».proof.Proof.Gen.KernelIdeal.Frame
import proofs.«120852_j32744830665494_2_alg».proof.Proof.LibHostKept

set_option maxRecDepth 16384

noncomputable section

namespace Cert.KernelIdeal.Kept

open Cert.KernelIdeal Cert.KernelIdeal.Gen Idealize.ShloMosaic Idealize.ShloMosaic.TcCoe Idealize.SL.Sem
open Cert.Kept

variable {F : FTy → Type} [FloatOps F]
variable (m : (ℓ : Loc nD τ sig) → Buf (Elt F) ℓ) (ρ : Dev nD → PrngReg) (c : Dev nD)

/-- The source words, written by the first stretch, at every later boundary up to the last stretch's start. -/
theorem srcWords_kept :
    W2 m ρ c (Proc.devRef .tc main_v3) = W1 m ρ c (Proc.devRef .tc main_v3)
    ∧ W3 m ρ c (Proc.devRef .tc main_v3) = W1 m ρ c (Proc.devRef .tc main_v3)
    ∧ W4 m ρ c (Proc.devRef .tc main_v3) = W1 m ρ c (Proc.devRef .tc main_v3)
    ∧ W5 m ρ c (Proc.devRef .tc main_v3) = W1 m ρ c (Proc.devRef .tc main_v3)
    ∧ W6 m ρ c (Proc.devRef .tc main_v3) = W1 m ρ c (Proc.devRef .tc main_v3)
    ∧ W7 m ρ c (Proc.devRef .tc main_v3) = W1 m ρ c (Proc.devRef .tc main_v3)
    ∧ W8 m ρ c (Proc.devRef .tc main_v3) = W1 m ρ c (Proc.devRef .tc main_v3)
    ∧ W9 m ρ c (Proc.devRef .tc main_v3) = W1 m ρ c (Proc.devRef .tc main_v3)
    ∧ W10 m ρ c (Proc.devRef .tc main_v3) = W1 m ρ c (Proc.devRef .tc main_v3)
    ∧ W11 m ρ c (Proc.devRef .tc main_v3) = W1 m ρ c (Proc.devRef .tc main_v3)
    ∧ W12 m ρ c (Proc.devRef .tc main_v3) = W1 m ρ c (Proc.devRef .tc main_v3) := by
  have h2 : W2 m ρ c (Proc.devRef .tc main_v3) = W1 m ρ c (Proc.devRef .tc main_v3) := (by host_kept hostOps0_1)
  have h3 : W3 m ρ c (Proc.devRef .tc main_v3) = W1 m ρ c (Proc.devRef .tc main_v3) := ((by host_kept hostOps0_2) : W3 m ρ c (Proc.devRef .tc main_v3) = W2 m ρ c (Proc.devRef .tc main_v3)).trans h2
  have h4 : W4 m ρ c (Proc.devRef .tc main_v3) = W1 m ρ c (Proc.devRef .tc main_v3) := ((W4_of_ne m ρ c main_v3 (by decide)) : W4 m ρ c (Proc.devRef .tc main_v3) = W3 m ρ c (Proc.devRef .tc main_v3)).trans h3
  have h5 : W5 m ρ c (Proc.devRef .tc main_v3) = W1 m ρ c (Proc.devRef .tc main_v3) := ((by host_kept hostOps1) : W5 m ρ c (Proc.devRef .tc main_v3) = W4 m ρ c (Proc.devRef .tc main_v3)).trans h4
  have h6 : W6 m ρ c (Proc.devRef .tc main_v3) = W1 m ρ c (Proc.devRef .tc main_v3) := ((W6_of_ne m ρ c main_v3 (by decide)) : W6 m ρ c (Proc.devRef .tc main_v3) = W5 m ρ c (Proc.devRef .tc main_v3)).trans h5
  have h7 : W7 m ρ c (Proc.devRef .tc main_v3) = W1 m ρ c (Proc.devRef .tc main_v3) := ((by host_kept hostOps2) : W7 m ρ c (Proc.devRef .tc main_v3) = W6 m ρ c (Proc.devRef .tc main_v3)).trans h6
  have h8 : W8 m ρ c (Proc.devRef .tc main_v3) = W1 m ρ c (Proc.devRef .tc main_v3) := ((W8_of_ne m ρ c main_v3 (by decide)) : W8 m ρ c (Proc.devRef .tc main_v3) = W7 m ρ c (Proc.devRef .tc main_v3)).trans h7
  have h9 : W9 m ρ c (Proc.devRef .tc main_v3) = W1 m ρ c (Proc.devRef .tc main_v3) := ((by host_kept hostOps3) : W9 m ρ c (Proc.devRef .tc main_v3) = W8 m ρ c (Proc.devRef .tc main_v3)).trans h8
  have h10 : W10 m ρ c (Proc.devRef .tc main_v3) = W1 m ρ c (Proc.devRef .tc main_v3) := ((W10_of_ne m ρ c main_v3 (by decide)) : W10 m ρ c (Proc.devRef .tc main_v3) = W9 m ρ c (Proc.devRef .tc main_v3)).trans h9
  have h11 : W11 m ρ c (Proc.devRef .tc main_v3) = W1 m ρ c (Proc.devRef .tc main_v3) := ((by host_kept hostOps4) : W11 m ρ c (Proc.devRef .tc main_v3) = W10 m ρ c (Proc.devRef .tc main_v3)).trans h10
  have h12 : W12 m ρ c (Proc.devRef .tc main_v3) = W1 m ρ c (Proc.devRef .tc main_v3) := ((W12_of_ne m ρ c main_v3 (by decide)) : W12 m ρ c (Proc.devRef .tc main_v3) = W11 m ρ c (Proc.devRef .tc main_v3)).trans h11
  exact ⟨h2, h3, h4, h5, h6, h7, h8, h9, h10, h11, h12⟩

/-- The target words, likewise. -/
theorem dstWords_kept :
    W2 m ρ c (Proc.devRef .tc main_v6) = W1 m ρ c (Proc.devRef .tc main_v6)
    ∧ W3 m ρ c (Proc.devRef .tc main_v6) = W1 m ρ c (Proc.devRef .tc main_v6)
    ∧ W4 m ρ c (Proc.devRef .tc main_v6) = W1 m ρ c (Proc.devRef .tc main_v6)
    ∧ W5 m ρ c (Proc.devRef .tc main_v6) = W1 m ρ c (Proc.devRef .tc main_v6)
    ∧ W6 m ρ c (Proc.devRef .tc main_v6) = W1 m ρ c (Proc.devRef .tc main_v6)
    ∧ W7 m ρ c (Proc.devRef .tc main_v6) = W1 m ρ c (Proc.devRef .tc main_v6)
    ∧ W8 m ρ c (Proc.devRef .tc main_v6) = W1 m ρ c (Proc.devRef .tc main_v6)
    ∧ W9 m ρ c (Proc.devRef .tc main_v6) = W1 m ρ c (Proc.devRef .tc main_v6)
    ∧ W10 m ρ c (Proc.devRef .tc main_v6) = W1 m ρ c (Proc.devRef .tc main_v6)
    ∧ W11 m ρ c (Proc.devRef .tc main_v6) = W1 m ρ c (Proc.devRef .tc main_v6)
    ∧ W12 m ρ c (Proc.devRef .tc main_v6) = W1 m ρ c (Proc.devRef .tc main_v6) := by
  have h2 : W2 m ρ c (Proc.devRef .tc main_v6) = W1 m ρ c (Proc.devRef .tc main_v6) := (by host_kept hostOps0_1)
  have h3 : W3 m ρ c (Proc.devRef .tc main_v6) = W1 m ρ c (Proc.devRef .tc main_v6) := ((by host_kept hostOps0_2) : W3 m ρ c (Proc.devRef .tc main_v6) = W2 m ρ c (Proc.devRef .tc main_v6)).trans h2
  have h4 : W4 m ρ c (Proc.devRef .tc main_v6) = W1 m ρ c (Proc.devRef .tc main_v6) := ((W4_of_ne m ρ c main_v6 (by decide)) : W4 m ρ c (Proc.devRef .tc main_v6) = W3 m ρ c (Proc.devRef .tc main_v6)).trans h3
  have h5 : W5 m ρ c (Proc.devRef .tc main_v6) = W1 m ρ c (Proc.devRef .tc main_v6) := ((by host_kept hostOps1) : W5 m ρ c (Proc.devRef .tc main_v6) = W4 m ρ c (Proc.devRef .tc main_v6)).trans h4
  have h6 : W6 m ρ c (Proc.devRef .tc main_v6) = W1 m ρ c (Proc.devRef .tc main_v6) := ((W6_of_ne m ρ c main_v6 (by decide)) : W6 m ρ c (Proc.devRef .tc main_v6) = W5 m ρ c (Proc.devRef .tc main_v6)).trans h5
  have h7 : W7 m ρ c (Proc.devRef .tc main_v6) = W1 m ρ c (Proc.devRef .tc main_v6) := ((by host_kept hostOps2) : W7 m ρ c (Proc.devRef .tc main_v6) = W6 m ρ c (Proc.devRef .tc main_v6)).trans h6
  have h8 : W8 m ρ c (Proc.devRef .tc main_v6) = W1 m ρ c (Proc.devRef .tc main_v6) := ((W8_of_ne m ρ c main_v6 (by decide)) : W8 m ρ c (Proc.devRef .tc main_v6) = W7 m ρ c (Proc.devRef .tc main_v6)).trans h7
  have h9 : W9 m ρ c (Proc.devRef .tc main_v6) = W1 m ρ c (Proc.devRef .tc main_v6) := ((by host_kept hostOps3) : W9 m ρ c (Proc.devRef .tc main_v6) = W8 m ρ c (Proc.devRef .tc main_v6)).trans h8
  have h10 : W10 m ρ c (Proc.devRef .tc main_v6) = W1 m ρ c (Proc.devRef .tc main_v6) := ((W10_of_ne m ρ c main_v6 (by decide)) : W10 m ρ c (Proc.devRef .tc main_v6) = W9 m ρ c (Proc.devRef .tc main_v6)).trans h9
  have h11 : W11 m ρ c (Proc.devRef .tc main_v6) = W1 m ρ c (Proc.devRef .tc main_v6) := ((by host_kept hostOps4) : W11 m ρ c (Proc.devRef .tc main_v6) = W10 m ρ c (Proc.devRef .tc main_v6)).trans h10
  have h12 : W12 m ρ c (Proc.devRef .tc main_v6) = W1 m ρ c (Proc.devRef .tc main_v6) := ((W12_of_ne m ρ c main_v6 (by decide)) : W12 m ρ c (Proc.devRef .tc main_v6) = W11 m ρ c (Proc.devRef .tc main_v6)).trans h11
  exact ⟨h2, h3, h4, h5, h6, h7, h8, h9, h10, h11, h12⟩

/-- The node weights, written by the third stretch, at every later boundary up to the last region's entry. -/
theorem weights_kept :
    W4 m ρ c (Proc.devRef .tc main_v15) = W3 m ρ c (Proc.devRef .tc main_v15)
    ∧ W5 m ρ c (Proc.devRef .tc main_v15) = W3 m ρ c (Proc.devRef .tc main_v15)
    ∧ W6 m ρ c (Proc.devRef .tc main_v15) = W3 m ρ c (Proc.devRef .tc main_v15)
    ∧ W7 m ρ c (Proc.devRef .tc main_v15) = W3 m ρ c (Proc.devRef .tc main_v15)
    ∧ W8 m ρ c (Proc.devRef .tc main_v15) = W3 m ρ c (Proc.devRef .tc main_v15)
    ∧ W9 m ρ c (Proc.devRef .tc main_v15) = W3 m ρ c (Proc.devRef .tc main_v15)
    ∧ W10 m ρ c (Proc.devRef .tc main_v15) = W3 m ρ c (Proc.devRef .tc main_v15)
    ∧ W11 m ρ c (Proc.devRef .tc main_v15) = W3 m ρ c (Proc.devRef .tc main_v15)
    ∧ W12 m ρ c (Proc.devRef .tc main_v15) = W3 m ρ c (Proc.devRef .tc main_v15)
    ∧ W13 m ρ c (Proc.devRef .tc main_v15) = W3 m ρ c (Proc.devRef .tc main_v15) := by
  have h4 : W4 m ρ c (Proc.devRef .tc main_v15) = W3 m ρ c (Proc.devRef .tc main_v15) := (W4_arr m ρ c 2).trans (((dat0 (V3 m ρ) c).arrAt_in 2 rfl _).trans (A_eq0 (V3 m ρ) c 2))
  have h5 : W5 m ρ c (Proc.devRef .tc main_v15) = W3 m ρ c (Proc.devRef .tc main_v15) := ((by host_kept hostOps1) : W5 m ρ c (Proc.devRef .tc main_v15) = W4 m ρ c (Proc.devRef .tc main_v15)).trans h4
  have h6 : W6 m ρ c (Proc.devRef .tc main_v15) = W3 m ρ c (Proc.devRef .tc main_v15) := ((W6_arr m ρ c 2).trans (((dat1 (V5 m ρ) c).arrAt_in 2 rfl _).trans (A_eq1 (V5 m ρ) c 2)) : W6 m ρ c (Proc.devRef .tc main_v15) = W5 m ρ c (Proc.devRef .tc main_v15)).trans h5
  have h7 : W7 m ρ c (Proc.devRef .tc main_v15) = W3 m ρ c (Proc.devRef .tc main_v15) := ((by host_kept hostOps2) : W7 m ρ c (Proc.devRef .tc main_v15) = W6 m ρ c (Proc.devRef .tc main_v15)).trans h6
  have h8 : W8 m ρ c (Proc.devRef .tc main_v15) = W3 m ρ c (Proc.devRef .tc main_v15) := ((W8_arr m ρ c 2).trans (((dat2 (V7 m ρ) c).arrAt_in 2 rfl _).trans (A_eq2 (V7 m ρ) c 2)) : W8 m ρ c (Proc.devRef .tc main_v15) = W7 m ρ c (Proc.devRef .tc main_v15)).trans h7
  have h9 : W9 m ρ c (Proc.devRef .tc main_v15) = W3 m ρ c (Proc.devRef .tc main_v15) := ((by host_kept hostOps3) : W9 m ρ c (Proc.devRef .tc main_v15) = W8 m ρ c (Proc.devRef .tc main_v15)).trans h8
  have h10 : W10 m ρ c (Proc.devRef .tc main_v15) = W3 m ρ c (Proc.devRef .tc main_v15) := ((W10_arr m ρ c 2).trans (((dat3 (V9 m ρ) c).arrAt_in 2 rfl _).trans (A_eq3 (V9 m ρ) c 2)) : W10 m ρ c (Proc.devRef .tc main_v15) = W9 m ρ c (Proc.devRef .tc main_v15)).trans h9
  have h11 : W11 m ρ c (Proc.devRef .tc main_v15) = W3 m ρ c (Proc.devRef .tc main_v15) := ((by host_kept hostOps4) : W11 m ρ c (Proc.devRef .tc main_v15) = W10 m ρ c (Proc.devRef .tc main_v15)).trans h10
  have h12 : W12 m ρ c (Proc.devRef .tc main_v15) = W3 m ρ c (Proc.devRef .tc main_v15) := ((W12_arr m ρ c 2).trans (((dat4 (V11 m ρ) c).arrAt_in 2 rfl _).trans (A_eq4 (V11 m ρ) c 2)) : W12 m ρ c (Proc.devRef .tc main_v15) = W11 m ρ c (Proc.devRef .tc main_v15)).trans h11
  have h13 : W13 m ρ c (Proc.devRef .tc main_v15) = W3 m ρ c (Proc.devRef .tc main_v15) := ((by host_kept hostOps5) : W13 m ρ c (Proc.devRef .tc main_v15) = W12 m ρ c (Proc.devRef .tc main_v15)).trans h12
  exact ⟨h4, h5, h6, h7, h8, h9, h10, h11, h12, h13⟩

/-- Argument `main_arg0` holds the launch memory's contents at the boundaries up to where it is read. -/
theorem main_arg0_kept :
    W1 m ρ c (Proc.devRef .tc main_arg0) = m ((c : Thread nD τ).loc main_arg0)
    ∧ W2 m ρ c (Proc.devRef .tc main_arg0) = m ((c : Thread nD τ).loc main_arg0)
    ∧ W3 m ρ c (Proc.devRef .tc main_arg0) = m ((c : Thread nD τ).loc main_arg0) := by
  have h1 : W1 m ρ c (Proc.devRef .tc main_arg0) = m ((c : Thread nD τ).loc main_arg0) := (by host_kept hostOps0)
  have h2 : W2 m ρ c (Proc.devRef .tc main_arg0) = m ((c : Thread nD τ).loc main_arg0) := ((by host_kept hostOps0_1) : W2 m ρ c (Proc.devRef .tc main_arg0) = W1 m ρ c (Proc.devRef .tc main_arg0)).trans h1
  have h3 : W3 m ρ c (Proc.devRef .tc main_arg0) = m ((c : Thread nD τ).loc main_arg0) := ((by host_kept hostOps0_2) : W3 m ρ c (Proc.devRef .tc main_arg0) = W2 m ρ c (Proc.devRef .tc main_arg0)).trans h2
  exact ⟨h1, h2, h3⟩

/-- Argument `main_arg2` holds the launch memory's contents at the boundaries up to where it is read. -/
theorem main_arg2_kept :
    W1 m ρ c (Proc.devRef .tc main_arg2) = m ((c : Thread nD τ).loc main_arg2)
    ∧ W2 m ρ c (Proc.devRef .tc main_arg2) = m ((c : Thread nD τ).loc main_arg2)
    ∧ W3 m ρ c (Proc.devRef .tc main_arg2) = m ((c : Thread nD τ).loc main_arg2) := by
  have h1 : W1 m ρ c (Proc.devRef .tc main_arg2) = m ((c : Thread nD τ).loc main_arg2) := (by host_kept hostOps0)
  have h2 : W2 m ρ c (Proc.devRef .tc main_arg2) = m ((c : Thread nD τ).loc main_arg2) := ((by host_kept hostOps0_1) : W2 m ρ c (Proc.devRef .tc main_arg2) = W1 m ρ c (Proc.devRef .tc main_arg2)).trans h1
  have h3 : W3 m ρ c (Proc.devRef .tc main_arg2) = m ((c : Thread nD τ).loc main_arg2) := ((by host_kept hostOps0_2) : W3 m ρ c (Proc.devRef .tc main_arg2) = W2 m ρ c (Proc.devRef .tc main_arg2)).trans h2
  exact ⟨h1, h2, h3⟩

/-- Argument `main_arg3` holds the launch memory's contents at the boundaries up to where it is read. -/
theorem main_arg3_kept :
    W1 m ρ c (Proc.devRef .tc main_arg3) = m ((c : Thread nD τ).loc main_arg3)
    ∧ W2 m ρ c (Proc.devRef .tc main_arg3) = m ((c : Thread nD τ).loc main_arg3)
    ∧ W3 m ρ c (Proc.devRef .tc main_arg3) = m ((c : Thread nD τ).loc main_arg3)
    ∧ W4 m ρ c (Proc.devRef .tc main_arg3) = m ((c : Thread nD τ).loc main_arg3) := by
  have h1 : W1 m ρ c (Proc.devRef .tc main_arg3) = m ((c : Thread nD τ).loc main_arg3) := (by host_kept hostOps0)
  have h2 : W2 m ρ c (Proc.devRef .tc main_arg3) = m ((c : Thread nD τ).loc main_arg3) := ((by host_kept hostOps0_1) : W2 m ρ c (Proc.devRef .tc main_arg3) = W1 m ρ c (Proc.devRef .tc main_arg3)).trans h1
  have h3 : W3 m ρ c (Proc.devRef .tc main_arg3) = m ((c : Thread nD τ).loc main_arg3) := ((by host_kept hostOps0_2) : W3 m ρ c (Proc.devRef .tc main_arg3) = W2 m ρ c (Proc.devRef .tc main_arg3)).trans h2
  have h4 : W4 m ρ c (Proc.devRef .tc main_arg3) = m ((c : Thread nD τ).loc main_arg3) := ((W4_of_ne m ρ c main_arg3 (by decide)) : W4 m ρ c (Proc.devRef .tc main_arg3) = W3 m ρ c (Proc.devRef .tc main_arg3)).trans h3
  exact ⟨h1, h2, h3, h4⟩

/-- Argument `main_arg4` holds the launch memory's contents at the boundaries up to where it is read. -/
theorem main_arg4_kept :
    W1 m ρ c (Proc.devRef .tc main_arg4) = m ((c : Thread nD τ).loc main_arg4)
    ∧ W2 m ρ c (Proc.devRef .tc main_arg4) = m ((c : Thread nD τ).loc main_arg4)
    ∧ W3 m ρ c (Proc.devRef .tc main_arg4) = m ((c : Thread nD τ).loc main_arg4)
    ∧ W4 m ρ c (Proc.devRef .tc main_arg4) = m ((c : Thread nD τ).loc main_arg4)
    ∧ W5 m ρ c (Proc.devRef .tc main_arg4) = m ((c : Thread nD τ).loc main_arg4) := by
  have h1 : W1 m ρ c (Proc.devRef .tc main_arg4) = m ((c : Thread nD τ).loc main_arg4) := (by host_kept hostOps0)
  have h2 : W2 m ρ c (Proc.devRef .tc main_arg4) = m ((c : Thread nD τ).loc main_arg4) := ((by host_kept hostOps0_1) : W2 m ρ c (Proc.devRef .tc main_arg4) = W1 m ρ c (Proc.devRef .tc main_arg4)).trans h1
  have h3 : W3 m ρ c (Proc.devRef .tc main_arg4) = m ((c : Thread nD τ).loc main_arg4) := ((by host_kept hostOps0_2) : W3 m ρ c (Proc.devRef .tc main_arg4) = W2 m ρ c (Proc.devRef .tc main_arg4)).trans h2
  have h4 : W4 m ρ c (Proc.devRef .tc main_arg4) = m ((c : Thread nD τ).loc main_arg4) := ((W4_of_ne m ρ c main_arg4 (by decide)) : W4 m ρ c (Proc.devRef .tc main_arg4) = W3 m ρ c (Proc.devRef .tc main_arg4)).trans h3
  have h5 : W5 m ρ c (Proc.devRef .tc main_arg4) = m ((c : Thread nD τ).loc main_arg4) := ((by host_kept hostOps1) : W5 m ρ c (Proc.devRef .tc main_arg4) = W4 m ρ c (Proc.devRef .tc main_arg4)).trans h4
  exact ⟨h1, h2, h3, h4, h5⟩

/-- Argument `main_arg5` holds the launch memory's contents at the boundaries up to where it is read. -/
theorem main_arg5_kept :
    W1 m ρ c (Proc.devRef .tc main_arg5) = m ((c : Thread nD τ).loc main_arg5)
    ∧ W2 m ρ c (Proc.devRef .tc main_arg5) = m ((c : Thread nD τ).loc main_arg5)
    ∧ W3 m ρ c (Proc.devRef .tc main_arg5) = m ((c : Thread nD τ).loc main_arg5)
    ∧ W4 m ρ c (Proc.devRef .tc main_arg5) = m ((c : Thread nD τ).loc main_arg5)
    ∧ W5 m ρ c (Proc.devRef .tc main_arg5) = m ((c : Thread nD τ).loc main_arg5)
    ∧ W6 m ρ c (Proc.devRef .tc main_arg5) = m ((c : Thread nD τ).loc main_arg5) := by
  have h1 : W1 m ρ c (Proc.devRef .tc main_arg5) = m ((c : Thread nD τ).loc main_arg5) := (by host_kept hostOps0)
  have h2 : W2 m ρ c (Proc.devRef .tc main_arg5) = m ((c : Thread nD τ).loc main_arg5) := ((by host_kept hostOps0_1) : W2 m ρ c (Proc.devRef .tc main_arg5) = W1 m ρ c (Proc.devRef .tc main_arg5)).trans h1
  have h3 : W3 m ρ c (Proc.devRef .tc main_arg5) = m ((c : Thread nD τ).loc main_arg5) := ((by host_kept hostOps0_2) : W3 m ρ c (Proc.devRef .tc main_arg5) = W2 m ρ c (Proc.devRef .tc main_arg5)).trans h2
  have h4 : W4 m ρ c (Proc.devRef .tc main_arg5) = m ((c : Thread nD τ).loc main_arg5) := ((W4_of_ne m ρ c main_arg5 (by decide)) : W4 m ρ c (Proc.devRef .tc main_arg5) = W3 m ρ c (Proc.devRef .tc main_arg5)).trans h3
  have h5 : W5 m ρ c (Proc.devRef .tc main_arg5) = m ((c : Thread nD τ).loc main_arg5) := ((by host_kept hostOps1) : W5 m ρ c (Proc.devRef .tc main_arg5) = W4 m ρ c (Proc.devRef .tc main_arg5)).trans h4
  have h6 : W6 m ρ c (Proc.devRef .tc main_arg5) = m ((c : Thread nD τ).loc main_arg5) := ((W6_of_ne m ρ c main_arg5 (by decide)) : W6 m ρ c (Proc.devRef .tc main_arg5) = W5 m ρ c (Proc.devRef .tc main_arg5)).trans h5
  exact ⟨h1, h2, h3, h4, h5, h6⟩

/-- Argument `main_arg6` holds the launch memory's contents at the boundaries up to where it is read. -/
theorem main_arg6_kept :
    W1 m ρ c (Proc.devRef .tc main_arg6) = m ((c : Thread nD τ).loc main_arg6)
    ∧ W2 m ρ c (Proc.devRef .tc main_arg6) = m ((c : Thread nD τ).loc main_arg6)
    ∧ W3 m ρ c (Proc.devRef .tc main_arg6) = m ((c : Thread nD τ).loc main_arg6)
    ∧ W4 m ρ c (Proc.devRef .tc main_arg6) = m ((c : Thread nD τ).loc main_arg6)
    ∧ W5 m ρ c (Proc.devRef .tc main_arg6) = m ((c : Thread nD τ).loc main_arg6)
    ∧ W6 m ρ c (Proc.devRef .tc main_arg6) = m ((c : Thread nD τ).loc main_arg6)
    ∧ W7 m ρ c (Proc.devRef .tc main_arg6) = m ((c : Thread nD τ).loc main_arg6) := by
  have h1 : W1 m ρ c (Proc.devRef .tc main_arg6) = m ((c : Thread nD τ).loc main_arg6) := (by host_kept hostOps0)
  have h2 : W2 m ρ c (Proc.devRef .tc main_arg6) = m ((c : Thread nD τ).loc main_arg6) := ((by host_kept hostOps0_1) : W2 m ρ c (Proc.devRef .tc main_arg6) = W1 m ρ c (Proc.devRef .tc main_arg6)).trans h1
  have h3 : W3 m ρ c (Proc.devRef .tc main_arg6) = m ((c : Thread nD τ).loc main_arg6) := ((by host_kept hostOps0_2) : W3 m ρ c (Proc.devRef .tc main_arg6) = W2 m ρ c (Proc.devRef .tc main_arg6)).trans h2
  have h4 : W4 m ρ c (Proc.devRef .tc main_arg6) = m ((c : Thread nD τ).loc main_arg6) := ((W4_of_ne m ρ c main_arg6 (by decide)) : W4 m ρ c (Proc.devRef .tc main_arg6) = W3 m ρ c (Proc.devRef .tc main_arg6)).trans h3
  have h5 : W5 m ρ c (Proc.devRef .tc main_arg6) = m ((c : Thread nD τ).loc main_arg6) := ((by host_kept hostOps1) : W5 m ρ c (Proc.devRef .tc main_arg6) = W4 m ρ c (Proc.devRef .tc main_arg6)).trans h4
  have h6 : W6 m ρ c (Proc.devRef .tc main_arg6) = m ((c : Thread nD τ).loc main_arg6) := ((W6_of_ne m ρ c main_arg6 (by decide)) : W6 m ρ c (Proc.devRef .tc main_arg6) = W5 m ρ c (Proc.devRef .tc main_arg6)).trans h5
  have h7 : W7 m ρ c (Proc.devRef .tc main_arg6) = m ((c : Thread nD τ).loc main_arg6) := ((by host_kept hostOps2) : W7 m ρ c (Proc.devRef .tc main_arg6) = W6 m ρ c (Proc.devRef .tc main_arg6)).trans h6
  exact ⟨h1, h2, h3, h4, h5, h6, h7⟩

/-- Argument `main_arg7` holds the launch memory's contents at the boundaries up to where it is read. -/
theorem main_arg7_kept :
    W1 m ρ c (Proc.devRef .tc main_arg7) = m ((c : Thread nD τ).loc main_arg7)
    ∧ W2 m ρ c (Proc.devRef .tc main_arg7) = m ((c : Thread nD τ).loc main_arg7)
    ∧ W3 m ρ c (Proc.devRef .tc main_arg7) = m ((c : Thread nD τ).loc main_arg7)
    ∧ W4 m ρ c (Proc.devRef .tc main_arg7) = m ((c : Thread nD τ).loc main_arg7)
    ∧ W5 m ρ c (Proc.devRef .tc main_arg7) = m ((c : Thread nD τ).loc main_arg7)
    ∧ W6 m ρ c (Proc.devRef .tc main_arg7) = m ((c : Thread nD τ).loc main_arg7)
    ∧ W7 m ρ c (Proc.devRef .tc main_arg7) = m ((c : Thread nD τ).loc main_arg7)
    ∧ W8 m ρ c (Proc.devRef .tc main_arg7) = m ((c : Thread nD τ).loc main_arg7) := by
  have h1 : W1 m ρ c (Proc.devRef .tc main_arg7) = m ((c : Thread nD τ).loc main_arg7) := (by host_kept hostOps0)
  have h2 : W2 m ρ c (Proc.devRef .tc main_arg7) = m ((c : Thread nD τ).loc main_arg7) := ((by host_kept hostOps0_1) : W2 m ρ c (Proc.devRef .tc main_arg7) = W1 m ρ c (Proc.devRef .tc main_arg7)).trans h1
  have h3 : W3 m ρ c (Proc.devRef .tc main_arg7) = m ((c : Thread nD τ).loc main_arg7) := ((by host_kept hostOps0_2) : W3 m ρ c (Proc.devRef .tc main_arg7) = W2 m ρ c (Proc.devRef .tc main_arg7)).trans h2
  have h4 : W4 m ρ c (Proc.devRef .tc main_arg7) = m ((c : Thread nD τ).loc main_arg7) := ((W4_of_ne m ρ c main_arg7 (by decide)) : W4 m ρ c (Proc.devRef .tc main_arg7) = W3 m ρ c (Proc.devRef .tc main_arg7)).trans h3
  have h5 : W5 m ρ c (Proc.devRef .tc main_arg7) = m ((c : Thread nD τ).loc main_arg7) := ((by host_kept hostOps1) : W5 m ρ c (Proc.devRef .tc main_arg7) = W4 m ρ c (Proc.devRef .tc main_arg7)).trans h4
  have h6 : W6 m ρ c (Proc.devRef .tc main_arg7) = m ((c : Thread nD τ).loc main_arg7) := ((W6_of_ne m ρ c main_arg7 (by decide)) : W6 m ρ c (Proc.devRef .tc main_arg7) = W5 m ρ c (Proc.devRef .tc main_arg7)).trans h5
  have h7 : W7 m ρ c (Proc.devRef .tc main_arg7) = m ((c : Thread nD τ).loc main_arg7) := ((by host_kept hostOps2) : W7 m ρ c (Proc.devRef .tc main_arg7) = W6 m ρ c (Proc.devRef .tc main_arg7)).trans h6
  have h8 : W8 m ρ c (Proc.devRef .tc main_arg7) = m ((c : Thread nD τ).loc main_arg7) := ((W8_of_ne m ρ c main_arg7 (by decide)) : W8 m ρ c (Proc.devRef .tc main_arg7) = W7 m ρ c (Proc.devRef .tc main_arg7)).trans h7
  exact ⟨h1, h2, h3, h4, h5, h6, h7, h8⟩

/-- Argument `main_arg8` holds the launch memory's contents at the boundaries up to where it is read. -/
theorem main_arg8_kept :
    W1 m ρ c (Proc.devRef .tc main_arg8) = m ((c : Thread nD τ).loc main_arg8)
    ∧ W2 m ρ c (Proc.devRef .tc main_arg8) = m ((c : Thread nD τ).loc main_arg8)
    ∧ W3 m ρ c (Proc.devRef .tc main_arg8) = m ((c : Thread nD τ).loc main_arg8)
    ∧ W4 m ρ c (Proc.devRef .tc main_arg8) = m ((c : Thread nD τ).loc main_arg8)
    ∧ W5 m ρ c (Proc.devRef .tc main_arg8) = m ((c : Thread nD τ).loc main_arg8)
    ∧ W6 m ρ c (Proc.devRef .tc main_arg8) = m ((c : Thread nD τ).loc main_arg8)
    ∧ W7 m ρ c (Proc.devRef .tc main_arg8) = m ((c : Thread nD τ).loc main_arg8)
    ∧ W8 m ρ c (Proc.devRef .tc main_arg8) = m ((c : Thread nD τ).loc main_arg8)
    ∧ W9 m ρ c (Proc.devRef .tc main_arg8) = m ((c : Thread nD τ).loc main_arg8) := by
  have h1 : W1 m ρ c (Proc.devRef .tc main_arg8) = m ((c : Thread nD τ).loc main_arg8) := (by host_kept hostOps0)
  have h2 : W2 m ρ c (Proc.devRef .tc main_arg8) = m ((c : Thread nD τ).loc main_arg8) := ((by host_kept hostOps0_1) : W2 m ρ c (Proc.devRef .tc main_arg8) = W1 m ρ c (Proc.devRef .tc main_arg8)).trans h1
  have h3 : W3 m ρ c (Proc.devRef .tc main_arg8) = m ((c : Thread nD τ).loc main_arg8) := ((by host_kept hostOps0_2) : W3 m ρ c (Proc.devRef .tc main_arg8) = W2 m ρ c (Proc.devRef .tc main_arg8)).trans h2
  have h4 : W4 m ρ c (Proc.devRef .tc main_arg8) = m ((c : Thread nD τ).loc main_arg8) := ((W4_of_ne m ρ c main_arg8 (by decide)) : W4 m ρ c (Proc.devRef .tc main_arg8) = W3 m ρ c (Proc.devRef .tc main_arg8)).trans h3
  have h5 : W5 m ρ c (Proc.devRef .tc main_arg8) = m ((c : Thread nD τ).loc main_arg8) := ((by host_kept hostOps1) : W5 m ρ c (Proc.devRef .tc main_arg8) = W4 m ρ c (Proc.devRef .tc main_arg8)).trans h4
  have h6 : W6 m ρ c (Proc.devRef .tc main_arg8) = m ((c : Thread nD τ).loc main_arg8) := ((W6_of_ne m ρ c main_arg8 (by decide)) : W6 m ρ c (Proc.devRef .tc main_arg8) = W5 m ρ c (Proc.devRef .tc main_arg8)).trans h5
  have h7 : W7 m ρ c (Proc.devRef .tc main_arg8) = m ((c : Thread nD τ).loc main_arg8) := ((by host_kept hostOps2) : W7 m ρ c (Proc.devRef .tc main_arg8) = W6 m ρ c (Proc.devRef .tc main_arg8)).trans h6
  have h8 : W8 m ρ c (Proc.devRef .tc main_arg8) = m ((c : Thread nD τ).loc main_arg8) := ((W8_of_ne m ρ c main_arg8 (by decide)) : W8 m ρ c (Proc.devRef .tc main_arg8) = W7 m ρ c (Proc.devRef .tc main_arg8)).trans h7
  have h9 : W9 m ρ c (Proc.devRef .tc main_arg8) = m ((c : Thread nD τ).loc main_arg8) := ((by host_kept hostOps3) : W9 m ρ c (Proc.devRef .tc main_arg8) = W8 m ρ c (Proc.devRef .tc main_arg8)).trans h8
  exact ⟨h1, h2, h3, h4, h5, h6, h7, h8, h9⟩

/-- Argument `main_arg9` holds the launch memory's contents at the boundaries up to where it is read. -/
theorem main_arg9_kept :
    W1 m ρ c (Proc.devRef .tc main_arg9) = m ((c : Thread nD τ).loc main_arg9)
    ∧ W2 m ρ c (Proc.devRef .tc main_arg9) = m ((c : Thread nD τ).loc main_arg9)
    ∧ W3 m ρ c (Proc.devRef .tc main_arg9) = m ((c : Thread nD τ).loc main_arg9)
    ∧ W4 m ρ c (Proc.devRef .tc main_arg9) = m ((c : Thread nD τ).loc main_arg9)
    ∧ W5 m ρ c (Proc.devRef .tc main_arg9) = m ((c : Thread nD τ).loc main_arg9)
    ∧ W6 m ρ c (Proc.devRef .tc main_arg9) = m ((c : Thread nD τ).loc main_arg9)
    ∧ W7 m ρ c (Proc.devRef .tc main_arg9) = m ((c : Thread nD τ).loc main_arg9)
    ∧ W8 m ρ c (Proc.devRef .tc main_arg9) = m ((c : Thread nD τ).loc main_arg9)
    ∧ W9 m ρ c (Proc.devRef .tc main_arg9) = m ((c : Thread nD τ).loc main_arg9)
    ∧ W10 m ρ c (Proc.devRef .tc main_arg9) = m ((c : Thread nD τ).loc main_arg9) := by
  have h1 : W1 m ρ c (Proc.devRef .tc main_arg9) = m ((c : Thread nD τ).loc main_arg9) := (by host_kept hostOps0)
  have h2 : W2 m ρ c (Proc.devRef .tc main_arg9) = m ((c : Thread nD τ).loc main_arg9) := ((by host_kept hostOps0_1) : W2 m ρ c (Proc.devRef .tc main_arg9) = W1 m ρ c (Proc.devRef .tc main_arg9)).trans h1
  have h3 : W3 m ρ c (Proc.devRef .tc main_arg9) = m ((c : Thread nD τ).loc main_arg9) := ((by host_kept hostOps0_2) : W3 m ρ c (Proc.devRef .tc main_arg9) = W2 m ρ c (Proc.devRef .tc main_arg9)).trans h2
  have h4 : W4 m ρ c (Proc.devRef .tc main_arg9) = m ((c : Thread nD τ).loc main_arg9) := ((W4_of_ne m ρ c main_arg9 (by decide)) : W4 m ρ c (Proc.devRef .tc main_arg9) = W3 m ρ c (Proc.devRef .tc main_arg9)).trans h3
  have h5 : W5 m ρ c (Proc.devRef .tc main_arg9) = m ((c : Thread nD τ).loc main_arg9) := ((by host_kept hostOps1) : W5 m ρ c (Proc.devRef .tc main_arg9) = W4 m ρ c (Proc.devRef .tc main_arg9)).trans h4
  have h6 : W6 m ρ c (Proc.devRef .tc main_arg9) = m ((c : Thread nD τ).loc main_arg9) := ((W6_of_ne m ρ c main_arg9 (by decide)) : W6 m ρ c (Proc.devRef .tc main_arg9) = W5 m ρ c (Proc.devRef .tc main_arg9)).trans h5
  have h7 : W7 m ρ c (Proc.devRef .tc main_arg9) = m ((c : Thread nD τ).loc main_arg9) := ((by host_kept hostOps2) : W7 m ρ c (Proc.devRef .tc main_arg9) = W6 m ρ c (Proc.devRef .tc main_arg9)).trans h6
  have h8 : W8 m ρ c (Proc.devRef .tc main_arg9) = m ((c : Thread nD τ).loc main_arg9) := ((W8_of_ne m ρ c main_arg9 (by decide)) : W8 m ρ c (Proc.devRef .tc main_arg9) = W7 m ρ c (Proc.devRef .tc main_arg9)).trans h7
  have h9 : W9 m ρ c (Proc.devRef .tc main_arg9) = m ((c : Thread nD τ).loc main_arg9) := ((by host_kept hostOps3) : W9 m ρ c (Proc.devRef .tc main_arg9) = W8 m ρ c (Proc.devRef .tc main_arg9)).trans h8
  have h10 : W10 m ρ c (Proc.devRef .tc main_arg9) = m ((c : Thread nD τ).loc main_arg9) := ((W10_of_ne m ρ c main_arg9 (by decide)) : W10 m ρ c (Proc.devRef .tc main_arg9) = W9 m ρ c (Proc.devRef .tc main_arg9)).trans h9
  exact ⟨h1, h2, h3, h4, h5, h6, h7, h8, h9, h10⟩

/-- Argument `main_arg10` holds the launch memory's contents at the boundaries up to where it is read. -/
theorem main_arg10_kept :
    W1 m ρ c (Proc.devRef .tc main_arg10) = m ((c : Thread nD τ).loc main_arg10)
    ∧ W2 m ρ c (Proc.devRef .tc main_arg10) = m ((c : Thread nD τ).loc main_arg10)
    ∧ W3 m ρ c (Proc.devRef .tc main_arg10) = m ((c : Thread nD τ).loc main_arg10)
    ∧ W4 m ρ c (Proc.devRef .tc main_arg10) = m ((c : Thread nD τ).loc main_arg10)
    ∧ W5 m ρ c (Proc.devRef .tc main_arg10) = m ((c : Thread nD τ).loc main_arg10)
    ∧ W6 m ρ c (Proc.devRef .tc main_arg10) = m ((c : Thread nD τ).loc main_arg10)
    ∧ W7 m ρ c (Proc.devRef .tc main_arg10) = m ((c : Thread nD τ).loc main_arg10)
    ∧ W8 m ρ c (Proc.devRef .tc main_arg10) = m ((c : Thread nD τ).loc main_arg10)
    ∧ W9 m ρ c (Proc.devRef .tc main_arg10) = m ((c : Thread nD τ).loc main_arg10)
    ∧ W10 m ρ c (Proc.devRef .tc main_arg10) = m ((c : Thread nD τ).loc main_arg10)
    ∧ W11 m ρ c (Proc.devRef .tc main_arg10) = m ((c : Thread nD τ).loc main_arg10) := by
  have h1 : W1 m ρ c (Proc.devRef .tc main_arg10) = m ((c : Thread nD τ).loc main_arg10) := (by host_kept hostOps0)
  have h2 : W2 m ρ c (Proc.devRef .tc main_arg10) = m ((c : Thread nD τ).loc main_arg10) := ((by host_kept hostOps0_1) : W2 m ρ c (Proc.devRef .tc main_arg10) = W1 m ρ c (Proc.devRef .tc main_arg10)).trans h1
  have h3 : W3 m ρ c (Proc.devRef .tc main_arg10) = m ((c : Thread nD τ).loc main_arg10) := ((by host_kept hostOps0_2) : W3 m ρ c (Proc.devRef .tc main_arg10) = W2 m ρ c (Proc.devRef .tc main_arg10)).trans h2
  have h4 : W4 m ρ c (Proc.devRef .tc main_arg10) = m ((c : Thread nD τ).loc main_arg10) := ((W4_of_ne m ρ c main_arg10 (by decide)) : W4 m ρ c (Proc.devRef .tc main_arg10) = W3 m ρ c (Proc.devRef .tc main_arg10)).trans h3
  have h5 : W5 m ρ c (Proc.devRef .tc main_arg10) = m ((c : Thread nD τ).loc main_arg10) := ((by host_kept hostOps1) : W5 m ρ c (Proc.devRef .tc main_arg10) = W4 m ρ c (Proc.devRef .tc main_arg10)).trans h4
  have h6 : W6 m ρ c (Proc.devRef .tc main_arg10) = m ((c : Thread nD τ).loc main_arg10) := ((W6_of_ne m ρ c main_arg10 (by decide)) : W6 m ρ c (Proc.devRef .tc main_arg10) = W5 m ρ c (Proc.devRef .tc main_arg10)).trans h5
  have h7 : W7 m ρ c (Proc.devRef .tc main_arg10) = m ((c : Thread nD τ).loc main_arg10) := ((by host_kept hostOps2) : W7 m ρ c (Proc.devRef .tc main_arg10) = W6 m ρ c (Proc.devRef .tc main_arg10)).trans h6
  have h8 : W8 m ρ c (Proc.devRef .tc main_arg10) = m ((c : Thread nD τ).loc main_arg10) := ((W8_of_ne m ρ c main_arg10 (by decide)) : W8 m ρ c (Proc.devRef .tc main_arg10) = W7 m ρ c (Proc.devRef .tc main_arg10)).trans h7
  have h9 : W9 m ρ c (Proc.devRef .tc main_arg10) = m ((c : Thread nD τ).loc main_arg10) := ((by host_kept hostOps3) : W9 m ρ c (Proc.devRef .tc main_arg10) = W8 m ρ c (Proc.devRef .tc main_arg10)).trans h8
  have h10 : W10 m ρ c (Proc.devRef .tc main_arg10) = m ((c : Thread nD τ).loc main_arg10) := ((W10_of_ne m ρ c main_arg10 (by decide)) : W10 m ρ c (Proc.devRef .tc main_arg10) = W9 m ρ c (Proc.devRef .tc main_arg10)).trans h9
  have h11 : W11 m ρ c (Proc.devRef .tc main_arg10) = m ((c : Thread nD τ).loc main_arg10) := ((by host_kept hostOps4) : W11 m ρ c (Proc.devRef .tc main_arg10) = W10 m ρ c (Proc.devRef .tc main_arg10)).trans h10
  exact ⟨h1, h2, h3, h4, h5, h6, h7, h8, h9, h10, h11⟩

/-- Argument `main_arg11` holds the launch memory's contents at the boundaries up to where it is read. -/
theorem main_arg11_kept :
    W1 m ρ c (Proc.devRef .tc main_arg11) = m ((c : Thread nD τ).loc main_arg11)
    ∧ W2 m ρ c (Proc.devRef .tc main_arg11) = m ((c : Thread nD τ).loc main_arg11)
    ∧ W3 m ρ c (Proc.devRef .tc main_arg11) = m ((c : Thread nD τ).loc main_arg11)
    ∧ W4 m ρ c (Proc.devRef .tc main_arg11) = m ((c : Thread nD τ).loc main_arg11)
    ∧ W5 m ρ c (Proc.devRef .tc main_arg11) = m ((c : Thread nD τ).loc main_arg11)
    ∧ W6 m ρ c (Proc.devRef .tc main_arg11) = m ((c : Thread nD τ).loc main_arg11)
    ∧ W7 m ρ c (Proc.devRef .tc main_arg11) = m ((c : Thread nD τ).loc main_arg11)
    ∧ W8 m ρ c (Proc.devRef .tc main_arg11) = m ((c : Thread nD τ).loc main_arg11)
    ∧ W9 m ρ c (Proc.devRef .tc main_arg11) = m ((c : Thread nD τ).loc main_arg11)
    ∧ W10 m ρ c (Proc.devRef .tc main_arg11) = m ((c : Thread nD τ).loc main_arg11)
    ∧ W11 m ρ c (Proc.devRef .tc main_arg11) = m ((c : Thread nD τ).loc main_arg11)
    ∧ W12 m ρ c (Proc.devRef .tc main_arg11) = m ((c : Thread nD τ).loc main_arg11) := by
  have h1 : W1 m ρ c (Proc.devRef .tc main_arg11) = m ((c : Thread nD τ).loc main_arg11) := (by host_kept hostOps0)
  have h2 : W2 m ρ c (Proc.devRef .tc main_arg11) = m ((c : Thread nD τ).loc main_arg11) := ((by host_kept hostOps0_1) : W2 m ρ c (Proc.devRef .tc main_arg11) = W1 m ρ c (Proc.devRef .tc main_arg11)).trans h1
  have h3 : W3 m ρ c (Proc.devRef .tc main_arg11) = m ((c : Thread nD τ).loc main_arg11) := ((by host_kept hostOps0_2) : W3 m ρ c (Proc.devRef .tc main_arg11) = W2 m ρ c (Proc.devRef .tc main_arg11)).trans h2
  have h4 : W4 m ρ c (Proc.devRef .tc main_arg11) = m ((c : Thread nD τ).loc main_arg11) := ((W4_of_ne m ρ c main_arg11 (by decide)) : W4 m ρ c (Proc.devRef .tc main_arg11) = W3 m ρ c (Proc.devRef .tc main_arg11)).trans h3
  have h5 : W5 m ρ c (Proc.devRef .tc main_arg11) = m ((c : Thread nD τ).loc main_arg11) := ((by host_kept hostOps1) : W5 m ρ c (Proc.devRef .tc main_arg11) = W4 m ρ c (Proc.devRef .tc main_arg11)).trans h4
  have h6 : W6 m ρ c (Proc.devRef .tc main_arg11) = m ((c : Thread nD τ).loc main_arg11) := ((W6_of_ne m ρ c main_arg11 (by decide)) : W6 m ρ c (Proc.devRef .tc main_arg11) = W5 m ρ c (Proc.devRef .tc main_arg11)).trans h5
  have h7 : W7 m ρ c (Proc.devRef .tc main_arg11) = m ((c : Thread nD τ).loc main_arg11) := ((by host_kept hostOps2) : W7 m ρ c (Proc.devRef .tc main_arg11) = W6 m ρ c (Proc.devRef .tc main_arg11)).trans h6
  have h8 : W8 m ρ c (Proc.devRef .tc main_arg11) = m ((c : Thread nD τ).loc main_arg11) := ((W8_of_ne m ρ c main_arg11 (by decide)) : W8 m ρ c (Proc.devRef .tc main_arg11) = W7 m ρ c (Proc.devRef .tc main_arg11)).trans h7
  have h9 : W9 m ρ c (Proc.devRef .tc main_arg11) = m ((c : Thread nD τ).loc main_arg11) := ((by host_kept hostOps3) : W9 m ρ c (Proc.devRef .tc main_arg11) = W8 m ρ c (Proc.devRef .tc main_arg11)).trans h8
  have h10 : W10 m ρ c (Proc.devRef .tc main_arg11) = m ((c : Thread nD τ).loc main_arg11) := ((W10_of_ne m ρ c main_arg11 (by decide)) : W10 m ρ c (Proc.devRef .tc main_arg11) = W9 m ρ c (Proc.devRef .tc main_arg11)).trans h9
  have h11 : W11 m ρ c (Proc.devRef .tc main_arg11) = m ((c : Thread nD τ).loc main_arg11) := ((by host_kept hostOps4) : W11 m ρ c (Proc.devRef .tc main_arg11) = W10 m ρ c (Proc.devRef .tc main_arg11)).trans h10
  have h12 : W12 m ρ c (Proc.devRef .tc main_arg11) = m ((c : Thread nD τ).loc main_arg11) := ((W12_of_ne m ρ c main_arg11 (by decide)) : W12 m ρ c (Proc.devRef .tc main_arg11) = W11 m ρ c (Proc.devRef .tc main_arg11)).trans h11
  exact ⟨h1, h2, h3, h4, h5, h6, h7, h8, h9, h10, h11, h12⟩

end Cert.KernelIdeal.Kept

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.RegionFirst.lean ====
/-
  The value of the first region: the node features times the first weight matrix, rows weighted by the node weights.

  The region walks the 50000 node rows in 25 blocks of 2000.  At each block the body multiplies the block of the
  feature table [2000, 128] by the whole weight matrix [128, 256] — an exact sum of 128 products at every entry, the
  roundings of the operands being the identity on extended reals — and multiplies row `p` of the product by the node's
  weight (a one-column array spread over the 256 columns).  Each block is written back at the rows it was read from and
  the blocks cover all rows, so the output array ends, at (p, q), at
  (∑ j, features (p, j) * matrix (j, q)) * weight (p, 0).
-/
import proofs.«120852_j32744830665494_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«120852_j32744830665494_2_alg».proof.Proof.LibBroadcast
import proofs.«120852_j32744830665494_2_alg».proof.Proof.LibPlainProduct

set_option maxRecDepth 16384

noncomputable section

namespace Cert.KernelIdeal.RegionFirst

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-block access, as a constant function. -/
theorem zero_offsets : (![0, 0] : Fin 2 → Nat) = fun _ => 0 := funext fun a => by fin_cases a <;> rfl

/-! ## The body's arithmetic at an index -/

/-- The body's result at row `p`, column `q` of a block: row `p` of the features against column `q` of the matrix,
    times the row's weight. -/
theorem payload_apply (x0 : Vec Ideal S2000x128 .f32) (x1 : Vec Ideal S128x256 .f32) (x2 : Vec Ideal S2000x1 .f32)
    (p : Fin 2000) (q : Fin 256) :
    k0_pay1 x0 x1 x2 (ix2 p q) = (∑ j : Fin 128, x0 (ix2 p j) * x1 (ix2 j q)) * x2 (ix2 p 0) := by
  unfold k0_pay1
  simp only [shapeCast_self]
  rw [mulf_apply]
  refine congrArg₂ (· * ·) ?_ ?_
  · exact Cert.PlainProduct.matmul_nn_apply dot_S2000x128_S128x256_S2000x256_1_0_0_1_n_n_wf none
      (truncf .bf16 x0 bitsLt_bf16_f32) (truncf .bf16 x1 bitsLt_bf16_f32) p q
  · exact Cert.Layout.broadcastTo_a1_ab_apply x2 _ p q

/-! ## The arrays the region reads, as arrays of extended reals -/

/-- The node features, 50000 rows of 128. -/
abbrev features (c : Dev nD) : S50000x128.Idx → EReal := V c (Pipeline.arrRef spec0 0)

/-- The weight matrix, 128 rows of 256. -/
abbrev matrix (c : Dev nD) : S128x256.Idx → EReal := V c (Pipeline.arrRef spec0 1)

/-- The node weights, one column of 50000. -/
abbrev weight (c : Dev nD) : S50000x1.Idx → EReal := V c (Pipeline.arrRef spec0 2)

/-! ## Where each block sits in its array -/

/-- The block index maps over the 25 grid points: the row-blocked windows (features, weights, output) are at block
    row `t`, block column 0; the matrix is always block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0)

/-- A grid point is below 25. -/
theorem point_lt (t : Fin cfg0.N) : t.val < 25 := by
  have h : cfg0.N = 25 := N_0
  have := t.isLt
  omega

/-- Row `a` of block `t` is row `2000 t + a` of the array. -/
theorem row_lt (t : Fin cfg0.N) (a : Fin 2000) : t.val * 2000 + a.val < 50000 := by
  have := point_lt t
  have := a.isLt
  omega

/-- The features' block at point `t`: rows `2000 t …` of the features. -/
theorem features_block (c : Dev nD) (t : Fin cfg0.N) (a : Fin 2000) (b : Fin 128) :
    (iblk0 V c 0 t : Vec Ideal S2000x128 .f32) (ix2 a b)
      = features V c (ix2 ⟨t.val * 2000 + a.val, row_lt t a⟩ b) := by
  obtain ⟨e0, e1, -⟩ := index_facts t
  show features V c (((cfg0.win 0).blk t).view.emb (ix2 a b)) = _
  refine congrArg (features V c) ?_
  funext ax; apply Fin.ext
  match ax with
  | ⟨0, _⟩ => show win0_0.index t (0 : Fin 2) * 2000 + 1 * a.val = t.val * 2000 + a.val; omega
  | ⟨1, _⟩ => show win0_0.index t (1 : Fin 2) * 128 + 1 * b.val = b.val; omega

/-- The matrix' block at every point is the whole matrix. -/
theorem matrix_block (c : Dev nD) (t : Fin cfg0.N) (a : Fin 128) (b : Fin 256) :
    (iblk0 V c 1 t : Vec Ideal S128x256 .f32) (ix2 a b) = matrix V c (ix2 a b) := by
  obtain ⟨-, -, e0, e1, -⟩ := index_facts t
  show matrix V c (((cfg0.win 1).blk t).view.emb (ix2 a b)) = _
  refine congrArg (matrix V c) ?_
  funext ax; apply Fin.ext
  match ax with
  | ⟨0, _⟩ => show win0_1.index t (0 : Fin 2) * 128 + 1 * a.val = a.val; omega
  | ⟨1, _⟩ => show win0_1.index t (1 : Fin 2) * 256 + 1 * b.val = b.val; omega

/-- The weights' block at point `t`: rows `2000 t …` of the one-column array. -/
theorem weight_block (c : Dev nD) (t : Fin cfg0.N) (a : Fin 2000) (b : Fin 1) :
    (iblk0 V c 2 t : Vec Ideal S2000x1 .f32) (ix2 a b)
      = weight V c (ix2 ⟨t.val * 2000 + a.val, row_lt t a⟩ b) := by
  obtain ⟨-, -, -, -, e0, e1, -⟩ := index_facts t
  show weight V c (((cfg0.win 2).blk t).view.emb (ix2 a b)) = _
  refine congrArg (weight V c) ?_
  funext ax; apply Fin.ext
  match ax with
  | ⟨0, _⟩ => show win0_2.index t (0 : Fin 2) * 2000 + 1 * a.val = t.val * 2000 + a.val; omega
  | ⟨1, _⟩ => show win0_2.index t (1 : Fin 2) * 1 + 1 * b.val = b.val; omega

/-! ## The whole output array -/

/-- What the output array ends holding: entry (p, q) is  (∑ j, features (p, j) * matrix (j, q)) * weight (p, 0). -/
def whole (c : Dev nD) : S50000x256.Idx → EReal := fun i =>
  (∑ j : Fin 128, features V c (ix2 (i 0) j) * matrix V c (ix2 j (i 1))) * weight V c (ix2 (i 0) 0)

/-- What point `t` writes back is block `t` of `whole`. -/
theorem flushed_eq (c : Dev nD) (t : Fin cfg0.N) :
    (dat0 (F := Ideal) V c).flushed 3 t = ((cfg0.win 3).blk t).view.read (Elt Ideal) (whole V c) := by
  show (cfg0.win 3).cut (grid0.coords t) ((dat0 (F := Ideal) V c).after 3 t) = _
  rw [after0_3]
  unfold out0_3
  rw [View.canon_unit_zero zero_offsets]
  simp only [View.ld_unit_zero (S := S2000x128) zero_offsets, View.ld_unit_zero (S := S128x256) zero_offsets,
    View.ld_unit_zero (S := S2000x1) zero_offsets]
  obtain ⟨-, -, -, -, -, -, e0, e1⟩ := index_facts t
  funext j
  obtain ⟨p, q, rfl⟩ : ∃ (p : Fin 2000) (q : Fin 256), j = ix2 p q := ⟨j 0, j 1, eq_ix2 j⟩
  show k0_pay1 (iblk0 V c 0 t) (iblk0 V c 1 t) (iblk0 V c 2 t) (ix2 p q) = whole V c (((cfg0.win 3).blk t).view.emb (ix2 p q))
  have hemb : ((cfg0.win 3).blk t).view.emb (ix2 p q) = (ix2 ⟨t.val * 2000 + p.val, row_lt t p⟩ q : S50000x256.Idx) := by
    funext ax; apply Fin.ext
    match ax with
    | ⟨0, _⟩ => show win0_3.index t (0 : Fin 2) * 2000 + 1 * p.val = t.val * 2000 + p.val; omega
    | ⟨1, _⟩ => show win0_3.index t (1 : Fin 2) * 256 + 1 * q.val = q.val; omega
  rw [hemb, payload_apply, weight_block]
  refine congrArg₂ (· * ·) (Finset.sum_congr rfl fun j _ => ?_) rfl
  rw [features_block, matrix_block]

/-- An index of the array is in point `t`'s block iff each coordinate is in the block's range on its axis. -/
theorem mem_block (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v16).slice (win0_3.rect t)).set ↔ _
  rw [View.set_slice_whole, Rect.mem_set_unit]
  exact Iff.rfl

/-- Every row is in the block of the point `row / 2000`: the 25 blocks of 2000 rows cover the 50000 rows. -/
theorem cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by omega⟩, rfl⟩
  obtain ⟨-, -, -, -, -, -, e0, e1⟩ := index_facts t
  refine ⟨t, flush0_3 t, ?_⟩
  rw [mem_block]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- The output array after the region. -/
theorem final_array (c : Dev nD) : (dat0 (F := Ideal) V c).arrAt 3 cfg0.N = whole V c :=
  (dat0 (F := Ideal) V c).arrAt_eq_of_cover 3 (whole V c) (fun t _ => flushed_eq V c t) cover

/-- THE VALUE OF THE FIRST REGION: the output array at (p, q) is
    (∑ j, features (p, j) * matrix (j, q)) * weight (p, 0). -/
theorem final (c : Dev nD) (p : Fin 50000) (q : Fin 256) :
    ((dat0 (F := Ideal) V c).arrAt 3 cfg0.N : S50000x256.Idx → EReal) (ix2 p q)
      = @HMul.hMul EReal EReal EReal instHMul
          (∑ j : Fin 128, @HMul.hMul EReal EReal EReal instHMul
            ((V c (Pipeline.arrRef spec0 0) : S50000x128.Idx → EReal) (ix2 p j))
            ((V c (Pipeline.arrRef spec0 1) : S128x256.Idx → EReal) (ix2 j q)))
          ((V c (Pipeline.arrRef spec0 2) : S50000x1.Idx → EReal) (ix2 p 0)) := by
  rw [final_array V c]
  rfl

end Cert.KernelIdeal.RegionFirst

end
-- ==== Proof.RegionMiddle1.lean ====
/-
  The value of one fused layer of the graph convolution (the 256 → 256 layer run as region 1), read off the
  idealized kernel's frame at the extended reals.

  The region's 25 grid points each take 2000 rows of the aggregated table, the matching 2000 node weights, the whole
  bias row and the whole weight matrix, and write back 2000 rows of the result.  At row `p`, column `q` the result is

      (∑ j, max (table p j · weight p + bias j) 0 · matrix j q) · weight p.

  The body's arithmetic is read at an index of its block (`pay_apply`); every window's block is the matching part
  of its array (`table_blk`, `bias_blk`, `weight_blk`, `matrix_blk`, `out_emb`); so what each point writes back is
  its block of ONE whole-array function (`flushed_eq`); the 25 blocks cover the array (`cover`); hence the array after
  the region is that function (`final`).
-/
import proofs.«120852_j32744830665494_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«120852_j32744830665494_2_alg».proof.Proof.LibPlainProduct
import proofs.«120852_j32744830665494_2_alg».proof.Proof.LibBroadcast

set_option maxRecDepth 16384

noncomputable section

namespace Cert.KernelIdeal.RegionMiddle1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The body's result at an index of its block -/

/-- The body's result at row `p`, column `q` of its block: the clipped affine image of the table's row `p`,
    multiplied into column `q` of the matrix, scaled by the row's weight. -/
theorem pay_apply (x0 : Vec Ideal S2000x1 .f32) (x1 : Vec Ideal S1x256 .f32) (x2 : Vec Ideal S2000x256 .f32)
    (x3 : Vec Ideal S256x256 .f32) (p : Fin 2000) (q : Fin 256) :
    k1_pay1 x0 x1 x2 x3 (ix2 p q)
      = (∑ j : Fin 256, max (x2 (ix2 p j) * x0 (ix2 p 0) + x1 (ix2 0 j)) 0 * x3 (ix2 j q)) * x0 (ix2 p 0) := by
  unfold k1_pay1
  simp only [shapeCast_self]
  rw [mulf_apply]
  refine congrArg₂ (· * ·) ?_ (Cert.Layout.broadcastTo_a1_ab_apply x0 _ p q)
  refine (Cert.PlainProduct.matmul_nn_apply _ none _ _ p q).trans ?_
  refine Finset.sum_congr rfl fun j _ => ?_
  rw [truncf_apply, truncf_apply, maximumf_apply, addf_apply, mulf_apply, broadcast_apply]
  refine congrArg₂ (· * ·) ?_ rfl
  refine congrArg₂ max ?_ Ideal.ofBits_zero_f32
  exact congrArg₂ (· + ·) (congrArg₂ (· * ·) rfl (Cert.Layout.broadcastTo_a1_ab_apply x0 _ p j))
    (broadcastTo_1b_ab_apply x1 _ p j)

/-! ## The windows' blocks as parts of their arrays -/

theorem zero_offsets : (![0, 0] : Fin 2 → Nat) = fun _ => 0 := funext fun a => by fin_cases a <;> rfl

/-- The windows' block indices at each of the 25 points: the three row-blocked windows are at block `(t, 0)`, the
    bias row and the matrix at block `(0, 0)`. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `a` of block `t` is a row of the 50000: 25 blocks of 2000 rows. -/
theorem row_lt (t : Fin cfg1.N) (a : Fin 2000) : t.val * 2000 + a.val < 50000 := by
  have hN : cfg1.N = 25 := N_1
  have := t.isLt; have := a.isLt; omega

/-- The table window's block at point `t` is rows `2000 t … 2000 t + 1999` of the table. -/
theorem table_blk (c : Dev nD) (t : Fin cfg1.N) (a : Fin 2000) (b : Fin 256) :
    (iblk1 V c 0 t : Vec Ideal S2000x256 .f32) (ix2 a b)
      = (V c (Pipeline.arrRef spec1 0) : S50000x256.Idx → EReal) (ix2 ⟨t.val * 2000 + a.val, row_lt t a⟩ b) := by
  obtain ⟨e0, e1, -⟩ := idx_facts t
  unfold iblk1
  rw [View.read_apply]
  show V c (Pipeline.arrRef spec1 0) (((cfg1.win 0).blk t).view.emb (ix2 a b)) = V c (Pipeline.arrRef spec1 0) _
  congr 1
  funext ax
  apply Fin.ext
  match ax with
  | ⟨0, _⟩ => show win1_0.index t (0 : Fin 2) * 2000 + 1 * a.val = t.val * 2000 + a.val; rw [e0]; omega
  | ⟨1, _⟩ => show win1_0.index t (1 : Fin 2) * 256 + 1 * b.val = b.val; rw [e1]; omega

/-- The bias window's block at every point is the whole bias row. -/
theorem bias_blk (c : Dev nD) (t : Fin cfg1.N) (a : Fin 1) (b : Fin 256) :
    (iblk1 V c 1 t : Vec Ideal S1x256 .f32) (ix2 a b)
      = (V c (Pipeline.arrRef spec1 1) : S1x256.Idx → EReal) (ix2 a b) := by
  obtain ⟨-, -, e0, e1, -⟩ := idx_facts t
  unfold iblk1
  rw [View.read_apply]
  show V c (Pipeline.arrRef spec1 1) (((cfg1.win 1).blk t).view.emb (ix2 a b)) = V c (Pipeline.arrRef spec1 1) _
  congr 1
  funext ax
  apply Fin.ext
  match ax with
  | ⟨0, _⟩ => show win1_1.index t (0 : Fin 2) * 1 + 1 * a.val = a.val; rw [e0]; omega
  | ⟨1, _⟩ => show win1_1.index t (1 : Fin 2) * 256 + 1 * b.val = b.val; rw [e1]; omega

/-- The weights window's block at point `t` is rows `2000 t … 2000 t + 1999` of the weight column. -/
theorem weight_blk (c : Dev nD) (t : Fin cfg1.N) (a : Fin 2000) (b : Fin 1) :
    (iblk1 V c 2 t : Vec Ideal S2000x1 .f32) (ix2 a b)
      = (V c (Pipeline.arrRef spec1 2) : S50000x1.Idx → EReal) (ix2 ⟨t.val * 2000 + a.val, row_lt t a⟩ b) := by
  obtain ⟨-, -, -, -, e0, e1, -⟩ := idx_facts t
  unfold iblk1
  rw [View.read_apply]
  show V c (Pipeline.arrRef spec1 2) (((cfg1.win 2).blk t).view.emb (ix2 a b)) = V c (Pipeline.arrRef spec1 2) _
  congr 1
  funext ax
  apply Fin.ext
  match ax with
  | ⟨0, _⟩ => show win1_2.index t (0 : Fin 2) * 2000 + 1 * a.val = t.val * 2000 + a.val; rw [e0]; omega
  | ⟨1, _⟩ => show win1_2.index t (1 : Fin 2) * 1 + 1 * b.val = b.val; rw [e1]; omega

/-- The matrix window's block at every point is the whole matrix. -/
theorem matrix_blk (c : Dev nD) (t : Fin cfg1.N) (a : Fin 256) (b : Fin 256) :
    (iblk1 V c 3 t : Vec Ideal S256x256 .f32) (ix2 a b)
      = (V c (Pipeline.arrRef spec1 3) : S256x256.Idx → EReal) (ix2 a b) := by
  obtain ⟨-, -, -, -, -, -, e0, e1, -⟩ := idx_facts t
  unfold iblk1
  rw [View.read_apply]
  show V c (Pipeline.arrRef spec1 3) (((cfg1.win 3).blk t).view.emb (ix2 a b)) = V c (Pipeline.arrRef spec1 3) _
  congr 1
  funext ax
  apply Fin.ext
  match ax with
  | ⟨0, _⟩ => show win1_3.index t (0 : Fin 2) * 256 + 1 * a.val = a.val; rw [e0]; omega
  | ⟨1, _⟩ => show win1_3.index t (1 : Fin 2) * 256 + 1 * b.val = b.val; rw [e1]; omega

/-- Entry `(a, b)` of the output window's block at point `t` sits at row `2000 t + a`, column `b` of the result. -/
theorem out_emb (t : Fin cfg1.N) (a : Fin 2000) (b : Fin 256) :
    (((cfg1.win 4).blk t).view.emb (ix2 a b) : S50000x256.Idx) = ix2 ⟨t.val * 2000 + a.val, row_lt t a⟩ b := by
  obtain ⟨-, -, -, -, -, -, -, -, e0, e1⟩ := idx_facts t
  funext ax
  apply Fin.ext
  match ax with
  | ⟨0, _⟩ => show win1_4.index t (0 : Fin 2) * 2000 + 1 * a.val = t.val * 2000 + a.val; rw [e0]; omega
  | ⟨1, _⟩ => show win1_4.index t (1 : Fin 2) * 256 + 1 * b.val = b.val; rw [e1]; omega

/-! ## The result array -/

/-- One layer from its four arrays, at row `p`, column `q`: the table's row `p` weighted by the node's weight, the
    bias added, clipped at zero; multiplied into column `q` of the matrix; weighted by the node's weight again. -/
def layerOf (T : S50000x256.Idx → EReal) (B : S1x256.Idx → EReal) (D : S50000x1.Idx → EReal) (W : S256x256.Idx → EReal)
    (p : Fin 50000) (q : Fin 256) : EReal :=
  (∑ j : Fin 256, max (T (ix2 p j) * D (ix2 p 0) + B (ix2 0 j)) 0 * W (ix2 j q)) * D (ix2 p 0)

theorem layerOf_apply (T : S50000x256.Idx → EReal) (B : S1x256.Idx → EReal) (D : S50000x1.Idx → EReal)
    (W : S256x256.Idx → EReal) (p : Fin 50000) (q : Fin 256) :
    layerOf T B D W p q
      = (∑ j : Fin 256, max (T (ix2 p j) * D (ix2 p 0) + B (ix2 0 j)) 0 * W (ix2 j q)) * D (ix2 p 0) := rfl

/-- The whole result array, from the four arrays as the region finds them. -/
def result (c : Dev nD) : S50000x256.Idx → EReal := fun i =>
  layerOf (V c (Pipeline.arrRef spec1 0)) (V c (Pipeline.arrRef spec1 1)) (V c (Pipeline.arrRef spec1 2))
    (V c (Pipeline.arrRef spec1 3)) (i 0) (i 1)

theorem result_apply (c : Dev nD) (p : Fin 50000) (q : Fin 256) :
    result V c (ix2 p q)
      = layerOf (V c (Pipeline.arrRef spec1 0)) (V c (Pipeline.arrRef spec1 1)) (V c (Pipeline.arrRef spec1 2))
          (V c (Pipeline.arrRef spec1 3)) p q := rfl

/-- What point `t` writes back is block `t` of the result array. -/
theorem flushed_eq (c : Dev nD) (t : Fin cfg1.N) :
    (dat1 V c).flushed 4 t = ((cfg1.win 4).blk t).view.read (Elt Ideal) (result V c) := by
  show (cfg1.win 4).cut (grid1.coords t) ((dat1 V c).after 4 t) = _
  rw [after1_4]
  unfold out1_4
  rw [View.canon_unit_zero zero_offsets]
  simp only [View.ld_unit_zero (S := S2000x1) zero_offsets, View.ld_unit_zero (S := S1x256) zero_offsets,
    View.ld_unit_zero (S := S2000x256) zero_offsets, View.ld_unit_zero (S := S256x256) zero_offsets]
  funext y
  obtain ⟨a, b, rfl⟩ : ∃ (a : Fin 2000) (b : Fin 256), y = ix2 a b := ⟨y 0, y 1, eq_ix2 y⟩
  show k1_pay1 (iblk1 V c 2 t) (iblk1 V c 1 t) (iblk1 V c 0 t) (iblk1 V c 3 t) (ix2 a b)
    = result V c (((cfg1.win 4).blk t).view.emb (ix2 a b))
  rw [out_emb t a b, result_apply, layerOf_apply]
  refine (pay_apply _ _ _ _ a b).trans ?_
  simp only [table_blk, bias_blk, weight_blk, matrix_blk]

/-- An index of the result is in point `t`'s block iff each coordinate is in the block's range on its axis. -/
theorem mem_blk (t : Fin cfg1.N) (i : S50000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v28).slice (win1_4.rect t)).set ↔ _
  rw [View.set_slice_whole, Rect.mem_set_unit]
  exact Iff.rfl

/-- The 25 row blocks cover the result: row `r` is in block `r / 2000`. -/
theorem cover (i : S50000x256.Idx) :
    ∃ t : Fin cfg1.N, (cfg1.win 4).flush t = true ∧ i ∈ ((cfg1.win 4).blk t).view.set := by
  have hN : cfg1.N = 25 := N_1
  have hi0 : (i 0).val < 50000 := idx2_lt0 i
  have hi1 : (i 1).val < 256 := idx2_lt1 i
  have ht : (i 0).val / 2000 < cfg1.N := by rw [hN]; omega
  refine ⟨⟨(i 0).val / 2000, ht⟩, flush1_4 _, ?_⟩
  rw [mem_blk]
  obtain ⟨-, -, -, -, -, -, -, -, e0, e1⟩ := idx_facts ⟨(i 0).val / 2000, ht⟩
  intro a
  match a with
  | ⟨0, _⟩ =>
    show win1_4.index ⟨(i 0).val / 2000, ht⟩ (0 : Fin 2) * 2000 ≤ (i 0).val ∧ (i 0).val < win1_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_4.index ⟨(i 0).val / 2000, ht⟩ (1 : Fin 2) * 256 ≤ (i 1).val ∧ (i 1).val < win1_4.index ⟨(i 0).val / 2000, ht⟩ (1 : Fin 2) * 256 + 256
    rw [e1]; omega

/-- THE RESULT ARRAY after the region, entry by entry: the layer of the four arrays as the region finds them. -/
theorem final (c : Dev nD) (p : Fin 50000) (q : Fin 256) :
    ((dat1 (F := Ideal) V c).arrAt 4 cfg1.N : S50000x256.Idx → EReal) (ix2 p q)
      = layerOf (V c (Pipeline.arrRef spec1 0)) (V c (Pipeline.arrRef spec1 1)) (V c (Pipeline.arrRef spec1 2))
          (V c (Pipeline.arrRef spec1 3)) p q := by
  have h := (dat1 (F := Ideal) V c).arrAt_eq_of_cover 4 (result V c) (fun t _ => flushed_eq V c t) cover
  exact (congrFun h (ix2 p q)).trans (result_apply V c p q)

end Cert.KernelIdeal.RegionMiddle1

end
-- ==== Proof.RegionMiddle2.lean ====
/-
  The value of one fused layer of the graph convolution (the 256 → 256 layer run as region 2), read off the
  idealized kernel's frame at the extended reals.

  The region's 25 grid points each take 2000 rows of the aggregated table, the matching 2000 node weights, the whole
  bias row and the whole weight matrix, and write back 2000 rows of the result.  At row `p`, column `q` the result is

      (∑ j, max (table p j · weight p + bias j) 0 · matrix j q) · weight p.

  The body's arithmetic is read at an index of its block (`pay_apply`); every window's block is the matching part
  of its array (`table_blk`, `bias_blk`, `weight_blk`, `matrix_blk`, `out_emb`); so what each point writes back is
  its block of ONE whole-array function (`flushed_eq`); the 25 blocks cover the array (`cover`); hence the array after
  the region is that function (`final`).
-/
import proofs.«120852_j32744830665494_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«120852_j32744830665494_2_alg».proof.Proof.LibPlainProduct
import proofs.«120852_j32744830665494_2_alg».proof.Proof.LibBroadcast

set_option maxRecDepth 16384

noncomputable section

namespace Cert.KernelIdeal.RegionMiddle2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The body's result at an index of its block -/

/-- The body's result at row `p`, column `q` of its block: the clipped affine image of the table's row `p`,
    multiplied into column `q` of the matrix, scaled by the row's weight. -/
theorem pay_apply (x0 : Vec Ideal S2000x1 .f32) (x1 : Vec Ideal S1x256 .f32) (x2 : Vec Ideal S2000x256 .f32)
    (x3 : Vec Ideal S256x256 .f32) (p : Fin 2000) (q : Fin 256) :
    k2_pay1 x0 x1 x2 x3 (ix2 p q)
      = (∑ j : Fin 256, max (x2 (ix2 p j) * x0 (ix2 p 0) + x1 (ix2 0 j)) 0 * x3 (ix2 j q)) * x0 (ix2 p 0) := by
  unfold k2_pay1
  simp only [shapeCast_self]
  rw [mulf_apply]
  refine congrArg₂ (· * ·) ?_ (Cert.Layout.broadcastTo_a1_ab_apply x0 _ p q)
  refine (Cert.PlainProduct.matmul_nn_apply _ none _ _ p q).trans ?_
  refine Finset.sum_congr rfl fun j _ => ?_
  rw [truncf_apply, truncf_apply, maximumf_apply, addf_apply, mulf_apply, broadcast_apply]
  refine congrArg₂ (· * ·) ?_ rfl
  refine congrArg₂ max ?_ Ideal.ofBits_zero_f32
  exact congrArg₂ (· + ·) (congrArg₂ (· * ·) rfl (Cert.Layout.broadcastTo_a1_ab_apply x0 _ p j))
    (broadcastTo_1b_ab_apply x1 _ p j)

/-! ## The windows' blocks as parts of their arrays -/

theorem zero_offsets : (![0, 0] : Fin 2 → Nat) = fun _ => 0 := funext fun a => by fin_cases a <;> rfl

/-- The windows' block indices at each of the 25 points: the three row-blocked windows are at block `(t, 0)`, the
    bias row and the matrix at block `(0, 0)`. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `a` of block `t` is a row of the 50000: 25 blocks of 2000 rows. -/
theorem row_lt (t : Fin cfg2.N) (a : Fin 2000) : t.val * 2000 + a.val < 50000 := by
  have hN : cfg2.N = 25 := N_2
  have := t.isLt; have := a.isLt; omega

/-- The table window's block at point `t` is rows `2000 t … 2000 t + 1999` of the table. -/
theorem table_blk (c : Dev nD) (t : Fin cfg2.N) (a : Fin 2000) (b : Fin 256) :
    (iblk2 V c 0 t : Vec Ideal S2000x256 .f32) (ix2 a b)
      = (V c (Pipeline.arrRef spec2 0) : S50000x256.Idx → EReal) (ix2 ⟨t.val * 2000 + a.val, row_lt t a⟩ b) := by
  obtain ⟨e0, e1, -⟩ := idx_facts t
  unfold iblk2
  rw [View.read_apply]
  show V c (Pipeline.arrRef spec2 0) (((cfg2.win 0).blk t).view.emb (ix2 a b)) = V c (Pipeline.arrRef spec2 0) _
  congr 1
  funext ax
  apply Fin.ext
  match ax with
  | ⟨0, _⟩ => show win2_0.index t (0 : Fin 2) * 2000 + 1 * a.val = t.val * 2000 + a.val; rw [e0]; omega
  | ⟨1, _⟩ => show win2_0.index t (1 : Fin 2) * 256 + 1 * b.val = b.val; rw [e1]; omega

/-- The bias window's block at every point is the whole bias row. -/
theorem bias_blk (c : Dev nD) (t : Fin cfg2.N) (a : Fin 1) (b : Fin 256) :
    (iblk2 V c 1 t : Vec Ideal S1x256 .f32) (ix2 a b)
      = (V c (Pipeline.arrRef spec2 1) : S1x256.Idx → EReal) (ix2 a b) := by
  obtain ⟨-, -, e0, e1, -⟩ := idx_facts t
  unfold iblk2
  rw [View.read_apply]
  show V c (Pipeline.arrRef spec2 1) (((cfg2.win 1).blk t).view.emb (ix2 a b)) = V c (Pipeline.arrRef spec2 1) _
  congr 1
  funext ax
  apply Fin.ext
  match ax with
  | ⟨0, _⟩ => show win2_1.index t (0 : Fin 2) * 1 + 1 * a.val = a.val; rw [e0]; omega
  | ⟨1, _⟩ => show win2_1.index t (1 : Fin 2) * 256 + 1 * b.val = b.val; rw [e1]; omega

/-- The weights window's block at point `t` is rows `2000 t … 2000 t + 1999` of the weight column. -/
theorem weight_blk (c : Dev nD) (t : Fin cfg2.N) (a : Fin 2000) (b : Fin 1) :
    (iblk2 V c 2 t : Vec Ideal S2000x1 .f32) (ix2 a b)
      = (V c (Pipeline.arrRef spec2 2) : S50000x1.Idx → EReal) (ix2 ⟨t.val * 2000 + a.val, row_lt t a⟩ b) := by
  obtain ⟨-, -, -, -, e0, e1, -⟩ := idx_facts t
  unfold iblk2
  rw [View.read_apply]
  show V c (Pipeline.arrRef spec2 2) (((cfg2.win 2).blk t).view.emb (ix2 a b)) = V c (Pipeline.arrRef spec2 2) _
  congr 1
  funext ax
  apply Fin.ext
  match ax with
  | ⟨0, _⟩ => show win2_2.index t (0 : Fin 2) * 2000 + 1 * a.val = t.val * 2000 + a.val; rw [e0]; omega
  | ⟨1, _⟩ => show win2_2.index t (1 : Fin 2) * 1 + 1 * b.val = b.val; rw [e1]; omega

/-- The matrix window's block at every point is the whole matrix. -/
theorem matrix_blk (c : Dev nD) (t : Fin cfg2.N) (a : Fin 256) (b : Fin 256) :
    (iblk2 V c 3 t : Vec Ideal S256x256 .f32) (ix2 a b)
      = (V c (Pipeline.arrRef spec2 3) : S256x256.Idx → EReal) (ix2 a b) := by
  obtain ⟨-, -, -, -, -, -, e0, e1, -⟩ := idx_facts t
  unfold iblk2
  rw [View.read_apply]
  show V c (Pipeline.arrRef spec2 3) (((cfg2.win 3).blk t).view.emb (ix2 a b)) = V c (Pipeline.arrRef spec2 3) _
  congr 1
  funext ax
  apply Fin.ext
  match ax with
  | ⟨0, _⟩ => show win2_3.index t (0 : Fin 2) * 256 + 1 * a.val = a.val; rw [e0]; omega
  | ⟨1, _⟩ => show win2_3.index t (1 : Fin 2) * 256 + 1 * b.val = b.val; rw [e1]; omega

/-- Entry `(a, b)` of the output window's block at point `t` sits at row `2000 t + a`, column `b` of the result. -/
theorem out_emb (t : Fin cfg2.N) (a : Fin 2000) (b : Fin 256) :
    (((cfg2.win 4).blk t).view.emb (ix2 a b) : S50000x256.Idx) = ix2 ⟨t.val * 2000 + a.val, row_lt t a⟩ b := by
  obtain ⟨-, -, -, -, -, -, -, -, e0, e1⟩ := idx_facts t
  funext ax
  apply Fin.ext
  match ax with
  | ⟨0, _⟩ => show win2_4.index t (0 : Fin 2) * 2000 + 1 * a.val = t.val * 2000 + a.val; rw [e0]; omega
  | ⟨1, _⟩ => show win2_4.index t (1 : Fin 2) * 256 + 1 * b.val = b.val; rw [e1]; omega

/-! ## The result array -/

/-- One layer from its four arrays, at row `p`, column `q`: the table's row `p` weighted by the node's weight, the
    bias added, clipped at zero; multiplied into column `q` of the matrix; weighted by the node's weight again. -/
def layerOf (T : S50000x256.Idx → EReal) (B : S1x256.Idx → EReal) (D : S50000x1.Idx → EReal) (W : S256x256.Idx → EReal)
    (p : Fin 50000) (q : Fin 256) : EReal :=
  (∑ j : Fin 256, max (T (ix2 p j) * D (ix2 p 0) + B (ix2 0 j)) 0 * W (ix2 j q)) * D (ix2 p 0)

theorem layerOf_apply (T : S50000x256.Idx → EReal) (B : S1x256.Idx → EReal) (D : S50000x1.Idx → EReal)
    (W : S256x256.Idx → EReal) (p : Fin 50000) (q : Fin 256) :
    layerOf T B D W p q
      = (∑ j : Fin 256, max (T (ix2 p j) * D (ix2 p 0) + B (ix2 0 j)) 0 * W (ix2 j q)) * D (ix2 p 0) := rfl

/-- The whole result array, from the four arrays as the region finds them. -/
def result (c : Dev nD) : S50000x256.Idx → EReal := fun i =>
  layerOf (V c (Pipeline.arrRef spec2 0)) (V c (Pipeline.arrRef spec2 1)) (V c (Pipeline.arrRef spec2 2))
    (V c (Pipeline.arrRef spec2 3)) (i 0) (i 1)

theorem result_apply (c : Dev nD) (p : Fin 50000) (q : Fin 256) :
    result V c (ix2 p q)
      = layerOf (V c (Pipeline.arrRef spec2 0)) (V c (Pipeline.arrRef spec2 1)) (V c (Pipeline.arrRef spec2 2))
          (V c (Pipeline.arrRef spec2 3)) p q := rfl

/-- What point `t` writes back is block `t` of the result array. -/
theorem flushed_eq (c : Dev nD) (t : Fin cfg2.N) :
    (dat2 V c).flushed 4 t = ((cfg2.win 4).blk t).view.read (Elt Ideal) (result V c) := by
  show (cfg2.win 4).cut (grid2.coords t) ((dat2 V c).after 4 t) = _
  rw [after2_4]
  unfold out2_4
  rw [View.canon_unit_zero zero_offsets]
  simp only [View.ld_unit_zero (S := S2000x1) zero_offsets, View.ld_unit_zero (S := S1x256) zero_offsets,
    View.ld_unit_zero (S := S2000x256) zero_offsets, View.ld_unit_zero (S := S256x256) zero_offsets]
  funext y
  obtain ⟨a, b, rfl⟩ : ∃ (a : Fin 2000) (b : Fin 256), y = ix2 a b := ⟨y 0, y 1, eq_ix2 y⟩
  show k2_pay1 (iblk2 V c 2 t) (iblk2 V c 1 t) (iblk2 V c 0 t) (iblk2 V c 3 t) (ix2 a b)
    = result V c (((cfg2.win 4).blk t).view.emb (ix2 a b))
  rw [out_emb t a b, result_apply, layerOf_apply]
  refine (pay_apply _ _ _ _ a b).trans ?_
  simp only [table_blk, bias_blk, weight_blk, matrix_blk]

/-- An index of the result is in point `t`'s block iff each coordinate is in the block's range on its axis. -/
theorem mem_blk (t : Fin cfg2.N) (i : S50000x256.Idx) :
    i ∈ ((cfg2.win 4).blk t).view.set ↔ ∀ a : Fin 2, win2_4.index t a * S2000x256.size a ≤ (i a).val ∧ (i a).val < win2_4.index t a * S2000x256.size a + S2000x256.size a := by
  show i ∈ ((View.whole main_v40).slice (win2_4.rect t)).set ↔ _
  rw [View.set_slice_whole, Rect.mem_set_unit]
  exact Iff.rfl

/-- The 25 row blocks cover the result: row `r` is in block `r / 2000`. -/
theorem cover (i : S50000x256.Idx) :
    ∃ t : Fin cfg2.N, (cfg2.win 4).flush t = true ∧ i ∈ ((cfg2.win 4).blk t).view.set := by
  have hN : cfg2.N = 25 := N_2
  have hi0 : (i 0).val < 50000 := idx2_lt0 i
  have hi1 : (i 1).val < 256 := idx2_lt1 i
  have ht : (i 0).val / 2000 < cfg2.N := by rw [hN]; omega
  refine ⟨⟨(i 0).val / 2000, ht⟩, flush2_4 _, ?_⟩
  rw [mem_blk]
  obtain ⟨-, -, -, -, -, -, -, -, e0, e1⟩ := idx_facts ⟨(i 0).val / 2000, ht⟩
  intro a
  match a with
  | ⟨0, _⟩ =>
    show win2_4.index ⟨(i 0).val / 2000, ht⟩ (0 : Fin 2) * 2000 ≤ (i 0).val ∧ (i 0).val < win2_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_4.index ⟨(i 0).val / 2000, ht⟩ (1 : Fin 2) * 256 ≤ (i 1).val ∧ (i 1).val < win2_4.index ⟨(i 0).val / 2000, ht⟩ (1 : Fin 2) * 256 + 256
    rw [e1]; omega

/-- THE RESULT ARRAY after the region, entry by entry: the layer of the four arrays as the region finds them. -/
theorem final (c : Dev nD) (p : Fin 50000) (q : Fin 256) :
    ((dat2 (F := Ideal) V c).arrAt 4 cfg2.N : S50000x256.Idx → EReal) (ix2 p q)
      = layerOf (V c (Pipeline.arrRef spec2 0)) (V c (Pipeline.arrRef spec2 1)) (V c (Pipeline.arrRef spec2 2))
          (V c (Pipeline.arrRef spec2 3)) p q := by
  have h := (dat2 (F := Ideal) V c).arrAt_eq_of_cover 4 (result V c) (fun t _ => flushed_eq V c t) cover
  exact (congrFun h (ix2 p q)).trans (result_apply V c p q)

end Cert.KernelIdeal.RegionMiddle2

end
-- ==== Proof.RegionMiddle3.lean ====
/-
  The value of one fused layer of the graph convolution (the 256 → 256 layer run as region 3), read off the
  idealized kernel's frame at the extended reals.

  The region's 25 grid points each take 2000 rows of the aggregated table, the matching 2000 node weights, the whole
  bias row and the whole weight matrix, and write back 2000 rows of the result.  At row `p`, column `q` the result is

      (∑ j, max (table p j · weight p + bias j) 0 · matrix j q) · weight p.

  The body's arithmetic is read at an index of its block (`pay_apply`); every window's block is the matching part
  of its array (`table_blk`, `bias_blk`, `weight_blk`, `matrix_blk`, `out_emb`); so what each point writes back is
  its block of ONE whole-array function (`flushed_eq`); the 25 blocks cover the array (`cover`); hence the array after
  the region is that function (`final`).
-/
import proofs.«120852_j32744830665494_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«120852_j32744830665494_2_alg».proof.Proof.LibPlainProduct
import proofs.«120852_j32744830665494_2_alg».proof.Proof.LibBroadcast

set_option maxRecDepth 16384

noncomputable section

namespace Cert.KernelIdeal.RegionMiddle3

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The body's result at an index of its block -/

/-- The body's result at row `p`, column `q` of its block: the clipped affine image of the table's row `p`,
    multiplied into column `q` of the matrix, scaled by the row's weight. -/
theorem pay_apply (x0 : Vec Ideal S2000x1 .f32) (x1 : Vec Ideal S1x256 .f32) (x2 : Vec Ideal S2000x256 .f32)
    (x3 : Vec Ideal S256x256 .f32) (p : Fin 2000) (q : Fin 256) :
    k3_pay1 x0 x1 x2 x3 (ix2 p q)
      = (∑ j : Fin 256, max (x2 (ix2 p j) * x0 (ix2 p 0) + x1 (ix2 0 j)) 0 * x3 (ix2 j q)) * x0 (ix2 p 0) := by
  unfold k3_pay1
  simp only [shapeCast_self]
  rw [mulf_apply]
  refine congrArg₂ (· * ·) ?_ (Cert.Layout.broadcastTo_a1_ab_apply x0 _ p q)
  refine (Cert.PlainProduct.matmul_nn_apply _ none _ _ p q).trans ?_
  refine Finset.sum_congr rfl fun j _ => ?_
  rw [truncf_apply, truncf_apply, maximumf_apply, addf_apply, mulf_apply, broadcast_apply]
  refine congrArg₂ (· * ·) ?_ rfl
  refine congrArg₂ max ?_ Ideal.ofBits_zero_f32
  exact congrArg₂ (· + ·) (congrArg₂ (· * ·) rfl (Cert.Layout.broadcastTo_a1_ab_apply x0 _ p j))
    (broadcastTo_1b_ab_apply x1 _ p j)

/-! ## The windows' blocks as parts of their arrays -/

theorem zero_offsets : (![0, 0] : Fin 2 → Nat) = fun _ => 0 := funext fun a => by fin_cases a <;> rfl

/-- The windows' block indices at each of the 25 points: the three row-blocked windows are at block `(t, 0)`, the
    bias row and the matrix at block `(0, 0)`. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row `a` of block `t` is a row of the 50000: 25 blocks of 2000 rows. -/
theorem row_lt (t : Fin cfg3.N) (a : Fin 2000) : t.val * 2000 + a.val < 50000 := by
  have hN : cfg3.N = 25 := N_3
  have := t.isLt; have := a.isLt; omega

/-- The table window's block at point `t` is rows `2000 t … 2000 t + 1999` of the table. -/
theorem table_blk (c : Dev nD) (t : Fin cfg3.N) (a : Fin 2000) (b : Fin 256) :
    (iblk3 V c 0 t : Vec Ideal S2000x256 .f32) (ix2 a b)
      = (V c (Pipeline.arrRef spec3 0) : S50000x256.Idx → EReal) (ix2 ⟨t.val * 2000 + a.val, row_lt t a⟩ b) := by
  obtain ⟨e0, e1, -⟩ := idx_facts t
  unfold iblk3
  rw [View.read_apply]
  show V c (Pipeline.arrRef spec3 0) (((cfg3.win 0).blk t).view.emb (ix2 a b)) = V c (Pipeline.arrRef spec3 0) _
  congr 1
  funext ax
  apply Fin.ext
  match ax with
  | ⟨0, _⟩ => show win3_0.index t (0 : Fin 2) * 2000 + 1 * a.val = t.val * 2000 + a.val; rw [e0]; omega
  | ⟨1, _⟩ => show win3_0.index t (1 : Fin 2) * 256 + 1 * b.val = b.val; rw [e1]; omega

/-- The bias window's block at every point is the whole bias row. -/
theorem bias_blk (c : Dev nD) (t : Fin cfg3.N) (a : Fin 1) (b : Fin 256) :
    (iblk3 V c 1 t : Vec Ideal S1x256 .f32) (ix2 a b)
      = (V c (Pipeline.arrRef spec3 1) : S1x256.Idx → EReal) (ix2 a b) := by
  obtain ⟨-, -, e0, e1, -⟩ := idx_facts t
  unfold iblk3
  rw [View.read_apply]
  show V c (Pipeline.arrRef spec3 1) (((cfg3.win 1).blk t).view.emb (ix2 a b)) = V c (Pipeline.arrRef spec3 1) _
  congr 1
  funext ax
  apply Fin.ext
  match ax with
  | ⟨0, _⟩ => show win3_1.index t (0 : Fin 2) * 1 + 1 * a.val = a.val; rw [e0]; omega
  | ⟨1, _⟩ => show win3_1.index t (1 : Fin 2) * 256 + 1 * b.val = b.val; rw [e1]; omega

/-- The weights window's block at point `t` is rows `2000 t … 2000 t + 1999` of the weight column. -/
theorem weight_blk (c : Dev nD) (t : Fin cfg3.N) (a : Fin 2000) (b : Fin 1) :
    (iblk3 V c 2 t : Vec Ideal S2000x1 .f32) (ix2 a b)
      = (V c (Pipeline.arrRef spec3 2) : S50000x1.Idx → EReal) (ix2 ⟨t.val * 2000 + a.val, row_lt t a⟩ b) := by
  obtain ⟨-, -, -, -, e0, e1, -⟩ := idx_facts t
  unfold iblk3
  rw [View.read_apply]
  show V c (Pipeline.arrRef spec3 2) (((cfg3.win 2).blk t).view.emb (ix2 a b)) = V c (Pipeline.arrRef spec3 2) _
  congr 1
  funext ax
  apply Fin.ext
  match ax with
  | ⟨0, _⟩ => show win3_2.index t (0 : Fin 2) * 2000 + 1 * a.val = t.val * 2000 + a.val; rw [e0]; omega
  | ⟨1, _⟩ => show win3_2.index t (1 : Fin 2) * 1 + 1 * b.val = b.val; rw [e1]; omega

/-- The matrix window's block at every point is the whole matrix. -/
theorem matrix_blk (c : Dev nD) (t : Fin cfg3.N) (a : Fin 256) (b : Fin 256) :
    (iblk3 V c 3 t : Vec Ideal S256x256 .f32) (ix2 a b)
      = (V c (Pipeline.arrRef spec3 3) : S256x256.Idx → EReal) (ix2 a b) := by
  obtain ⟨-, -, -, -, -, -, e0, e1, -⟩ := idx_facts t
  unfold iblk3
  rw [View.read_apply]
  show V c (Pipeline.arrRef spec3 3) (((cfg3.win 3).blk t).view.emb (ix2 a b)) = V c (Pipeline.arrRef spec3 3) _
  congr 1
  funext ax
  apply Fin.ext
  match ax with
  | ⟨0, _⟩ => show win3_3.index t (0 : Fin 2) * 256 + 1 * a.val = a.val; rw [e0]; omega
  | ⟨1, _⟩ => show win3_3.index t (1 : Fin 2) * 256 + 1 * b.val = b.val; rw [e1]; omega

/-- Entry `(a, b)` of the output window's block at point `t` sits at row `2000 t + a`, column `b` of the result. -/
theorem out_emb (t : Fin cfg3.N) (a : Fin 2000) (b : Fin 256) :
    (((cfg3.win 4).blk t).view.emb (ix2 a b) : S50000x256.Idx) = ix2 ⟨t.val * 2000 + a.val, row_lt t a⟩ b := by
  obtain ⟨-, -, -, -, -, -, -, -, e0, e1⟩ := idx_facts t
  funext ax
  apply Fin.ext
  match ax with
  | ⟨0, _⟩ => show win3_4.index t (0 : Fin 2) * 2000 + 1 * a.val = t.val * 2000 + a.val; rw [e0]; omega
  | ⟨1, _⟩ => show win3_4.index t (1 : Fin 2) * 256 + 1 * b.val = b.val; rw [e1]; omega

/-! ## The result array -/

/-- One layer from its four arrays, at row `p`, column `q`: the table's row `p` weighted by the node's weight, the
    bias added, clipped at zero; multiplied into column `q` of the matrix; weighted by the node's weight again. -/
def layerOf (T : S50000x256.Idx → EReal) (B : S1x256.Idx → EReal) (D : S50000x1.Idx → EReal) (W : S256x256.Idx → EReal)
    (p : Fin 50000) (q : Fin 256) : EReal :=
  (∑ j : Fin 256, max (T (ix2 p j) * D (ix2 p 0) + B (ix2 0 j)) 0 * W (ix2 j q)) * D (ix2 p 0)

theorem layerOf_apply (T : S50000x256.Idx → EReal) (B : S1x256.Idx → EReal) (D : S50000x1.Idx → EReal)
    (W : S256x256.Idx → EReal) (p : Fin 50000) (q : Fin 256) :
    layerOf T B D W p q
      = (∑ j : Fin 256, max (T (ix2 p j) * D (ix2 p 0) + B (ix2 0 j)) 0 * W (ix2 j q)) * D (ix2 p 0) := rfl

/-- The whole result array, from the four arrays as the region finds them. -/
def result (c : Dev nD) : S50000x256.Idx → EReal := fun i =>
  layerOf (V c (Pipeline.arrRef spec3 0)) (V c (Pipeline.arrRef spec3 1)) (V c (Pipeline.arrRef spec3 2))
    (V c (Pipeline.arrRef spec3 3)) (i 0) (i 1)

theorem result_apply (c : Dev nD) (p : Fin 50000) (q : Fin 256) :
    result V c (ix2 p q)
      = layerOf (V c (Pipeline.arrRef spec3 0)) (V c (Pipeline.arrRef spec3 1)) (V c (Pipeline.arrRef spec3 2))
          (V c (Pipeline.arrRef spec3 3)) p q := rfl

/-- What point `t` writes back is block `t` of the result array. -/
theorem flushed_eq (c : Dev nD) (t : Fin cfg3.N) :
    (dat3 V c).flushed 4 t = ((cfg3.win 4).blk t).view.read (Elt Ideal) (result V c) := by
  show (cfg3.win 4).cut (grid3.coords t) ((dat3 V c).after 4 t) = _
  rw [after3_4]
  unfold out3_4
  rw [View.canon_unit_zero zero_offsets]
  simp only [View.ld_unit_zero (S := S2000x1) zero_offsets, View.ld_unit_zero (S := S1x256) zero_offsets,
    View.ld_unit_zero (S := S2000x256) zero_offsets, View.ld_unit_zero (S := S256x256) zero_offsets]
  funext y
  obtain ⟨a, b, rfl⟩ : ∃ (a : Fin 2000) (b : Fin 256), y = ix2 a b := ⟨y 0, y 1, eq_ix2 y⟩
  show k3_pay1 (iblk3 V c 2 t) (iblk3 V c 1 t) (iblk3 V c 0 t) (iblk3 V c 3 t) (ix2 a b)
    = result V c (((cfg3.win 4).blk t).view.emb (ix2 a b))
  rw [out_emb t a b, result_apply, layerOf_apply]
  refine (pay_apply _ _ _ _ a b).trans ?_
  simp only [table_blk, bias_blk, weight_blk, matrix_blk]

/-- An index of the result is in point `t`'s block iff each coordinate is in the block's range on its axis. -/
theorem mem_blk (t : Fin cfg3.N) (i : S50000x256.Idx) :
    i ∈ ((cfg3.win 4).blk t).view.set ↔ ∀ a : Fin 2, win3_4.index t a * S2000x256.size a ≤ (i a).val ∧ (i a).val < win3_4.index t a * S2000x256.size a + S2000x256.size a := by
  show i ∈ ((View.whole main_v52).slice (win3_4.rect t)).set ↔ _
  rw [View.set_slice_whole, Rect.mem_set_unit]
  exact Iff.rfl

/-- The 25 row blocks cover the result: row `r` is in block `r / 2000`. -/
theorem cover (i : S50000x256.Idx) :
    ∃ t : Fin cfg3.N, (cfg3.win 4).flush t = true ∧ i ∈ ((cfg3.win 4).blk t).view.set := by
  have hN : cfg3.N = 25 := N_3
  have hi0 : (i 0).val < 50000 := idx2_lt0 i
  have hi1 : (i 1).val < 256 := idx2_lt1 i
  have ht : (i 0).val / 2000 < cfg3.N := by rw [hN]; omega
  refine ⟨⟨(i 0).val / 2000, ht⟩, flush3_4 _, ?_⟩
  rw [mem_blk]
  obtain ⟨-, -, -, -, -, -, -, -, e0, e1⟩ := idx_facts ⟨(i 0).val / 2000, ht⟩
  intro a
  match a with
  | ⟨0, _⟩ =>
    show win3_4.index ⟨(i 0).val / 2000, ht⟩ (0 : Fin 2) * 2000 ≤ (i 0).val ∧ (i 0).val < win3_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_4.index ⟨(i 0).val / 2000, ht⟩ (1 : Fin 2) * 256 ≤ (i 1).val ∧ (i 1).val < win3_4.index ⟨(i 0).val / 2000, ht⟩ (1 : Fin 2) * 256 + 256
    rw [e1]; omega

/-- THE RESULT ARRAY after the region, entry by entry: the layer of the four arrays as the region finds them. -/
theorem final (c : Dev nD) (p : Fin 50000) (q : Fin 256) :
    ((dat3 (F := Ideal) V c).arrAt 4 cfg3.N : S50000x256.Idx → EReal) (ix2 p q)
      = layerOf (V c (Pipeline.arrRef spec3 0)) (V c (Pipeline.arrRef spec3 1)) (V c (Pipeline.arrRef spec3 2))
          (V c (Pipeline.arrRef spec3 3)) p q := by
  have h := (dat3 (F := Ideal) V c).arrAt_eq_of_cover 4 (result V c) (fun t _ => flushed_eq V c t) cover
  exact (congrFun h (ix2 p q)).trans (result_apply V c p q)

end Cert.KernelIdeal.RegionMiddle3

end
-- ==== Proof.RegionMiddle4.lean ====
/-
  The value of one fused layer of the graph convolution (the 256 → 64 layer run as region 4), read off the
  idealized kernel's frame at the extended reals.

  The region's 25 grid points each take 2000 rows of the aggregated table, the matching 2000 node weights, the whole
  bias row and the whole weight matrix, and write back 2000 rows of the result.  At row `p`, column `q` the result is

      (∑ j, max (table p j · weight p + bias j) 0 · matrix j q) · weight p.

  The body's arithmetic is read at an index of its block (`pay_apply`); every window's block is the matching part
  of its array (`table_blk`, `bias_blk`, `weight_blk`, `matrix_blk`, `out_emb`); so what each point writes back is
  its block of ONE whole-array function (`flushed_eq`); the 25 blocks cover the array (`cover`); hence the array after
  the region is that function (`final`).
-/
import proofs.«120852_j32744830665494_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«120852_j32744830665494_2_alg».proof.Proof.LibPlainProduct
import proofs.«120852_j32744830665494_2_alg».proof.Proof.LibBroadcast

set_option maxRecDepth 16384

noncomputable section

namespace Cert.KernelIdeal.RegionMiddle4

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The body's result at an index of its block -/

/-- The body's result at row `p`, column `q` of its block: the clipped affine image of the table's row `p`,
    multiplied into column `q` of the matrix, scaled by the row's weight. -/
theorem pay_apply (x0 : Vec Ideal S2000x1 .f32) (x1 : Vec Ideal S1x256 .f32) (x2 : Vec Ideal S2000x256 .f32)
    (x3 : Vec Ideal S256x64 .f32) (p : Fin 2000) (q : Fin 64) :
    k4_pay1 x0 x1 x2 x3 (ix2 p q)
      = (∑ j : Fin 256, max (x2 (ix2 p j) * x0 (ix2 p 0) + x1 (ix2 0 j)) 0 * x3 (ix2 j q)) * x0 (ix2 p 0) := by
  unfold k4_pay1
  simp only [shapeCast_self]
  rw [mulf_apply]
  refine congrArg₂ (· * ·) ?_ (Cert.Layout.broadcastTo_a1_ab_apply x0 _ p q)
  refine (Cert.PlainProduct.matmul_nn_apply _ none _ _ p q).trans ?_
  refine Finset.sum_congr rfl fun j _ => ?_
  rw [truncf_apply, truncf_apply, maximumf_apply, addf_apply, mulf_apply, broadcast_apply]
  refine congrArg₂ (· * ·) ?_ rfl
  refine congrArg₂ max ?_ Ideal.ofBits_zero_f32
  exact congrArg₂ (· + ·) (congrArg₂ (· * ·) rfl (Cert.Layout.broadcastTo_a1_ab_apply x0 _ p j))
    (broadcastTo_1b_ab_apply x1 _ p j)

/-! ## The windows' blocks as parts of their arrays -/

theorem zero_offsets : (![0, 0] : Fin 2 → Nat) = fun _ => 0 := funext fun a => by fin_cases a <;> rfl

/-- The windows' block indices at each of the 25 points: the three row-blocked windows are at block `(t, 0)`, the
    bias row and the matrix at block `(0, 0)`. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Row `a` of block `t` is a row of the 50000: 25 blocks of 2000 rows. -/
theorem row_lt (t : Fin cfg4.N) (a : Fin 2000) : t.val * 2000 + a.val < 50000 := by
  have hN : cfg4.N = 25 := N_4
  have := t.isLt; have := a.isLt; omega

/-- The table window's block at point `t` is rows `2000 t … 2000 t + 1999` of the table. -/
theorem table_blk (c : Dev nD) (t : Fin cfg4.N) (a : Fin 2000) (b : Fin 256) :
    (iblk4 V c 0 t : Vec Ideal S2000x256 .f32) (ix2 a b)
      = (V c (Pipeline.arrRef spec4 0) : S50000x256.Idx → EReal) (ix2 ⟨t.val * 2000 + a.val, row_lt t a⟩ b) := by
  obtain ⟨e0, e1, -⟩ := idx_facts t
  unfold iblk4
  rw [View.read_apply]
  show V c (Pipeline.arrRef spec4 0) (((cfg4.win 0).blk t).view.emb (ix2 a b)) = V c (Pipeline.arrRef spec4 0) _
  congr 1
  funext ax
  apply Fin.ext
  match ax with
  | ⟨0, _⟩ => show win4_0.index t (0 : Fin 2) * 2000 + 1 * a.val = t.val * 2000 + a.val; rw [e0]; omega
  | ⟨1, _⟩ => show win4_0.index t (1 : Fin 2) * 256 + 1 * b.val = b.val; rw [e1]; omega

/-- The bias window's block at every point is the whole bias row. -/
theorem bias_blk (c : Dev nD) (t : Fin cfg4.N) (a : Fin 1) (b : Fin 256) :
    (iblk4 V c 1 t : Vec Ideal S1x256 .f32) (ix2 a b)
      = (V c (Pipeline.arrRef spec4 1) : S1x256.Idx → EReal) (ix2 a b) := by
  obtain ⟨-, -, e0, e1, -⟩ := idx_facts t
  unfold iblk4
  rw [View.read_apply]
  show V c (Pipeline.arrRef spec4 1) (((cfg4.win 1).blk t).view.emb (ix2 a b)) = V c (Pipeline.arrRef spec4 1) _
  congr 1
  funext ax
  apply Fin.ext
  match ax with
  | ⟨0, _⟩ => show win4_1.index t (0 : Fin 2) * 1 + 1 * a.val = a.val; rw [e0]; omega
  | ⟨1, _⟩ => show win4_1.index t (1 : Fin 2) * 256 + 1 * b.val = b.val; rw [e1]; omega

/-- The weights window's block at point `t` is rows `2000 t … 2000 t + 1999` of the weight column. -/
theorem weight_blk (c : Dev nD) (t : Fin cfg4.N) (a : Fin 2000) (b : Fin 1) :
    (iblk4 V c 2 t : Vec Ideal S2000x1 .f32) (ix2 a b)
      = (V c (Pipeline.arrRef spec4 2) : S50000x1.Idx → EReal) (ix2 ⟨t.val * 2000 + a.val, row_lt t a⟩ b) := by
  obtain ⟨-, -, -, -, e0, e1, -⟩ := idx_facts t
  unfold iblk4
  rw [View.read_apply]
  show V c (Pipeline.arrRef spec4 2) (((cfg4.win 2).blk t).view.emb (ix2 a b)) = V c (Pipeline.arrRef spec4 2) _
  congr 1
  funext ax
  apply Fin.ext
  match ax with
  | ⟨0, _⟩ => show win4_2.index t (0 : Fin 2) * 2000 + 1 * a.val = t.val * 2000 + a.val; rw [e0]; omega
  | ⟨1, _⟩ => show win4_2.index t (1 : Fin 2) * 1 + 1 * b.val = b.val; rw [e1]; omega

/-- The matrix window's block at every point is the whole matrix. -/
theorem matrix_blk (c : Dev nD) (t : Fin cfg4.N) (a : Fin 256) (b : Fin 64) :
    (iblk4 V c 3 t : Vec Ideal S256x64 .f32) (ix2 a b)
      = (V c (Pipeline.arrRef spec4 3) : S256x64.Idx → EReal) (ix2 a b) := by
  obtain ⟨-, -, -, -, -, -, e0, e1, -⟩ := idx_facts t
  unfold iblk4
  rw [View.read_apply]
  show V c (Pipeline.arrRef spec4 3) (((cfg4.win 3).blk t).view.emb (ix2 a b)) = V c (Pipeline.arrRef spec4 3) _
  congr 1
  funext ax
  apply Fin.ext
  match ax with
  | ⟨0, _⟩ => show win4_3.index t (0 : Fin 2) * 256 + 1 * a.val = a.val; rw [e0]; omega
  | ⟨1, _⟩ => show win4_3.index t (1 : Fin 2) * 64 + 1 * b.val = b.val; rw [e1]; omega

/-- Entry `(a, b)` of the output window's block at point `t` sits at row `2000 t + a`, column `b` of the result. -/
theorem out_emb (t : Fin cfg4.N) (a : Fin 2000) (b : Fin 64) :
    (((cfg4.win 4).blk t).view.emb (ix2 a b) : S50000x64.Idx) = ix2 ⟨t.val * 2000 + a.val, row_lt t a⟩ b := by
  obtain ⟨-, -, -, -, -, -, -, -, e0, e1⟩ := idx_facts t
  funext ax
  apply Fin.ext
  match ax with
  | ⟨0, _⟩ => show win4_4.index t (0 : Fin 2) * 2000 + 1 * a.val = t.val * 2000 + a.val; rw [e0]; omega
  | ⟨1, _⟩ => show win4_4.index t (1 : Fin 2) * 64 + 1 * b.val = b.val; rw [e1]; omega

/-! ## The result array -/

/-- One layer from its four arrays, at row `p`, column `q`: the table's row `p` weighted by the node's weight, the
    bias added, clipped at zero; multiplied into column `q` of the matrix; weighted by the node's weight again. -/
def layerOf (T : S50000x256.Idx → EReal) (B : S1x256.Idx → EReal) (D : S50000x1.Idx → EReal) (W : S256x64.Idx → EReal)
    (p : Fin 50000) (q : Fin 64) : EReal :=
  (∑ j : Fin 256, max (T (ix2 p j) * D (ix2 p 0) + B (ix2 0 j)) 0 * W (ix2 j q)) * D (ix2 p 0)

theorem layerOf_apply (T : S50000x256.Idx → EReal) (B : S1x256.Idx → EReal) (D : S50000x1.Idx → EReal)
    (W : S256x64.Idx → EReal) (p : Fin 50000) (q : Fin 64) :
    layerOf T B D W p q
      = (∑ j : Fin 256, max (T (ix2 p j) * D (ix2 p 0) + B (ix2 0 j)) 0 * W (ix2 j q)) * D (ix2 p 0) := rfl

/-- The whole result array, from the four arrays as the region finds them. -/
def result (c : Dev nD) : S50000x64.Idx → EReal := fun i =>
  layerOf (V c (Pipeline.arrRef spec4 0)) (V c (Pipeline.arrRef spec4 1)) (V c (Pipeline.arrRef spec4 2))
    (V c (Pipeline.arrRef spec4 3)) (i 0) (i 1)

theorem result_apply (c : Dev nD) (p : Fin 50000) (q : Fin 64) :
    result V c (ix2 p q)
      = layerOf (V c (Pipeline.arrRef spec4 0)) (V c (Pipeline.arrRef spec4 1)) (V c (Pipeline.arrRef spec4 2))
          (V c (Pipeline.arrRef spec4 3)) p q := rfl

/-- What point `t` writes back is block `t` of the result array. -/
theorem flushed_eq (c : Dev nD) (t : Fin cfg4.N) :
    (dat4 V c).flushed 4 t = ((cfg4.win 4).blk t).view.read (Elt Ideal) (result V c) := by
  show (cfg4.win 4).cut (grid4.coords t) ((dat4 V c).after 4 t) = _
  rw [after4_4]
  unfold out4_4
  rw [View.canon_unit_zero zero_offsets]
  simp only [View.ld_unit_zero (S := S2000x1) zero_offsets, View.ld_unit_zero (S := S1x256) zero_offsets,
    View.ld_unit_zero (S := S2000x256) zero_offsets, View.ld_unit_zero (S := S256x64) zero_offsets]
  funext y
  obtain ⟨a, b, rfl⟩ : ∃ (a : Fin 2000) (b : Fin 64), y = ix2 a b := ⟨y 0, y 1, eq_ix2 y⟩
  show k4_pay1 (iblk4 V c 2 t) (iblk4 V c 1 t) (iblk4 V c 0 t) (iblk4 V c 3 t) (ix2 a b)
    = result V c (((cfg4.win 4).blk t).view.emb (ix2 a b))
  rw [out_emb t a b, result_apply, layerOf_apply]
  refine (pay_apply _ _ _ _ a b).trans ?_
  simp only [table_blk, bias_blk, weight_blk, matrix_blk]

/-- An index of the result is in point `t`'s block iff each coordinate is in the block's range on its axis. -/
theorem mem_blk (t : Fin cfg4.N) (i : S50000x64.Idx) :
    i ∈ ((cfg4.win 4).blk t).view.set ↔ ∀ a : Fin 2, win4_4.index t a * S2000x64.size a ≤ (i a).val ∧ (i a).val < win4_4.index t a * S2000x64.size a + S2000x64.size a := by
  show i ∈ ((View.whole main_v64).slice (win4_4.rect t)).set ↔ _
  rw [View.set_slice_whole, Rect.mem_set_unit]
  exact Iff.rfl

/-- The 25 row blocks cover the result: row `r` is in block `r / 2000`. -/
theorem cover (i : S50000x64.Idx) :
    ∃ t : Fin cfg4.N, (cfg4.win 4).flush t = true ∧ i ∈ ((cfg4.win 4).blk t).view.set := by
  have hN : cfg4.N = 25 := N_4
  have hi0 : (i 0).val < 50000 := idx2_lt0 i
  have hi1 : (i 1).val < 64 := idx2_lt1 i
  have ht : (i 0).val / 2000 < cfg4.N := by rw [hN]; omega
  refine ⟨⟨(i 0).val / 2000, ht⟩, flush4_4 _, ?_⟩
  rw [mem_blk]
  obtain ⟨-, -, -, -, -, -, -, -, e0, e1⟩ := idx_facts ⟨(i 0).val / 2000, ht⟩
  intro a
  match a with
  | ⟨0, _⟩ =>
    show win4_4.index ⟨(i 0).val / 2000, ht⟩ (0 : Fin 2) * 2000 ≤ (i 0).val ∧ (i 0).val < win4_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win4_4.index ⟨(i 0).val / 2000, ht⟩ (1 : Fin 2) * 64 ≤ (i 1).val ∧ (i 1).val < win4_4.index ⟨(i 0).val / 2000, ht⟩ (1 : Fin 2) * 64 + 64
    rw [e1]; omega

/-- THE RESULT ARRAY after the region, entry by entry: the layer of the four arrays as the region finds them. -/
theorem final (c : Dev nD) (p : Fin 50000) (q : Fin 64) :
    ((dat4 (F := Ideal) V c).arrAt 4 cfg4.N : S50000x64.Idx → EReal) (ix2 p q)
      = layerOf (V c (Pipeline.arrRef spec4 0)) (V c (Pipeline.arrRef spec4 1)) (V c (Pipeline.arrRef spec4 2))
          (V c (Pipeline.arrRef spec4 3)) p q := by
  have h := (dat4 (F := Ideal) V c).arrAt_eq_of_cover 4 (result V c) (fun t _ => flushed_eq V c t) cover
  exact (congrFun h (ix2 p q)).trans (result_apply V c p q)

end Cert.KernelIdeal.RegionMiddle4

end
-- ==== Proof.RegionLast.lean ====
/-
  The value of the last region: the final node scaling and bias.

  The region walks the 50000 node rows in 25 blocks of 2000.  At each block the body multiplies the block of the
  aggregated table, entry by entry, by the node's weight (a one-column array spread over the 64 columns) and adds the
  bias (a one-row array spread over the 2000 rows).  Each block is written back where it was read from, the blocks
  cover all rows, so the output array ends, at (p, q), at  table (p, q) * weight (p, 0) + bias (0, q).
-/
import proofs.«120852_j32744830665494_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«120852_j32744830665494_2_alg».proof.Proof.LibBroadcast

set_option maxRecDepth 16384

noncomputable section

namespace Cert.KernelIdeal.RegionLast

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-block access, as a constant function. -/
theorem zero_offsets : (![0, 0] : Fin 2 → Nat) = fun _ => 0 := funext fun a => by fin_cases a <;> rfl

/-! ## The body's arithmetic at an index -/

/-- The body's result at row `p`, column `q` of a block: the table's entry times the row's weight, plus the column's bias. -/
theorem payload_apply (x0 : Vec Ideal S2000x1 .f32) (x1 : Vec Ideal S1x64 .f32) (x2 : Vec Ideal S2000x64 .f32)
    (p : Fin 2000) (q : Fin 64) :
    k5_pay1 x0 x1 x2 (ix2 p q) = x2 (ix2 p q) * x0 (ix2 p 0) + x1 (ix2 0 q) := by
  unfold k5_pay1
  simp only [shapeCast_self]
  rw [addf_apply, mulf_apply]
  refine congrArg₂ (· + ·) (congrArg₂ (· * ·) rfl ?_) ?_
  · exact Cert.Layout.broadcastTo_a1_ab_apply x0 _ p q
  · exact broadcastTo_1b_ab_apply x1 _ p q

/-! ## The arrays the region reads, as arrays of extended reals -/

/-- The aggregated table, 50000 rows of 64. -/
abbrev table (c : Dev nD) : S50000x64.Idx → EReal := V c (Pipeline.arrRef spec5 0)

/-- The bias, one row of 64. -/
abbrev bias (c : Dev nD) : S1x64.Idx → EReal := V c (Pipeline.arrRef spec5 1)

/-- The node weights, one column of 50000. -/
abbrev weight (c : Dev nD) : S50000x1.Idx → EReal := V c (Pipeline.arrRef spec5 2)

/-! ## Where each block sits in its array -/

/-- The block index maps over the 25 grid points: the row-blocked windows (table, weights, output) are at block row
    `t`, block column 0; the bias is always block (0, 0). -/
theorem index_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0)

/-- A grid point is below 25. -/
theorem point_lt (t : Fin cfg5.N) : t.val < 25 := by
  have h : cfg5.N = 25 := N_5
  have := t.isLt
  omega

/-- Row `a` of block `t` is row `2000 t + a` of the array. -/
theorem row_lt (t : Fin cfg5.N) (a : Fin 2000) : t.val * 2000 + a.val < 50000 := by
  have := point_lt t
  have := a.isLt
  omega

/-- The table's block at point `t`: rows `2000 t …` of the table. -/
theorem table_block (c : Dev nD) (t : Fin cfg5.N) (a : Fin 2000) (b : Fin 64) :
    (iblk5 V c 0 t : Vec Ideal S2000x64 .f32) (ix2 a b)
      = table V c (ix2 ⟨t.val * 2000 + a.val, row_lt t a⟩ b) := by
  obtain ⟨e0, e1, -⟩ := index_facts t
  show table V c (((cfg5.win 0).blk t).view.emb (ix2 a b)) = _
  refine congrArg (table V c) ?_
  funext ax; apply Fin.ext
  match ax with
  | ⟨0, _⟩ => show win5_0.index t (0 : Fin 2) * 2000 + 1 * a.val = t.val * 2000 + a.val; omega
  | ⟨1, _⟩ => show win5_0.index t (1 : Fin 2) * 64 + 1 * b.val = b.val; omega

/-- The weights' block at point `t`: rows `2000 t …` of the one-column array. -/
theorem weight_block (c : Dev nD) (t : Fin cfg5.N) (a : Fin 2000) (b : Fin 1) :
    (iblk5 V c 2 t : Vec Ideal S2000x1 .f32) (ix2 a b)
      = weight V c (ix2 ⟨t.val * 2000 + a.val, row_lt t a⟩ b) := by
  obtain ⟨-, -, -, -, e0, e1, -⟩ := index_facts t
  show weight V c (((cfg5.win 2).blk t).view.emb (ix2 a b)) = _
  refine congrArg (weight V c) ?_
  funext ax; apply Fin.ext
  match ax with
  | ⟨0, _⟩ => show win5_2.index t (0 : Fin 2) * 2000 + 1 * a.val = t.val * 2000 + a.val; omega
  | ⟨1, _⟩ => show win5_2.index t (1 : Fin 2) * 1 + 1 * b.val = b.val; omega

/-- The bias' block at every point is the whole one-row array. -/
theorem bias_block (c : Dev nD) (t : Fin cfg5.N) (a : Fin 1) (b : Fin 64) :
    (iblk5 V c 1 t : Vec Ideal S1x64 .f32) (ix2 a b)
      = bias V c (ix2 a b) := by
  obtain ⟨-, -, e0, e1, -⟩ := index_facts t
  show bias V c (((cfg5.win 1).blk t).view.emb (ix2 a b)) = _
  refine congrArg (bias V c) ?_
  funext ax; apply Fin.ext
  match ax with
  | ⟨0, _⟩ => show win5_1.index t (0 : Fin 2) * 1 + 1 * a.val = a.val; omega
  | ⟨1, _⟩ => show win5_1.index t (1 : Fin 2) * 64 + 1 * b.val = b.val; omega

/-! ## The whole output array -/

/-- What the output array ends holding: entry (p, q) is  table (p, q) * weight (p, 0) + bias (0, q). -/
def whole (c : Dev nD) : S50000x64.Idx → EReal := fun i =>
  table V c (ix2 (i 0) (i 1)) * weight V c (ix2 (i 0) 0) + bias V c (ix2 0 (i 1))

/-- What point `t` writes back is block `t` of `whole`. -/
theorem flushed_eq (c : Dev nD) (t : Fin cfg5.N) :
    (dat5 (F := Ideal) V c).flushed 3 t = ((cfg5.win 3).blk t).view.read (Elt Ideal) (whole V c) := by
  show (cfg5.win 3).cut (grid5.coords t) ((dat5 (F := Ideal) V c).after 3 t) = _
  rw [after5_3]
  unfold out5_3
  rw [View.canon_unit_zero zero_offsets]
  simp only [View.ld_unit_zero (S := S2000x1) zero_offsets, View.ld_unit_zero (S := S1x64) zero_offsets,
    View.ld_unit_zero (S := S2000x64) zero_offsets]
  obtain ⟨-, -, -, -, -, -, e0, e1⟩ := index_facts t
  funext j
  obtain ⟨p, q, rfl⟩ : ∃ (p : Fin 2000) (q : Fin 64), j = ix2 p q := ⟨j 0, j 1, eq_ix2 j⟩
  show k5_pay1 (iblk5 V c 2 t) (iblk5 V c 1 t) (iblk5 V c 0 t) (ix2 p q) = whole V c (((cfg5.win 3).blk t).view.emb (ix2 p q))
  have hemb : ((cfg5.win 3).blk t).view.emb (ix2 p q) = (ix2 ⟨t.val * 2000 + p.val, row_lt t p⟩ q : S50000x64.Idx) := by
    funext ax; apply Fin.ext
    match ax with
    | ⟨0, _⟩ => show win5_3.index t (0 : Fin 2) * 2000 + 1 * p.val = t.val * 2000 + p.val; omega
    | ⟨1, _⟩ => show win5_3.index t (1 : Fin 2) * 64 + 1 * q.val = q.val; omega
  rw [hemb, payload_apply, table_block, weight_block, bias_block]
  rfl

/-- An index of the array is in point `t`'s block iff each coordinate is in the block's range on its axis. -/
theorem mem_block (t : Fin cfg5.N) (i : S50000x64.Idx) :
    i ∈ ((cfg5.win 3).blk t).view.set ↔ ∀ a : Fin 2, win5_3.index t a * S2000x64.size a ≤ (i a).val ∧ (i a).val < win5_3.index t a * S2000x64.size a + S2000x64.size a := by
  show i ∈ ((View.whole main_v76).slice (win5_3.rect t)).set ↔ _
  rw [View.set_slice_whole, Rect.mem_set_unit]
  exact Iff.rfl

/-- Every row is in the block of the point `row / 2000`: the 25 blocks of 2000 rows cover the 50000 rows. -/
theorem cover (i : S50000x64.Idx) :
    ∃ t : Fin cfg5.N, (cfg5.win 3).flush t = true ∧ i ∈ ((cfg5.win 3).blk t).view.set := by
  have hi0 : (i 0).val < 50000 := (i 0).isLt
  have hi1 : (i 1).val < 64 := (i 1).isLt
  have hN : cfg5.N = 25 := N_5
  obtain ⟨t, ht⟩ : ∃ t : Fin cfg5.N, t.val = (i 0).val / 2000 := ⟨⟨(i 0).val / 2000, by omega⟩, rfl⟩
  obtain ⟨-, -, -, -, -, -, e0, e1⟩ := index_facts t
  refine ⟨t, flush5_3 t, ?_⟩
  rw [mem_block]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 64 ≤ (i 1).val ∧ (i 1).val < win5_3.index t (1 : Fin 2) * 64 + 64; omega

/-- The output array after the region. -/
theorem final_array (c : Dev nD) : (dat5 (F := Ideal) V c).arrAt 3 cfg5.N = whole V c :=
  (dat5 (F := Ideal) V c).arrAt_eq_of_cover 3 (whole V c) (fun t _ => flushed_eq V c t) cover

/-- THE VALUE OF THE LAST REGION: the output array at (p, q) is  table (p, q) * weight (p, 0) + bias (0, q). -/
theorem final (c : Dev nD) (p : Fin 50000) (q : Fin 64) :
    ((dat5 (F := Ideal) V c).arrAt 3 cfg5.N : S50000x64.Idx → EReal) (ix2 p q)
      = @HAdd.hAdd EReal EReal EReal instHAdd
          (@HMul.hMul EReal EReal EReal instHMul
            ((V c (Pipeline.arrRef spec5 0) : S50000x64.Idx → EReal) (ix2 p q))
            ((V c (Pipeline.arrRef spec5 2) : S50000x1.Idx → EReal) (ix2 p 0)))
          ((V c (Pipeline.arrRef spec5 1) : S1x64.Idx → EReal) (ix2 0 q)) := by
  rw [final_array V c]
  rfl

end Cert.KernelIdeal.RegionLast

end
-- ==== Proof.KChain.lean ====
/-
  The idealized kernel's result, read at an entry, is five layers of graph convolution the FIRST way
  (`Cert.Gcn.netFirst`): every layer multiplies the node table by its weight matrix and scales the rows by the node
  weights inside a pipelined region, the host stretch after the region sends the rows along the edges and adds them up,
  and the next region scales the sums by the node weights again, adds the bias and clips at zero before its own product;
  the last region only scales and adds the bias. The regions' and the stretches' own values are read elsewhere; here
  they are chained through the fourteen boundaries of @main, every carried buffer by what it held when written.
-/
import proofs.«120852_j32744830665494_2_alg».proof.Proof.Gen.KernelIdeal.Frame
import proofs.«120852_j32744830665494_2_alg».proof.Proof.KHost
import proofs.«120852_j32744830665494_2_alg».proof.Proof.KKept
import proofs.«120852_j32744830665494_2_alg».proof.Proof.RegionFirst
import proofs.«120852_j32744830665494_2_alg».proof.Proof.RegionMiddle1
import proofs.«120852_j32744830665494_2_alg».proof.Proof.RegionMiddle2
import proofs.«120852_j32744830665494_2_alg».proof.Proof.RegionMiddle3
import proofs.«120852_j32744830665494_2_alg».proof.Proof.RegionMiddle4
import proofs.«120852_j32744830665494_2_alg».proof.Proof.RegionLast
import proofs.«120852_j32744830665494_2_alg».proof.Proof.GcnSpec
import proofs.«120852_j32744830665494_2_alg».proof.Proof.Graph

set_option maxRecDepth 16384

noncomputable section

namespace Cert.KernelIdeal.Chain

open Cert.KernelIdeal Cert.KernelIdeal.Gen Idealize.ShloMosaic Idealize.ShloMosaic.TcCoe Idealize.ShloMosaic.ValueIdx Idealize.SL.Sem

/-- A matrix of extended reals read at a row and a column. -/
abbrev rd2 {a b : Nat} (f : (⟨2, ![a, b]⟩ : Shape).Idx → EReal) (p : Fin a) (q : Fin b) : EReal := f (ix2 p q)
/-- A vector of extended reals read at a position. -/
abbrev rd1 {a : Nat} (f : (⟨1, ![a]⟩ : Shape).Idx → EReal) (k : Fin a) : EReal := f (ix1 k)

variable (m : (ℓ : Loc nD τ sig) → Buf (Elt Ideal) ℓ) (ρ : Dev nD → PrngReg) (c : Dev nD)

/-! ## The graph and the parameters, as the kernel's run sees them -/

/-- The edges' source words, as the first stretch leaves them. -/
def srcWords : S650000.Idx → BitVec 32 := W1 m ρ c (Proc.devRef .tc main_v3)
/-- The edges' target words. -/
def dstWords : S650000.Idx → BitVec 32 := W1 m ρ c (Proc.devRef .tc main_v6)

/-- The node weights. -/
def d : Fin 50000 → EReal := Cert.Graph.dOf (dstWords m ρ c)

def X : Fin 50000 → Fin 128 → EReal := rd2 (a := 50000) (b := 128) (m ((c : Thread nD τ).loc main_arg0))
def M1 : Fin 128 → Fin 256 → EReal := rd2 (a := 128) (b := 256) (m ((c : Thread nD τ).loc main_arg2))
def M2 : Fin 256 → Fin 256 → EReal := rd2 (a := 256) (b := 256) (m ((c : Thread nD τ).loc main_arg4))
def M3 : Fin 256 → Fin 256 → EReal := rd2 (a := 256) (b := 256) (m ((c : Thread nD τ).loc main_arg6))
def M4 : Fin 256 → Fin 256 → EReal := rd2 (a := 256) (b := 256) (m ((c : Thread nD τ).loc main_arg8))
def M5 : Fin 256 → Fin 64 → EReal := rd2 (a := 256) (b := 64) (m ((c : Thread nD τ).loc main_arg10))
def c1 : Fin 256 → EReal := rd1 (a := 256) (m ((c : Thread nD τ).loc main_arg3))
def c2 : Fin 256 → EReal := rd1 (a := 256) (m ((c : Thread nD τ).loc main_arg5))
def c3 : Fin 256 → EReal := rd1 (a := 256) (m ((c : Thread nD τ).loc main_arg7))
def c4 : Fin 256 → EReal := rd1 (a := 256) (m ((c : Thread nD τ).loc main_arg9))
def c5 : Fin 64 → EReal := rd1 (a := 64) (m ((c : Thread nD τ).loc main_arg11))

/-- Layer by layer: the sums the stretches leave. -/
def A1 : Fin 50000 → Fin 256 → EReal :=
  Cert.Gcn.sumFirst (Cert.Graph.srcOf (srcWords m ρ c)) (Cert.Graph.hitOf (dstWords m ρ c)) (d m ρ c) (X m c) (M1 m c)
def A2 : Fin 50000 → Fin 256 → EReal :=
  Cert.Gcn.sumFirst (Cert.Graph.srcOf (srcWords m ρ c)) (Cert.Graph.hitOf (dstWords m ρ c)) (d m ρ c)
    (Cert.Gcn.actFirst (d m ρ c) (A1 m ρ c) (c1 m c)) (M2 m c)
def A3 : Fin 50000 → Fin 256 → EReal :=
  Cert.Gcn.sumFirst (Cert.Graph.srcOf (srcWords m ρ c)) (Cert.Graph.hitOf (dstWords m ρ c)) (d m ρ c)
    (Cert.Gcn.actFirst (d m ρ c) (A2 m ρ c) (c2 m c)) (M3 m c)
def A4 : Fin 50000 → Fin 256 → EReal :=
  Cert.Gcn.sumFirst (Cert.Graph.srcOf (srcWords m ρ c)) (Cert.Graph.hitOf (dstWords m ρ c)) (d m ρ c)
    (Cert.Gcn.actFirst (d m ρ c) (A3 m ρ c) (c3 m c)) (M4 m c)
def A5 : Fin 50000 → Fin 64 → EReal :=
  Cert.Gcn.sumFirst (Cert.Graph.srcOf (srcWords m ρ c)) (Cert.Graph.hitOf (dstWords m ρ c)) (d m ρ c)
    (Cert.Gcn.actFirst (d m ρ c) (A4 m ρ c) (c4 m c)) (M5 m c)

/-! ## The node weights at every region's entry -/

theorem weight3 (p : Fin 50000) : rd2 (a := 50000) (b := 1) (W3 m ρ c (Proc.devRef .tc main_v15)) p 0 = d m ρ c p :=
  (Cert.KernelIdeal.HostValue.weights_apply (W0 m ρ c) p : _)
theorem weight5 (p : Fin 50000) : rd2 (a := 50000) (b := 1) (W5 m ρ c (Proc.devRef .tc main_v15)) p 0 = d m ρ c p := by
  rw [(Cert.KernelIdeal.Kept.weights_kept m ρ c).2.1]; exact weight3 m ρ c p
theorem weight7 (p : Fin 50000) : rd2 (a := 50000) (b := 1) (W7 m ρ c (Proc.devRef .tc main_v15)) p 0 = d m ρ c p := by
  rw [(Cert.KernelIdeal.Kept.weights_kept m ρ c).2.2.2.1]; exact weight3 m ρ c p
theorem weight9 (p : Fin 50000) : rd2 (a := 50000) (b := 1) (W9 m ρ c (Proc.devRef .tc main_v15)) p 0 = d m ρ c p := by
  rw [(Cert.KernelIdeal.Kept.weights_kept m ρ c).2.2.2.2.2.1]; exact weight3 m ρ c p
theorem weight11 (p : Fin 50000) : rd2 (a := 50000) (b := 1) (W11 m ρ c (Proc.devRef .tc main_v15)) p 0 = d m ρ c p := by
  rw [(Cert.KernelIdeal.Kept.weights_kept m ρ c).2.2.2.2.2.2.2.1]; exact weight3 m ρ c p
theorem weight13 (p : Fin 50000) : rd2 (a := 50000) (b := 1) (W13 m ρ c (Proc.devRef .tc main_v15)) p 0 = d m ρ c p := by
  rw [(Cert.KernelIdeal.Kept.weights_kept m ρ c).2.2.2.2.2.2.2.2.2]; exact weight3 m ρ c p

/-! ## Layer 1 -/

/-- Region 0's table: `x · M1`, rows scaled. -/
theorem table1 (p : Fin 50000) (q : Fin 256) :
    rd2 (a := 50000) (b := 256) (W4 m ρ c (Proc.devRef .tc main_v16)) p q = Cert.Gcn.scaleRows (d m ρ c) (Cert.Gcn.lin (X m c) (M1 m c)) p q := by
  have hA : W4 m ρ c (Proc.devRef .tc main_v16) = (dat0 (V3 m ρ) c).arrAt 3 cfg0.N := W4_arr m ρ c 3
  rw [hA]
  refine (Cert.KernelIdeal.RegionFirst.final (V3 m ρ) c p q).trans ?_
  show (∑ j : Fin 128, rd2 (a := 50000) (b := 128) (W3 m ρ c (Proc.devRef .tc main_arg0)) p j * rd2 (a := 128) (b := 256) (W3 m ρ c (Proc.devRef .tc main_arg2)) j q)
      * rd2 (a := 50000) (b := 1) (W3 m ρ c (Proc.devRef .tc main_v15)) p 0 = _
  rw [weight3, (Cert.KernelIdeal.Kept.main_arg0_kept m ρ c).2.2, (Cert.KernelIdeal.Kept.main_arg2_kept m ρ c).2.2]
  rfl

/-- Stretch 1: the rows sent along the edges and added. -/
theorem sums1 (n : Fin 50000) (q : Fin 256) :
    rd2 (a := 50000) (b := 256) (W5 m ρ c (Proc.devRef .tc main_v26)) n q = A1 m ρ c n q := by
  have h := Cert.KernelIdeal.HostValue.agg1_apply (W4 m ρ c) n q
  rw [(Cert.KernelIdeal.Kept.srcWords_kept m ρ c).2.2.1, (Cert.KernelIdeal.Kept.dstWords_kept m ρ c).2.2.1] at h
  refine h.trans ?_
  unfold A1 Cert.Gcn.sumFirst
  refine congrFun (congrFun (congrArg (Cert.Gcn.gatherAdd _ _) ?_) n) q
  funext a j
  exact table1 m ρ c a j

/-- … and the bias row. -/
theorem bias1 (q : Fin 256) : rd2 (a := 1) (b := 256) (W5 m ρ c (Proc.devRef .tc main_v27)) 0 q = c1 m c q := by
  have h := Cert.KernelIdeal.HostValue.bias1_apply (W4 m ρ c) q
  rw [(Cert.KernelIdeal.Kept.main_arg3_kept m ρ c).2.2.2] at h
  exact h

/-! ## Layer 2 -/

/-- Region 1's table: the previous sums scaled, biased and clipped, times `M2`, rows scaled. -/
theorem table2 (p : Fin 50000) (q : Fin 256) :
    rd2 (a := 50000) (b := 256) (W6 m ρ c (Proc.devRef .tc main_v28)) p q
      = Cert.Gcn.scaleRows (d m ρ c) (Cert.Gcn.lin (Cert.Gcn.actFirst (d m ρ c) (A1 m ρ c) (c1 m c)) (M2 m c)) p q := by
  have hA : W6 m ρ c (Proc.devRef .tc main_v28) = (dat1 (V5 m ρ) c).arrAt 4 cfg1.N := W6_arr m ρ c 4
  rw [hA]
  refine (Cert.KernelIdeal.RegionMiddle1.final (V5 m ρ) c p q).trans ?_
  show (∑ j : Fin 256, max (rd2 (a := 50000) (b := 256) (W5 m ρ c (Proc.devRef .tc main_v26)) p j * rd2 (a := 50000) (b := 1) (W5 m ρ c (Proc.devRef .tc main_v15)) p 0
                              + rd2 (a := 1) (b := 256) (W5 m ρ c (Proc.devRef .tc main_v27)) 0 j) 0
                          * rd2 (a := 256) (b := 256) (W5 m ρ c (Proc.devRef .tc main_arg4)) j q)
      * rd2 (a := 50000) (b := 1) (W5 m ρ c (Proc.devRef .tc main_v15)) p 0 = _
  rw [weight5, (Cert.KernelIdeal.Kept.main_arg4_kept m ρ c).2.2.2.2]
  unfold Cert.Gcn.scaleRows Cert.Gcn.lin Cert.Gcn.actFirst
  refine congrArg (· * d m ρ c p) (Finset.sum_congr rfl fun j _ => ?_)
  rw [sums1 m ρ c p j, bias1 m ρ c j]
  rfl

/-- Stretch 2: the rows sent along the edges and added. -/
theorem sums2 (n : Fin 50000) (q : Fin 256) :
    rd2 (a := 50000) (b := 256) (W7 m ρ c (Proc.devRef .tc main_v38)) n q = A2 m ρ c n q := by
  have h := Cert.KernelIdeal.HostValue.agg2_apply (W6 m ρ c) n q
  rw [(Cert.KernelIdeal.Kept.srcWords_kept m ρ c).2.2.2.2.1, (Cert.KernelIdeal.Kept.dstWords_kept m ρ c).2.2.2.2.1] at h
  refine h.trans ?_
  unfold A2 Cert.Gcn.sumFirst
  refine congrFun (congrFun (congrArg (Cert.Gcn.gatherAdd _ _) ?_) n) q
  funext a j
  exact table2 m ρ c a j

/-- … and the bias row. -/
theorem bias2 (q : Fin 256) : rd2 (a := 1) (b := 256) (W7 m ρ c (Proc.devRef .tc main_v39)) 0 q = c2 m c q := by
  have h := Cert.KernelIdeal.HostValue.bias2_apply (W6 m ρ c) q
  rw [(Cert.KernelIdeal.Kept.main_arg5_kept m ρ c).2.2.2.2.2] at h
  exact h

/-! ## Layer 3 -/

/-- Region 2's table: the previous sums scaled, biased and clipped, times `M3`, rows scaled. -/
theorem table3 (p : Fin 50000) (q : Fin 256) :
    rd2 (a := 50000) (b := 256) (W8 m ρ c (Proc.devRef .tc main_v40)) p q
      = Cert.Gcn.scaleRows (d m ρ c) (Cert.Gcn.lin (Cert.Gcn.actFirst (d m ρ c) (A2 m ρ c) (c2 m c)) (M3 m c)) p q := by
  have hA : W8 m ρ c (Proc.devRef .tc main_v40) = (dat2 (V7 m ρ) c).arrAt 4 cfg2.N := W8_arr m ρ c 4
  rw [hA]
  refine (Cert.KernelIdeal.RegionMiddle2.final (V7 m ρ) c p q).trans ?_
  show (∑ j : Fin 256, max (rd2 (a := 50000) (b := 256) (W7 m ρ c (Proc.devRef .tc main_v38)) p j * rd2 (a := 50000) (b := 1) (W7 m ρ c (Proc.devRef .tc main_v15)) p 0
                              + rd2 (a := 1) (b := 256) (W7 m ρ c (Proc.devRef .tc main_v39)) 0 j) 0
                          * rd2 (a := 256) (b := 256) (W7 m ρ c (Proc.devRef .tc main_arg6)) j q)
      * rd2 (a := 50000) (b := 1) (W7 m ρ c (Proc.devRef .tc main_v15)) p 0 = _
  rw [weight7, (Cert.KernelIdeal.Kept.main_arg6_kept m ρ c).2.2.2.2.2.2]
  unfold Cert.Gcn.scaleRows Cert.Gcn.lin Cert.Gcn.actFirst
  refine congrArg (· * d m ρ c p) (Finset.sum_congr rfl fun j _ => ?_)
  rw [sums2 m ρ c p j, bias2 m ρ c j]
  rfl

/-- Stretch 3: the rows sent along the edges and added. -/
theorem sums3 (n : Fin 50000) (q : Fin 256) :
    rd2 (a := 50000) (b := 256) (W9 m ρ c (Proc.devRef .tc main_v50)) n q = A3 m ρ c n q := by
  have h := Cert.KernelIdeal.HostValue.agg3_apply (W8 m ρ c) n q
  rw [(Cert.KernelIdeal.Kept.srcWords_kept m ρ c).2.2.2.2.2.2.1, (Cert.KernelIdeal.Kept.dstWords_kept m ρ c).2.2.2.2.2.2.1] at h
  refine h.trans ?_
  unfold A3 Cert.Gcn.sumFirst
  refine congrFun (congrFun (congrArg (Cert.Gcn.gatherAdd _ _) ?_) n) q
  funext a j
  exact table3 m ρ c a j

/-- … and the bias row. -/
theorem bias3 (q : Fin 256) : rd2 (a := 1) (b := 256) (W9 m ρ c (Proc.devRef .tc main_v51)) 0 q = c3 m c q := by
  have h := Cert.KernelIdeal.HostValue.bias3_apply (W8 m ρ c) q
  rw [(Cert.KernelIdeal.Kept.main_arg7_kept m ρ c).2.2.2.2.2.2.2] at h
  exact h

/-! ## Layer 4 -/

/-- Region 3's table: the previous sums scaled, biased and clipped, times `M4`, rows scaled. -/
theorem table4 (p : Fin 50000) (q : Fin 256) :
    rd2 (a := 50000) (b := 256) (W10 m ρ c (Proc.devRef .tc main_v52)) p q
      = Cert.Gcn.scaleRows (d m ρ c) (Cert.Gcn.lin (Cert.Gcn.actFirst (d m ρ c) (A3 m ρ c) (c3 m c)) (M4 m c)) p q := by
  have hA : W10 m ρ c (Proc.devRef .tc main_v52) = (dat3 (V9 m ρ) c).arrAt 4 cfg3.N := W10_arr m ρ c 4
  rw [hA]
  refine (Cert.KernelIdeal.RegionMiddle3.final (V9 m ρ) c p q).trans ?_
  show (∑ j : Fin 256, max (rd2 (a := 50000) (b := 256) (W9 m ρ c (Proc.devRef .tc main_v50)) p j * rd2 (a := 50000) (b := 1) (W9 m ρ c (Proc.devRef .tc main_v15)) p 0
                              + rd2 (a := 1) (b := 256) (W9 m ρ c (Proc.devRef .tc main_v51)) 0 j) 0
                          * rd2 (a := 256) (b := 256) (W9 m ρ c (Proc.devRef .tc main_arg8)) j q)
      * rd2 (a := 50000) (b := 1) (W9 m ρ c (Proc.devRef .tc main_v15)) p 0 = _
  rw [weight9, (Cert.KernelIdeal.Kept.main_arg8_kept m ρ c).2.2.2.2.2.2.2.2]
  unfold Cert.Gcn.scaleRows Cert.Gcn.lin Cert.Gcn.actFirst
  refine congrArg (· * d m ρ c p) (Finset.sum_congr rfl fun j _ => ?_)
  rw [sums3 m ρ c p j, bias3 m ρ c j]
  rfl

/-- Stretch 4: the rows sent along the edges and added. -/
theorem sums4 (n : Fin 50000) (q : Fin 256) :
    rd2 (a := 50000) (b := 256) (W11 m ρ c (Proc.devRef .tc main_v62)) n q = A4 m ρ c n q := by
  have h := Cert.KernelIdeal.HostValue.agg4_apply (W10 m ρ c) n q
  rw [(Cert.KernelIdeal.Kept.srcWords_kept m ρ c).2.2.2.2.2.2.2.2.1, (Cert.KernelIdeal.Kept.dstWords_kept m ρ c).2.2.2.2.2.2.2.2.1] at h
  refine h.trans ?_
  unfold A4 Cert.Gcn.sumFirst
  refine congrFun (congrFun (congrArg (Cert.Gcn.gatherAdd _ _) ?_) n) q
  funext a j
  exact table4 m ρ c a j

/-- … and the bias row. -/
theorem bias4 (q : Fin 256) : rd2 (a := 1) (b := 256) (W11 m ρ c (Proc.devRef .tc main_v63)) 0 q = c4 m c q := by
  have h := Cert.KernelIdeal.HostValue.bias4_apply (W10 m ρ c) q
  rw [(Cert.KernelIdeal.Kept.main_arg9_kept m ρ c).2.2.2.2.2.2.2.2.2] at h
  exact h

/-! ## Layer 5 -/

/-- Region 4's table: the previous sums scaled, biased and clipped, times `M5`, rows scaled. -/
theorem table5 (p : Fin 50000) (q : Fin 64) :
    rd2 (a := 50000) (b := 64) (W12 m ρ c (Proc.devRef .tc main_v64)) p q
      = Cert.Gcn.scaleRows (d m ρ c) (Cert.Gcn.lin (Cert.Gcn.actFirst (d m ρ c) (A4 m ρ c) (c4 m c)) (M5 m c)) p q := by
  have hA : W12 m ρ c (Proc.devRef .tc main_v64) = (dat4 (V11 m ρ) c).arrAt 4 cfg4.N := W12_arr m ρ c 4
  rw [hA]
  refine (Cert.KernelIdeal.RegionMiddle4.final (V11 m ρ) c p q).trans ?_
  show (∑ j : Fin 256, max (rd2 (a := 50000) (b := 256) (W11 m ρ c (Proc.devRef .tc main_v62)) p j * rd2 (a := 50000) (b := 1) (W11 m ρ c (Proc.devRef .tc main_v15)) p 0
                              + rd2 (a := 1) (b := 256) (W11 m ρ c (Proc.devRef .tc main_v63)) 0 j) 0
                          * rd2 (a := 256) (b := 64) (W11 m ρ c (Proc.devRef .tc main_arg10)) j q)
      * rd2 (a := 50000) (b := 1) (W11 m ρ c (Proc.devRef .tc main_v15)) p 0 = _
  rw [weight11, (Cert.KernelIdeal.Kept.main_arg10_kept m ρ c).2.2.2.2.2.2.2.2.2.2]
  unfold Cert.Gcn.scaleRows Cert.Gcn.lin Cert.Gcn.actFirst
  refine congrArg (· * d m ρ c p) (Finset.sum_congr rfl fun j _ => ?_)
  rw [sums4 m ρ c p j, bias4 m ρ c j]
  rfl

/-- Stretch 5: the rows sent along the edges and added. -/
theorem sums5 (n : Fin 50000) (q : Fin 64) :
    rd2 (a := 50000) (b := 64) (W13 m ρ c (Proc.devRef .tc main_v74)) n q = A5 m ρ c n q := by
  have h := Cert.KernelIdeal.HostValue.agg5_apply (W12 m ρ c) n q
  rw [(Cert.KernelIdeal.Kept.srcWords_kept m ρ c).2.2.2.2.2.2.2.2.2.2, (Cert.KernelIdeal.Kept.dstWords_kept m ρ c).2.2.2.2.2.2.2.2.2.2] at h
  refine h.trans ?_
  unfold A5 Cert.Gcn.sumFirst
  refine congrFun (congrFun (congrArg (Cert.Gcn.gatherAdd _ _) ?_) n) q
  funext a j
  exact table5 m ρ c a j

/-- … and the bias row. -/
theorem bias5 (q : Fin 64) : rd2 (a := 1) (b := 64) (W13 m ρ c (Proc.devRef .tc main_v75)) 0 q = c5 m c q := by
  have h := Cert.KernelIdeal.HostValue.bias5_apply (W12 m ρ c) q
  rw [(Cert.KernelIdeal.Kept.main_arg11_kept m ρ c).2.2.2.2.2.2.2.2.2.2.2] at h
  exact h

/-! ## The result -/

/-- THE RESULT ARRAY at `(p, q)`: five layers the first way. -/
theorem result (p : Fin 50000) (q : Fin 64) :
    rd2 (a := 50000) (b := 64) (W14 m ρ c (Proc.devRef .tc main_v76)) p q
      = Cert.Gcn.netFirst (Cert.Graph.srcOf (srcWords m ρ c)) (Cert.Graph.hitOf (dstWords m ρ c)) (d m ρ c)
          (X m c) (M1 m c) (c1 m c) (M2 m c) (c2 m c) (M3 m c) (c3 m c) (M4 m c) (c4 m c) (M5 m c) (c5 m c) p q := by
  have hA : W14 m ρ c (Proc.devRef .tc main_v76) = (dat5 (V13 m ρ) c).arrAt 3 cfg5.N := W14_arr m ρ c 3
  rw [hA]
  refine (Cert.KernelIdeal.RegionLast.final (V13 m ρ) c p q).trans ?_
  show rd2 (a := 50000) (b := 64) (W13 m ρ c (Proc.devRef .tc main_v74)) p q * rd2 (a := 50000) (b := 1) (W13 m ρ c (Proc.devRef .tc main_v15)) p 0 + rd2 (a := 1) (b := 64) (W13 m ρ c (Proc.devRef .tc main_v75)) 0 q = _
  rw [weight13, sums5, bias5]
  rfl

end Cert.KernelIdeal.Chain

end
-- ==== Proof.LibHostProduct.lean ====
/-
  The host's matrix product and two of its broadcasts, read at an index, at the ideal values.

  For `A : [m, k]` and `B : [k, n]`, the host's product contracting the second axis of `A` with the first of `B` has at
  `(a, b)` the sum over `c` of `A (a, c) · B (c, b)`: it has no accumulator, so this is the whole entry.  An `[a, 1]`
  column laid along the columns of an `[a, b]` array has at `(p, c)` the column's entry `p`, and a vector of length `n`
  laid as a `[1, n]` row has at `(0, q)` its entry `q`.
-/
import Idealize.ShloMosaic.Lib.Pipeline.Value
import Idealize.ShloMosaic.Lib.ValueIdx
import Idealize.ShloMosaic.PureOps.Ideal.Laws

noncomputable section

namespace Cert.HostProduct

open Idealize.ShloMosaic Idealize.ShloMosaic.ValueIdx

/-- The host's `A · B`, read at `(a, b)`: the sum over the shared coordinate of the products. -/
theorem dotGeneral_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

variable {α : Type}

/-- An `[a, 1]` column laid along the columns of an `[a, b]` array: entry `(p, c)` is the column's entry `p`. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ =>
    show (0 : ℕ) = if (1 : ℕ) = 1 then 0 else _
    simp

/-- A vector laid as a one-row matrix by the host: entry `(0, q)` is the vector's entry `q`. -/
theorem broadcastInDim_row_apply {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply ![1] h v (ix2 (0 : Fin 1) q) (ix1 q) ?_
  intro ax
  match ax with
  | ⟨0, _⟩ =>
    show q.val = if n = 1 then 0 else q.val
    split
    · have := q.isLt; omega
    · rfl

end Cert.HostProduct

end
-- ==== Proof.RefValue.lean ====
/-
  The reference program's result, read at one entry, is the five-layer graph convolution of `GcnSpec` on the graph
  that `Graph` reads off the program's own two word vectors.

  The program joins the edge list with one self-loop per node into a source vector and a target vector of 650000
  words (these two joins are never opened here: everything below holds for whatever words they contain). From them
  it computes

  * a node's degree — the sum, from zero, of a one for every edge whose target word is the node — and its weight,
    the inverse square root of the degree where the degree is positive and zero elsewhere;
  * an edge's weight — the product of the weights of the rows its source and target words name;
  * and, per layer, the node table times the weight matrix, whose rows are taken at the edges' source rows, weighted
    by the edge weights, added onto the edges' target rows from zero, and shifted by the bias; between two layers
    the result is clipped at zero.

  First the layer is read over VARIABLES (any word vectors, any tables standing for the program's columns); then
  the program's own columns and tables are shown to be of that form, operation by operation; then the five layers
  are chained.
-/
import proofs.«120852_j32744830665494_2_alg».proof.Proof.RefRead
import proofs.«120852_j32744830665494_2_alg».proof.Proof.GcnSpec
import proofs.«120852_j32744830665494_2_alg».proof.Proof.Graph
import proofs.«120852_j32744830665494_2_alg».proof.Proof.LibRowGatherScatter
import proofs.«120852_j32744830665494_2_alg».proof.Proof.LibVectorGatherScatter
import proofs.«120852_j32744830665494_2_alg».proof.Proof.LibHostBroadcast
import proofs.«120852_j32744830665494_2_alg».proof.Proof.LibHostProduct
import proofs.«120852_j32744830665494_2_alg».proof.Proof.LibJoinIota

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The layer over variables

  `sv`, `dv` are the source and target words of the edges. A column `srcCol` holds the source words with negative
  words counted from the end, a column `dstCol` holds the target words as they are, `nrmT` holds edge `e`'s weight in
  every entry of row `e`, and `zeros` is the zero table. -/

section General

variable (sv dv : IVec ⟨1, ![650000]⟩ 32)

/-- The row a column of wrapped source words names is the graph's source row. -/
theorem rowOf_col (col : IVec ⟨2, ![650000, 1]⟩ 32)
    (h : ∀ e : Fin 650000, col (ix2 e (0 : Fin 1)) = Cert.Graph.wrap (sv (ix1 e))) (e : Fin 650000) :
    Cert.RowGatherScatter.rowOf (N := 50000) (by decide) col e = Cert.Graph.srcOf sv e := by
  refine Fin.ext ?_
  show min (col (ix2 e (0 : Fin 1))).toInt.toNat (50000 - 1) = min (Cert.Graph.wrap (sv (ix1 e))).toInt.toNat (50000 - 1)
  rw [h e]

/-- The updates a column of target words sends to row `n` are the edges ending in `n`. -/
theorem hits_col (col : IVec ⟨2, ![650000, 1]⟩ 32)
    (h : ∀ e : Fin 650000, col (ix2 e (0 : Fin 1)) = dv (ix1 e)) (n : Fin 50000) :
    Cert.RowGatherScatter.hits col n = Cert.Graph.hitOf dv n := by
  unfold Cert.RowGatherScatter.hits Cert.Graph.hitOf
  refine Finset.filter_congr fun e _ => ?_
  rw [h e]

/-- The same for the rank-1 scatter. -/
theorem vhits_col (col : IVec ⟨2, ![650000, 1]⟩ 32)
    (h : ∀ e : Fin 650000, col (ix2 e (0 : Fin 1)) = dv (ix1 e)) (n : Fin 50000) :
    Cert.VectorGatherScatter.hits col n = Cert.Graph.hitOf dv n := by
  unfold Cert.VectorGatherScatter.hits Cert.Graph.hitOf
  refine Finset.filter_congr fun e _ => ?_
  rw [h e]

/-- ONE LAYER'S SUM over the edges, for an arbitrary node table `h`: take the source rows, weight row `e` by
    edge `e`'s weight, add the rows onto their target rows from zero. -/
theorem edgeAdd_apply {C : Nat}
    (wfG : GatherDims.WF ⟨2, ![50000, C]⟩ ⟨2, ![650000, 1]⟩ ⟨2, ![650000, C]⟩ [1] [0] [] [0] [] 1 ![1, C])
    (wfS : ScatterDims.WF ⟨2, ![50000, C]⟩ ⟨2, ![650000, 1]⟩ ⟨2, ![650000, C]⟩ [1] [0] [0] 1)
    (srcCol dstCol : IVec ⟨2, ![650000, 1]⟩ 32)
    (hs : ∀ e : Fin 650000, srcCol (ix2 e (0 : Fin 1)) = Cert.Graph.wrap (sv (ix1 e)))
    (hd : ∀ e : Fin 650000, dstCol (ix2 e (0 : Fin 1)) = dv (ix1 e))
    (nrmT : FVec Ideal ⟨2, ![650000, C]⟩ .f32)
    (hn : ∀ (e : Fin 650000) (c : Fin C), nrmT (ix2 e c) = Cert.Graph.nrmOf sv dv e)
    (zeros : FVec Ideal ⟨2, ![50000, C]⟩ .f32) (hz : ∀ (n : Fin 50000) (c : Fin C), zeros (ix2 n c) = 0)
    (h : FVec Ideal ⟨2, ![50000, C]⟩ .f32) (n : Fin 50000) (c : Fin C) :
    Host.scatterAdd (Cert.RowGatherScatter.rowScatterDims 50000 650000 C wfS) zeros dstCol
        (mulf (Host.gather (Cert.RowGatherScatter.rowGatherDims 50000 650000 C wfG) h srcCol) nrmT) (ix2 n c)
      = Cert.Gcn.edgeAdd (Cert.Graph.srcOf sv) (Cert.Graph.hitOf dv) (Cert.Graph.nrmOf sv dv)
          (fun a j => h (ix2 a j)) n c := by
  rw [Cert.RowGatherScatter.scatterAdd_rows_apply, hz, hits_col dv dstCol hd]
  unfold Cert.Gcn.edgeAdd
  refine congrArg (fun s => (0 : EReal) + s) (Finset.sum_congr rfl fun e _ => ?_)
  rw [mulf_apply, Cert.RowGatherScatter.gather_rows_apply (by decide), rowOf_col sv srcCol hs, hn]

/-- ONE LAYER before the clipping: the product with the weight matrix, the sum over the edges, the bias. -/
theorem layerSecond_apply {K C : Nat}
    (wfD : DotDims.WF ⟨2, ![50000, K]⟩ ⟨2, ![K, C]⟩ ⟨2, ![50000, C]⟩ [1] [0] [0] [1] [] [])
    (wfG : GatherDims.WF ⟨2, ![50000, C]⟩ ⟨2, ![650000, 1]⟩ ⟨2, ![650000, C]⟩ [1] [0] [] [0] [] 1 ![1, C])
    (wfS : ScatterDims.WF ⟨2, ![50000, C]⟩ ⟨2, ![650000, 1]⟩ ⟨2, ![650000, C]⟩ [1] [0] [0] 1)
    (srcCol dstCol : IVec ⟨2, ![650000, 1]⟩ 32)
    (hs : ∀ e : Fin 650000, srcCol (ix2 e (0 : Fin 1)) = Cert.Graph.wrap (sv (ix1 e)))
    (hd : ∀ e : Fin 650000, dstCol (ix2 e (0 : Fin 1)) = dv (ix1 e))
    (nrmT : FVec Ideal ⟨2, ![650000, C]⟩ .f32)
    (hn : ∀ (e : Fin 650000) (c : Fin C), nrmT (ix2 e c) = Cert.Graph.nrmOf sv dv e)
    (zeros : FVec Ideal ⟨2, ![50000, C]⟩ .f32) (hz : ∀ (n : Fin 50000) (c : Fin C), zeros (ix2 n c) = 0)
    (prec : Option ContractPrecision)
    (A : FVec Ideal ⟨2, ![50000, K]⟩ .f32) (W : FVec Ideal ⟨2, ![K, C]⟩ .f32)
    (bT : FVec Ideal ⟨2, ![50000, C]⟩ .f32) (b : FVec Ideal ⟨1, ![C]⟩ .f32)
    (hb : ∀ (n : Fin 50000) (c : Fin C), bT (ix2 n c) = b (ix1 c)) (n : Fin 50000) (c : Fin C) :
    addf (Host.scatterAdd (Cert.RowGatherScatter.rowScatterDims 50000 650000 C wfS) zeros dstCol
        (mulf (Host.gather (Cert.RowGatherScatter.rowGatherDims 50000 650000 C wfG)
          (Host.dotGeneral (⟨[1], [0], [0], [1], [], [], wfD⟩ : DotDims _ _ _) prec A W) srcCol) nrmT)) bT (ix2 n c)
      = Cert.Gcn.layerSecond (Cert.Graph.srcOf sv) (Cert.Graph.hitOf dv) (Cert.Graph.nrmOf sv dv)
          (fun a j => A (ix2 a j)) (fun j k => W (ix2 j k)) (fun k => b (ix1 k)) n c := by
  rw [addf_apply, edgeAdd_apply sv dv wfG wfS srcCol dstCol hs hd nrmT hn zeros hz, hb]
  have hlin : (fun (a : Fin 50000) (j : Fin C) =>
        Host.dotGeneral (⟨[1], [0], [0], [1], [], [], wfD⟩ : DotDims _ _ _) prec A W (ix2 a j))
      = Cert.Gcn.lin (fun a j => A (ix2 a j)) (fun j k => W (ix2 j k)) := by
    funext a j
    exact Cert.HostProduct.dotGeneral_nn_apply wfD prec A W a j
  rw [hlin]
  rfl

/-- The clipping at zero. -/
theorem clip_apply {C : Nat} (R zT : FVec Ideal ⟨2, ![50000, C]⟩ .f32)
    (hz : ∀ (n : Fin 50000) (c : Fin C), zT (ix2 n c) = 0) (n : Fin 50000) (c : Fin C) :
    maximumf R zT (ix2 n c) = Cert.Gcn.clip (fun a j => R (ix2 a j)) n c := by
  rw [maximumf_apply, hz]
  rfl

end General

/-! ## The program's own index arrays and weights -/

section Columns

variable (x1 : (⟨S2x600000, .i32⟩ : BufTy).Contents (Elt Ideal))

/-- The target words spread as a column (the column the degree's sum is sent along). -/
theorem dst_v9 (e : Fin 650000) :
    val_main_v9 (F := Ideal) x1 (ix2 e (0 : Fin 1)) = val_main_v6 (F := Ideal) x1 (ix1 e) := by
  have hi : idx_main_v9 (ix2 e (0 : Fin 1)) = ix1 e := funext fun a => match a with | ⟨0, _⟩ => rfl
  rw [val_main_v9_apply, hi]

/-- The source words, negative ones counted from the end, spread as a column. -/
theorem src_v20 (e : Fin 650000) :
    val_main_v20 (F := Ideal) x1 (ix2 e (0 : Fin 1)) = Cert.Graph.wrap (val_main_v3 (F := Ideal) x1 (ix1 e)) := by
  have hi : idx_main_v20 (ix2 e (0 : Fin 1)) = ix1 e := funext fun a => match a with | ⟨0, _⟩ => rfl
  rw [val_main_v20_apply, hi, val_main_v19_apply, val_main_v16_apply, val_main_v18_apply, val_main_v15_apply,
    val_main_v17_apply]
  generalize val_main_v3 (F := Ideal) x1 (ix1 e) = w
  rfl

/-- The target words, negative ones counted from the end, spread as a column. -/
theorem dst_v27 (e : Fin 650000) :
    val_main_v27 (F := Ideal) x1 (ix2 e (0 : Fin 1)) = Cert.Graph.wrap (val_main_v6 (F := Ideal) x1 (ix1 e)) := by
  have hi : idx_main_v27 (ix2 e (0 : Fin 1)) = ix1 e := funext fun a => match a with | ⟨0, _⟩ => rfl
  rw [val_main_v27_apply, hi, val_main_v26_apply, val_main_v23_apply, val_main_v25_apply, val_main_v22_apply,
    val_main_v24_apply]
  generalize val_main_v6 (F := Ideal) x1 (ix1 e) = w
  rfl

/-- A NODE'S DEGREE: from zero, a one for every edge ending in the node. -/
theorem deg_v10 (n : Fin 50000) :
    val_main_v10 (F := Ideal) x1 (ix1 n)
      = Ideal.ofBits .f32 0x00000000#32
          + ∑ _e ∈ Cert.Graph.hitOf (val_main_v6 (F := Ideal) x1) n, Ideal.ofBits .f32 0x3F800000#32 := by
  unfold val_main_v10
  refine (Cert.VectorGatherScatter.scatterAdd_vec_apply (N := 50000) (E := 650000)
    scatter_S50000_S650000x1_S650000_n_0_0_1.wf (val_main_v8 (F := Ideal)) (val_main_v9 (F := Ideal) x1)
    (val_main_v7 (F := Ideal)) n).trans ?_
  rw [vhits_col (val_main_v6 (F := Ideal) x1) (val_main_v9 (F := Ideal) x1) (dst_v9 x1) n, val_main_v8_apply,
    val_main_cst_0_apply]
  refine congrArg (fun s => Ideal.ofBits .f32 0x00000000#32 + s) (Finset.sum_congr rfl fun e _ => ?_)
  rw [val_main_v7_apply, val_main_cst_apply]
  rfl

/-- A NODE'S WEIGHT is the graph's. -/
theorem weight_v14 (n : Fin 50000) :
    val_main_v14 (F := Ideal) x1 (ix1 n) = Cert.Graph.dOf (val_main_v6 (F := Ideal) x1) n := by
  rw [val_main_v14_apply, val_main_v12_apply, val_main_v13_apply, val_main_call0_v1_apply, val_main_call0_v0_apply,
    val_main_cst_2_apply, val_main_v11_apply, val_main_cst_1_apply, deg_v10 x1 n]
  unfold Cert.Graph.dOf Cert.Graph.weightOf
  generalize Cert.Graph.hitOf (val_main_v6 (F := Ideal) x1) n = S
  rfl

/-- The weight of the row an edge's source word names. -/
theorem weight_src (e : Fin 650000) :
    val_main_v21 (F := Ideal) x1 (ix1 e)
      = Cert.Graph.dOf (val_main_v6 (F := Ideal) x1) (Cert.Graph.rowOf (val_main_v3 (F := Ideal) x1 (ix1 e))) := by
  unfold val_main_v21
  refine (Cert.VectorGatherScatter.gather_vec_apply (N := 50000) (E := 650000) (by decide)
    gather_S50000_S650000x1_S650000_n_0_n_n_0_1_1.wf (val_main_v14 (F := Ideal) x1) (val_main_v20 (F := Ideal) x1) e).trans ?_
  refine Eq.trans ?_ (weight_v14 x1 (Cert.Graph.rowOf (val_main_v3 (F := Ideal) x1 (ix1 e))))
  refine congrArg (fun r : Fin 50000 => val_main_v14 (F := Ideal) x1 (ix1 r)) (Fin.ext ?_)
  show min (val_main_v20 (F := Ideal) x1 (ix2 e (0 : Fin 1))).toInt.toNat (50000 - 1) = _
  rw [src_v20 x1 e]
  rfl

/-- The weight of the row an edge's target word names. -/
theorem weight_dst (e : Fin 650000) :
    val_main_v28 (F := Ideal) x1 (ix1 e)
      = Cert.Graph.dOf (val_main_v6 (F := Ideal) x1) (Cert.Graph.rowOf (val_main_v6 (F := Ideal) x1 (ix1 e))) := by
  unfold val_main_v28
  refine (Cert.VectorGatherScatter.gather_vec_apply (N := 50000) (E := 650000) (by decide)
    gather_S50000_S650000x1_S650000_n_0_n_n_0_1_1.wf (val_main_v14 (F := Ideal) x1) (val_main_v27 (F := Ideal) x1) e).trans ?_
  refine Eq.trans ?_ (weight_v14 x1 (Cert.Graph.rowOf (val_main_v6 (F := Ideal) x1 (ix1 e))))
  refine congrArg (fun r : Fin 50000 => val_main_v14 (F := Ideal) x1 (ix1 r)) (Fin.ext ?_)
  show min (val_main_v27 (F := Ideal) x1 (ix2 e (0 : Fin 1))).toInt.toNat (50000 - 1) = _
  rw [dst_v27 x1 e]
  rfl

/-- AN EDGE'S WEIGHT is the graph's. -/
theorem nrm_v29 (e : Fin 650000) :
    val_main_v29 (F := Ideal) x1 (ix1 e)
      = Cert.Graph.nrmOf (val_main_v3 (F := Ideal) x1) (val_main_v6 (F := Ideal) x1) e := by
  rw [val_main_v29_apply, weight_src x1 e, weight_dst x1 e]
  rfl

end Columns

/-! ## The five layers, operation by operation -/

section Layers

variable (x0 : (⟨S50000x128, .f32⟩ : BufTy).Contents (Elt Ideal)) (x1 : (⟨S2x600000, .i32⟩ : BufTy).Contents (Elt Ideal))
  (x2 : (⟨S128x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal))
  (x8 : (⟨S256x256, .f32⟩ : BufTy).Contents (Elt Ideal)) (x9 : (⟨S256, .f32⟩ : BufTy).Contents (Elt Ideal))
  (x10 : (⟨S256x64, .f32⟩ : BufTy).Contents (Elt Ideal)) (x11 : (⟨S64, .f32⟩ : BufTy).Contents (Elt Ideal))

/-! ### First layer -/

theorem src_v36 (e : Fin 650000) :
    val_main_v36 (F := Ideal) x1 (ix2 e (0 : Fin 1)) = Cert.Graph.wrap (val_main_v3 (F := Ideal) x1 (ix1 e)) := by
  have hi : idx_main_v36 (ix2 e (0 : Fin 1)) = ix1 e := funext fun a => match a with | ⟨0, _⟩ => rfl
  rw [val_main_v36_apply, hi, val_main_v35_apply, val_main_v32_apply, val_main_v34_apply, val_main_v31_apply,
    val_main_v33_apply]
  generalize val_main_v3 (F := Ideal) x1 (ix1 e) = w
  rfl

theorem dst_v42 (e : Fin 650000) :
    val_main_v42 (F := Ideal) x1 (ix2 e (0 : Fin 1)) = val_main_v6 (F := Ideal) x1 (ix1 e) := by
  have hi : idx_main_v42 (ix2 e (0 : Fin 1)) = ix1 e := funext fun a => match a with | ⟨0, _⟩ => rfl
  rw [val_main_v42_apply, hi]

theorem nrm_v39 (e : Fin 650000) (c : Fin 256) :
    val_main_v39 (F := Ideal) x1 (ix2 e c)
      = Cert.Graph.nrmOf (val_main_v3 (F := Ideal) x1) (val_main_v6 (F := Ideal) x1) e := by
  have hi : idx_main_v38 (idx_main_v39 (ix2 e c)) = ix1 e := funext fun a => match a with | ⟨0, _⟩ => rfl
  rw [val_main_v39_apply, val_main_v38_apply, hi, nrm_v29 x1 e]

theorem zero_v41 (n : Fin 50000) (c : Fin 256) : val_main_v41 (F := Ideal) (ix2 n c) = (0 : EReal) := by
  rw [val_main_v41_apply, val_main_cst_8_apply]
  exact Ideal.ofBits_zero_f32

theorem bias_v45 (n : Fin 50000) (c : Fin 256) : val_main_v45 (F := Ideal) x3 (ix2 n c) = x3 (ix1 c) := by
  have hi : idx_main_v44 (idx_main_v45 (ix2 n c)) = ix1 c := funext fun a => match a with | ⟨0, _⟩ => rfl
  rw [val_main_v45_apply, val_main_v44_apply, hi]

theorem zero_call1 (n : Fin 50000) (c : Fin 256) : val_main_call1_v0 (F := Ideal) (ix2 n c) = (0 : EReal) := by
  rw [val_main_call1_v0_apply, val_main_call1_cst_apply]
  exact Ideal.ofBits_zero_f32

/-- THE FIRST LAYER, clipped. -/
theorem layer1 :
    (fun (a : Fin 50000) (j : Fin 256) => val_main_v47 (F := Ideal) x0 x1 x2 x3 (ix2 a j))
      = Cert.Gcn.clip (Cert.Gcn.layerSecond (Cert.Graph.srcOf (val_main_v3 (F := Ideal) x1))
          (Cert.Graph.hitOf (val_main_v6 (F := Ideal) x1))
          (Cert.Graph.nrmOf (val_main_v3 (F := Ideal) x1) (val_main_v6 (F := Ideal) x1))
          (fun (a : Fin 50000) (j : Fin 128) => x0 (ix2 a j)) (fun (j : Fin 128) (k : Fin 256) => x2 (ix2 j k))
          (fun (k : Fin 256) => x3 (ix1 k))) := by
  funext n c
  unfold val_main_v47
  rw [clip_apply _ _ zero_call1 n c]
  refine congrArg (fun R : Fin 50000 → Fin 256 → EReal => Cert.Gcn.clip R n c) ?_
  funext a j
  unfold val_main_v46 val_main_v43 val_main_v40 val_main_v37 val_main_v30
  exact layerSecond_apply (val_main_v3 (F := Ideal) x1) (val_main_v6 (F := Ideal) x1) _ _ _
    (val_main_v36 (F := Ideal) x1) (val_main_v42 (F := Ideal) x1) (src_v36 x1) (dst_v42 x1)
    (val_main_v39 (F := Ideal) x1) (nrm_v39 x1) (val_main_v41 (F := Ideal)) zero_v41 none
    x0 x2 (val_main_v45 (F := Ideal) x3) x3 (bias_v45 x3) a j

/-! ### Second layer -/

theorem src_v54 (e : Fin 650000) :
    val_main_v54 (F := Ideal) x1 (ix2 e (0 : Fin 1)) = Cert.Graph.wrap (val_main_v3 (F := Ideal) x1 (ix1 e)) := by
  have hi : idx_main_v54 (ix2 e (0 : Fin 1)) = ix1 e := funext fun a => match a with | ⟨0, _⟩ => rfl
  rw [val_main_v54_apply, hi, val_main_v53_apply, val_main_v50_apply, val_main_v52_apply, val_main_v49_apply,
    val_main_v51_apply]
  generalize val_main_v3 (F := Ideal) x1 (ix1 e) = w
  rfl

theorem dst_v60 (e : Fin 650000) :
    val_main_v60 (F := Ideal) x1 (ix2 e (0 : Fin 1)) = val_main_v6 (F := Ideal) x1 (ix1 e) := by
  have hi : idx_main_v60 (ix2 e (0 : Fin 1)) = ix1 e := funext fun a => match a with | ⟨0, _⟩ => rfl
  rw [val_main_v60_apply, hi]

theorem nrm_v57 (e : Fin 650000) (c : Fin 256) :
    val_main_v57 (F := Ideal) x1 (ix2 e c)
      = Cert.Graph.nrmOf (val_main_v3 (F := Ideal) x1) (val_main_v6 (F := Ideal) x1) e := by
  have hi : idx_main_v56 (idx_main_v57 (ix2 e c)) = ix1 e := funext fun a => match a with | ⟨0, _⟩ => rfl
  rw [val_main_v57_apply, val_main_v56_apply, hi, nrm_v29 x1 e]

theorem zero_v59 (n : Fin 50000) (c : Fin 256) : val_main_v59 (F := Ideal) (ix2 n c) = (0 : EReal) := by
  rw [val_main_v59_apply, val_main_cst_11_apply]
  exact Ideal.ofBits_zero_f32

theorem bias_v63 (n : Fin 50000) (c : Fin 256) : val_main_v63 (F := Ideal) x5 (ix2 n c) = x5 (ix1 c) := by
  have hi : idx_main_v62 (idx_main_v63 (ix2 n c)) = ix1 c := funext fun a => match a with | ⟨0, _⟩ => rfl
  rw [val_main_v63_apply, val_main_v62_apply, hi]

theorem zero_call2 (n : Fin 50000) (c : Fin 256) : val_main_call2_v0 (F := Ideal) (ix2 n c) = (0 : EReal) := by
  rw [val_main_call2_v0_apply, val_main_call2_cst_apply]
  exact Ideal.ofBits_zero_f32

/-- THE SECOND LAYER, clipped, of the first layer's table. -/
theorem layer2 :
    (fun (a : Fin 50000) (j : Fin 256) => val_main_v65 (F := Ideal) x0 x1 x2 x3 x4 x5 (ix2 a j))
      = Cert.Gcn.clip (Cert.Gcn.layerSecond (Cert.Graph.srcOf (val_main_v3 (F := Ideal) x1))
          (Cert.Graph.hitOf (val_main_v6 (F := Ideal) x1))
          (Cert.Graph.nrmOf (val_main_v3 (F := Ideal) x1) (val_main_v6 (F := Ideal) x1))
          (fun (a : Fin 50000) (j : Fin 256) => val_main_v47 (F := Ideal) x0 x1 x2 x3 (ix2 a j))
          (fun (j : Fin 256) (k : Fin 256) => x4 (ix2 j k)) (fun (k : Fin 256) => x5 (ix1 k))) := by
  funext n c
  unfold val_main_v65
  rw [clip_apply _ _ zero_call2 n c]
  refine congrArg (fun R : Fin 50000 → Fin 256 → EReal => Cert.Gcn.clip R n c) ?_
  funext a j
  unfold val_main_v64 val_main_v61 val_main_v58 val_main_v55 val_main_v48
  exact layerSecond_apply (val_main_v3 (F := Ideal) x1) (val_main_v6 (F := Ideal) x1) _ _ _
    (val_main_v54 (F := Ideal) x1) (val_main_v60 (F := Ideal) x1) (src_v54 x1) (dst_v60 x1)
    (val_main_v57 (F := Ideal) x1) (nrm_v57 x1) (val_main_v59 (F := Ideal)) zero_v59 none
    (val_main_v47 (F := Ideal) x0 x1 x2 x3) x4 (val_main_v63 (F := Ideal) x5) x5 (bias_v63 x5) a j

/-! ### Third layer -/

theorem src_v72 (e : Fin 650000) :
    val_main_v72 (F := Ideal) x1 (ix2 e (0 : Fin 1)) = Cert.Graph.wrap (val_main_v3 (F := Ideal) x1 (ix1 e)) := by
  have hi : idx_main_v72 (ix2 e (0 : Fin 1)) = ix1 e := funext fun a => match a with | ⟨0, _⟩ => rfl
  rw [val_main_v72_apply, hi, val_main_v71_apply, val_main_v68_apply, val_main_v70_apply, val_main_v67_apply,
    val_main_v69_apply]
  generalize val_main_v3 (F := Ideal) x1 (ix1 e) = w
  rfl

theorem dst_v78 (e : Fin 650000) :
    val_main_v78 (F := Ideal) x1 (ix2 e (0 : Fin 1)) = val_main_v6 (F := Ideal) x1 (ix1 e) := by
  have hi : idx_main_v78 (ix2 e (0 : Fin 1)) = ix1 e := funext fun a => match a with | ⟨0, _⟩ => rfl
  rw [val_main_v78_apply, hi]

theorem nrm_v75 (e : Fin 650000) (c : Fin 256) :
    val_main_v75 (F := Ideal) x1 (ix2 e c)
      = Cert.Graph.nrmOf (val_main_v3 (F := Ideal) x1) (val_main_v6 (F := Ideal) x1) e := by
  have hi : idx_main_v74 (idx_main_v75 (ix2 e c)) = ix1 e := funext fun a => match a with | ⟨0, _⟩ => rfl
  rw [val_main_v75_apply, val_main_v74_apply, hi, nrm_v29 x1 e]

theorem zero_v77 (n : Fin 50000) (c : Fin 256) : val_main_v77 (F := Ideal) (ix2 n c) = (0 : EReal) := by
  rw [val_main_v77_apply, val_main_cst_14_apply]
  exact Ideal.ofBits_zero_f32

theorem bias_v81 (n : Fin 50000) (c : Fin 256) : val_main_v81 (F := Ideal) x7 (ix2 n c) = x7 (ix1 c) := by
  have hi : idx_main_v80 (idx_main_v81 (ix2 n c)) = ix1 c := funext fun a => match a with | ⟨0, _⟩ => rfl
  rw [val_main_v81_apply, val_main_v80_apply, hi]

theorem zero_call3 (n : Fin 50000) (c : Fin 256) : val_main_call3_v0 (F := Ideal) (ix2 n c) = (0 : EReal) := by
  rw [val_main_call3_v0_apply, val_main_call3_cst_apply]
  exact Ideal.ofBits_zero_f32

/-- THE THIRD LAYER, clipped, of the second layer's table. -/
theorem layer3 :
    (fun (a : Fin 50000) (j : Fin 256) => val_main_v83 (F := Ideal) x0 x1 x2 x3 x4 x5 x6 x7 (ix2 a j))
      = Cert.Gcn.clip (Cert.Gcn.layerSecond (Cert.Graph.srcOf (val_main_v3 (F := Ideal) x1))
          (Cert.Graph.hitOf (val_main_v6 (F := Ideal) x1))
          (Cert.Graph.nrmOf (val_main_v3 (F := Ideal) x1) (val_main_v6 (F := Ideal) x1))
          (fun (a : Fin 50000) (j : Fin 256) => val_main_v65 (F := Ideal) x0 x1 x2 x3 x4 x5 (ix2 a j))
          (fun (j : Fin 256) (k : Fin 256) => x6 (ix2 j k)) (fun (k : Fin 256) => x7 (ix1 k))) := by
  funext n c
  unfold val_main_v83
  rw [clip_apply _ _ zero_call3 n c]
  refine congrArg (fun R : Fin 50000 → Fin 256 → EReal => Cert.Gcn.clip R n c) ?_
  funext a j
  unfold val_main_v82 val_main_v79 val_main_v76 val_main_v73 val_main_v66
  exact layerSecond_apply (val_main_v3 (F := Ideal) x1) (val_main_v6 (F := Ideal) x1) _ _ _
    (val_main_v72 (F := Ideal) x1) (val_main_v78 (F := Ideal) x1) (src_v72 x1) (dst_v78 x1)
    (val_main_v75 (F := Ideal) x1) (nrm_v75 x1) (val_main_v77 (F := Ideal)) zero_v77 none
    (val_main_v65 (F := Ideal) x0 x1 x2 x3 x4 x5) x6 (val_main_v81 (F := Ideal) x7) x7 (bias_v81 x7) a j

/-! ### Fourth layer -/

theorem src_v90 (e : Fin 650000) :
    val_main_v90 (F := Ideal) x1 (ix2 e (0 : Fin 1)) = Cert.Graph.wrap (val_main_v3 (F := Ideal) x1 (ix1 e)) := by
  have hi : idx_main_v90 (ix2 e (0 : Fin 1)) = ix1 e := funext fun a => match a with | ⟨0, _⟩ => rfl
  rw [val_main_v90_apply, hi, val_main_v89_apply, val_main_v86_apply, val_main_v88_apply, val_main_v85_apply,
    val_main_v87_apply]
  generalize val_main_v3 (F := Ideal) x1 (ix1 e) = w
  rfl

theorem dst_v96 (e : Fin 650000) :
    val_main_v96 (F := Ideal) x1 (ix2 e (0 : Fin 1)) = val_main_v6 (F := Ideal) x1 (ix1 e) := by
  have hi : idx_main_v96 (ix2 e (0 : Fin 1)) = ix1 e := funext fun a => match a with | ⟨0, _⟩ => rfl
  rw [val_main_v96_apply, hi]

theorem nrm_v93 (e : Fin 650000) (c : Fin 256) :
    val_main_v93 (F := Ideal) x1 (ix2 e c)
      = Cert.Graph.nrmOf (val_main_v3 (F := Ideal) x1) (val_main_v6 (F := Ideal) x1) e := by
  have hi : idx_main_v92 (idx_main_v93 (ix2 e c)) = ix1 e := funext fun a => match a with | ⟨0, _⟩ => rfl
  rw [val_main_v93_apply, val_main_v92_apply, hi, nrm_v29 x1 e]

theorem zero_v95 (n : Fin 50000) (c : Fin 256) : val_main_v95 (F := Ideal) (ix2 n c) = (0 : EReal) := by
  rw [val_main_v95_apply, val_main_cst_17_apply]
  exact Ideal.ofBits_zero_f32

theorem bias_v99 (n : Fin 50000) (c : Fin 256) : val_main_v99 (F := Ideal) x9 (ix2 n c) = x9 (ix1 c) := by
  have hi : idx_main_v98 (idx_main_v99 (ix2 n c)) = ix1 c := funext fun a => match a with | ⟨0, _⟩ => rfl
  rw [val_main_v99_apply, val_main_v98_apply, hi]

theorem zero_call4 (n : Fin 50000) (c : Fin 256) : val_main_call4_v0 (F := Ideal) (ix2 n c) = (0 : EReal) := by
  rw [val_main_call4_v0_apply, val_main_call4_cst_apply]
  exact Ideal.ofBits_zero_f32

/-- THE FOURTH LAYER, clipped, of the third layer's table. -/
theorem layer4 :
    (fun (a : Fin 50000) (j : Fin 256) => val_main_v101 (F := Ideal) x0 x1 x2 x3 x4 x5 x6 x7 x8 x9 (ix2 a j))
      = Cert.Gcn.clip (Cert.Gcn.layerSecond (Cert.Graph.srcOf (val_main_v3 (F := Ideal) x1))
          (Cert.Graph.hitOf (val_main_v6 (F := Ideal) x1))
          (Cert.Graph.nrmOf (val_main_v3 (F := Ideal) x1) (val_main_v6 (F := Ideal) x1))
          (fun (a : Fin 50000) (j : Fin 256) => val_main_v83 (F := Ideal) x0 x1 x2 x3 x4 x5 x6 x7 (ix2 a j))
          (fun (j : Fin 256) (k : Fin 256) => x8 (ix2 j k)) (fun (k : Fin 256) => x9 (ix1 k))) := by
  funext n c
  unfold val_main_v101
  rw [clip_apply _ _ zero_call4 n c]
  refine congrArg (fun R : Fin 50000 → Fin 256 → EReal => Cert.Gcn.clip R n c) ?_
  funext a j
  unfold val_main_v100 val_main_v97 val_main_v94 val_main_v91 val_main_v84
  exact layerSecond_apply (val_main_v3 (F := Ideal) x1) (val_main_v6 (F := Ideal) x1) _ _ _
    (val_main_v90 (F := Ideal) x1) (val_main_v96 (F := Ideal) x1) (src_v90 x1) (dst_v96 x1)
    (val_main_v93 (F := Ideal) x1) (nrm_v93 x1) (val_main_v95 (F := Ideal)) zero_v95 none
    (val_main_v83 (F := Ideal) x0 x1 x2 x3 x4 x5 x6 x7) x8 (val_main_v99 (F := Ideal) x9) x9 (bias_v99 x9) a j

/-! ### Fifth layer -/

theorem src_v108 (e : Fin 650000) :
    val_main_v108 (F := Ideal) x1 (ix2 e (0 : Fin 1)) = Cert.Graph.wrap (val_main_v3 (F := Ideal) x1 (ix1 e)) := by
  have hi : idx_main_v108 (ix2 e (0 : Fin 1)) = ix1 e := funext fun a => match a with | ⟨0, _⟩ => rfl
  rw [val_main_v108_apply, hi, val_main_v107_apply, val_main_v104_apply, val_main_v106_apply, val_main_v103_apply,
    val_main_v105_apply]
  generalize val_main_v3 (F := Ideal) x1 (ix1 e) = w
  rfl

theorem dst_v114 (e : Fin 650000) :
    val_main_v114 (F := Ideal) x1 (ix2 e (0 : Fin 1)) = val_main_v6 (F := Ideal) x1 (ix1 e) := by
  have hi : idx_main_v114 (ix2 e (0 : Fin 1)) = ix1 e := funext fun a => match a with | ⟨0, _⟩ => rfl
  rw [val_main_v114_apply, hi]

theorem nrm_v111 (e : Fin 650000) (c : Fin 64) :
    val_main_v111 (F := Ideal) x1 (ix2 e c)
      = Cert.Graph.nrmOf (val_main_v3 (F := Ideal) x1) (val_main_v6 (F := Ideal) x1) e := by
  have hi : idx_main_v110 (idx_main_v111 (ix2 e c)) = ix1 e := funext fun a => match a with | ⟨0, _⟩ => rfl
  rw [val_main_v111_apply, val_main_v110_apply, hi, nrm_v29 x1 e]

theorem zero_v113 (n : Fin 50000) (c : Fin 64) : val_main_v113 (F := Ideal) (ix2 n c) = (0 : EReal) := by
  rw [val_main_v113_apply, val_main_cst_20_apply]
  exact Ideal.ofBits_zero_f32

theorem bias_v117 (n : Fin 50000) (c : Fin 64) : val_main_v117 (F := Ideal) x11 (ix2 n c) = x11 (ix1 c) := by
  have hi : idx_main_v116 (idx_main_v117 (ix2 n c)) = ix1 c := funext fun a => match a with | ⟨0, _⟩ => rfl
  rw [val_main_v117_apply, val_main_v116_apply, hi]

/-- THE FIFTH LAYER (not clipped) of the fourth layer's table. -/
theorem layer5 (p : Fin 50000) (q : Fin 64) :
    val_main_v118 (F := Ideal) x0 x1 x2 x3 x4 x5 x6 x7 x8 x9 x10 x11 (ix2 p q)
      = Cert.Gcn.layerSecond (Cert.Graph.srcOf (val_main_v3 (F := Ideal) x1))
          (Cert.Graph.hitOf (val_main_v6 (F := Ideal) x1))
          (Cert.Graph.nrmOf (val_main_v3 (F := Ideal) x1) (val_main_v6 (F := Ideal) x1))
          (fun (a : Fin 50000) (j : Fin 256) => val_main_v101 (F := Ideal) x0 x1 x2 x3 x4 x5 x6 x7 x8 x9 (ix2 a j))
          (fun (j : Fin 256) (k : Fin 64) => x10 (ix2 j k)) (fun (k : Fin 64) => x11 (ix1 k)) p q := by
  unfold val_main_v118 val_main_v115 val_main_v112 val_main_v109 val_main_v102
  exact layerSecond_apply (val_main_v3 (F := Ideal) x1) (val_main_v6 (F := Ideal) x1) _ _ _
    (val_main_v108 (F := Ideal) x1) (val_main_v114 (F := Ideal) x1) (src_v108 x1) (dst_v114 x1)
    (val_main_v111 (F := Ideal) x1) (nrm_v111 x1) (val_main_v113 (F := Ideal)) zero_v113 none
    (val_main_v101 (F := Ideal) x0 x1 x2 x3 x4 x5 x6 x7 x8 x9) x10 (val_main_v117 (F := Ideal) x11) x11 (bias_v117 x11) p q

end Layers

/-! ## The five layers chained -/

/-- THE REFERENCE'S RESULT AT ONE ENTRY is the five-layer network of the graph its word vectors define. -/
theorem ref_value (x0 : (⟨S50000x128, .f32⟩ : BufTy).Contents (Elt Ideal)) (x1 : (⟨S2x600000, .i32⟩ : BufTy).Contents (Elt Ideal))
    (x2 : (⟨S128x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal))
    (x10 : (⟨S256x64, .f32⟩ : BufTy).Contents (Elt Ideal)) (x11 : (⟨S64, .f32⟩ : BufTy).Contents (Elt Ideal))
    (p : Fin 50000) (q : Fin 64) :
    val_main_v118 (F := Ideal) x0 x1 x2 x3 x4 x5 x6 x7 x8 x9 x10 x11 (ix2 p q)
      = Cert.Gcn.netSecond (Cert.Graph.srcOf (val_main_v3 (F := Ideal) x1)) (Cert.Graph.hitOf (val_main_v6 (F := Ideal) x1))
          (Cert.Graph.nrmOf (val_main_v3 (F := Ideal) x1) (val_main_v6 (F := Ideal) x1))
          (fun a j => x0 (ix2 a j))
          (fun j k => x2 (ix2 j k)) (fun k => x3 (ix1 k)) (fun j k => x4 (ix2 j k)) (fun k => x5 (ix1 k))
          (fun j k => x6 (ix2 j k)) (fun k => x7 (ix1 k)) (fun j k => x8 (ix2 j k)) (fun k => x9 (ix1 k))
          (fun j k => x10 (ix2 j k)) (fun k => x11 (ix1 k)) p q := by
  unfold Cert.Gcn.netSecond
  rw [← layer1 x0 x1 x2 x3, ← layer2 x0 x1 x2 x3 x4 x5, ← layer3 x0 x1 x2 x3 x4 x5 x6 x7,
    ← layer4 x0 x1 x2 x3 x4 x5 x6 x7 x8 x9]
  exact layer5 x0 x1 x2 x3 x4 x5 x6 x7 x8 x9 x10 x11 p q

end Cert.ReferenceIdeal.RefValue

end
-- ==== Proof.Bridge.lean ====
/-
  The two idealized programs compute one table.

  The reference's result, read at an entry, is five layers of graph convolution the SECOND way (every edge's row
  weighted by the product of its two endpoints' weights); the kernel's is five layers the FIRST way (rows weighted by
  the source's weight before they travel, sums weighted by the target's weight after). Both read the same graph off the
  same edge array: the source and target words the kernel's first stretch leaves are the reference's. Every node weight
  is a nonnegative real and, for an edge ending in `n`, the row its target word names is `n`: so the two ways agree at
  every extended-real table (`Cert.Gcn.net_eq`), whatever infinities the inputs hold.
-/
import proofs.«120852_j32744830665494_2_alg».proof.Defs
import proofs.«120852_j32744830665494_2_alg».proof.Proof.KRun
import proofs.«120852_j32744830665494_2_alg».proof.Proof.KChain
import proofs.«120852_j32744830665494_2_alg».proof.Proof.RefValue
import proofs.«120852_j32744830665494_2_alg».proof.Proof.Gen.Kernel.Frame
import proofs.«120852_j32744830665494_2_alg».proof.Proof.Gen.Pre_finite_inputs

set_option maxRecDepth 16384

noncomputable section

open Idealize.ShloMosaic Idealize.ShloMosaic.TcCoe Idealize.ShloMosaic.ValueIdx Idealize.SL.Sem

namespace Cert.Proof.Bridge

open Idealize.ShloMosaic.StableHlo

/-- The source words the kernel's first stretch leaves are the reference's, as terms of the edge array. -/
theorem srcWords_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Chain.srcWords m ρ c
      = Cert.ReferenceIdeal.Read.val_main_v3 (F := Ideal) (m ((c.tc : Thread Cert.KernelIdeal.nD Cert.KernelIdeal.τ).loc Cert.KernelIdeal.main_arg1)) := by
  unfold Cert.KernelIdeal.Chain.srcWords
  show StableHlo.after Cert.KernelIdeal.Gen.hostOps0 (Cert.KernelIdeal.Gen.W0 m ρ c) (Proc.devRef .tc Cert.KernelIdeal.main_v3) = _
  simp only [Cert.KernelIdeal.Gen.hostOps0]
  after_results
  rfl

/-- … and so are the target words. -/
theorem dstWords_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Chain.dstWords m ρ c
      = Cert.ReferenceIdeal.Read.val_main_v6 (F := Ideal) (m ((c.tc : Thread Cert.KernelIdeal.nD Cert.KernelIdeal.τ).loc Cert.KernelIdeal.main_arg1)) := by
  unfold Cert.KernelIdeal.Chain.dstWords
  show StableHlo.after Cert.KernelIdeal.Gen.hostOps0 (Cert.KernelIdeal.Gen.W0 m ρ c) (Proc.devRef .tc Cert.KernelIdeal.main_v6) = _
  simp only [Cert.KernelIdeal.Gen.hostOps0]
  after_results
  rfl

end Cert.Proof.Bridge

namespace Cert.Proof.Claims

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read over the extended reals. -/
theorem preserves : Cert.preserves_Kernel_KernelIdeal := trivial

/-- Both idealized programs end, from memories agreeing on the arguments, with one result table. -/
theorem algebraic : Cert.algebraic_KernelIdeal_ReferenceIdeal := by
  intro m ρ m' ρ' _ hagree
  refine ⟨fun c => Cert.KernelIdeal.Gen.W14 m ρ c (Proc.devRef .tc Cert.KernelIdeal.main_v76),
    Cert.KernelIdeal.Result.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v118_eq, a0, a1, a2, a3, a4, a5, a6, a7, a8, a9, a10, a11]
  funext i
  obtain ⟨p, q, rfl⟩ : ∃ (p : Fin 50000) (q : Fin 64), i = ix2 p q := ⟨i 0, i 1, eq_ix2 i⟩
  refine (Cert.ReferenceIdeal.RefValue.ref_value _ _ _ _ _ _ _ _ _ _ _ _ p q).trans ?_
  refine Eq.trans ?_ (Cert.KernelIdeal.Chain.result m ρ c p q).symm
  rw [← Bridge.srcWords_eq m ρ c, ← Bridge.dstWords_eq m ρ c]
  exact congrFun (congrFun (Cert.Gcn.net_eq _ _ _ _ _ _ _ _ _ _ _ _ _ _ _
    (fun n => Cert.Graph.dOf_real _ n) (fun n e he => Cert.Graph.nrmOf_of_hit _ _ n e he)) p) q

end Cert.Proof.Claims

end
-- ==== Proof.lean ====
/-
  A five-layer graph convolution: a Pallas kernel of six pipelined regions among host stretches against its jnp
  reference, equal over the extended reals.

  Every layer multiplies the node table by a weight matrix, sends each node's row along the graph's edges (the
  listed edges and one self-loop per node), adds up what arrives at every node, adds a bias and, between layers, clips
  at zero. The reference weights every travelling row by `deg(src)^(-1/2) · deg(dst)^(-1/2)`. The kernel scales a
  node's row by `deg^(-1/2)` once inside the region that computes it and scales the sum that arrives by the
  receiving node's `deg^(-1/2)` inside the next region. A node's weight is a nonnegative real — an in-degree is a
  natural number —, and multiplication by a nonnegative real distributes over every finite sum of extended reals, so
  the two programs agree at every input, finite or not (Proof/GcnSpec.lean, Proof/Graph.lean). The kernel's run is read
  boundary by boundary (Proof/KRun.lean, KHost.lean, KKept.lean, the Region modules, KChain.lean), the reference's
  operation by operation (Proof/RefValue.lean), and Proof/Bridge.lean joins them.
-/
import proofs.«120852_j32744830665494_2_alg».proof.Defs
import proofs.«120852_j32744830665494_2_alg».proof.Proof.Gen.Kernel
import proofs.«120852_j32744830665494_2_alg».proof.Proof.Gen.Kernel.Skeleton
import proofs.«120852_j32744830665494_2_alg».proof.Proof.Gen.Kernel.Launch
import proofs.«120852_j32744830665494_2_alg».proof.Proof.Gen.Kernel.Points
import proofs.«120852_j32744830665494_2_alg».proof.Proof.Gen.Kernel.Frame
import proofs.«120852_j32744830665494_2_alg».proof.Proof.Gen.KernelIdeal
import proofs.«120852_j32744830665494_2_alg».proof.Proof.Gen.KernelIdeal.Skeleton
import proofs.«120852_j32744830665494_2_alg».proof.Proof.Gen.KernelIdeal.Launch
import proofs.«120852_j32744830665494_2_alg».proof.Proof.Gen.KernelIdeal.Points
import proofs.«120852_j32744830665494_2_alg».proof.Proof.Gen.KernelIdeal.Frame
import proofs.«120852_j32744830665494_2_alg».proof.Proof.Gen.ReferenceIdeal
import proofs.«120852_j32744830665494_2_alg».proof.Proof.Gen.Pre_finite_inputs
import proofs.«120852_j32744830665494_2_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_referenceIdeal, Claims.preserves, Claims.algebraic⟩

end Cert.Proof

end
